-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S50 : Shape := ⟨1, ![50]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg7 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  main_v23

def fn {F : FTy → Type} [FloatOps F] (main_arg0 : FVec F S50000x128 .f32) (main_arg1 : IVec S640000 32) (main_arg2 : IVec S640000 32) (main_arg3 : IVec S50 32) (main_arg4 : FVec F S3x128x128 .f32) (main_arg5 : FVec F S3x128 .f32) (main_arg6 : FVec F S3x128 .f32) (main_arg7 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg6
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg7 main_v13 main_v16
-- ==== Kernel.lean ====
abbrev S50000x128 : Shape := ⟨2, ![50000, 128]⟩
abbrev S640000 : Shape := ⟨1, ![640000]⟩
abbrev S50 : Shape := ⟨1, ![50]⟩
abbrev S3x128x128 : Shape := ⟨3, ![3, 128, 128]⟩
abbrev S3x128 : Shape := ⟨2, ![3, 128]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S1x128x128 : Shape := ⟨3, ![1, 128, 128]⟩
abbrev S128x128 : Shape := ⟨2, ![128, 128]⟩
abbrev S2000x128 : Shape := ⟨2, ![2000, 128]⟩
abbrev S2000x1 : Shape := ⟨2, ![2000, 1]⟩
abbrev S640000x128 : Shape := ⟨2, ![640000, 128]⟩
abbrev S1x128 : Shape := ⟨2, ![1, 128]⟩
abbrev S128 : Shape := ⟨1, ![128]⟩
abbrev S2000 : Shape := ⟨1, ![2000]⟩
abbrev S1 : Shape := ⟨1, ![1]⟩
abbrev S49 : Shape := ⟨1, ![49]⟩
abbrev S50x1 : Shape := ⟨2, ![50, 1]⟩
abbrev S50x128 : Shape := ⟨2, ![50, 128]⟩

abbrev nBuf : Space → Nat
  | .hbm => 122
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S50, .i32⟩
  | .hbm, ⟨4, _⟩ => ⟨S3x128x128, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S_, .f32⟩
  | .hbm, ⟨9, _⟩ => ⟨S640000, .f32⟩
  | .hbm, ⟨10, _⟩ => ⟨S_, .f32⟩
  | .hbm, ⟨11, _⟩ => ⟨S50000, .f32⟩
  | .hbm, ⟨12, _⟩ => ⟨S640000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S1x128x128, .f32⟩
  | .hbm, ⟨29, _⟩ => ⟨S128x128, .f32⟩
  | .hbm, ⟨30, _⟩ => ⟨S50000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x128, .f32⟩
  | .hbm, ⟨40, _⟩ => ⟨S_, .f32⟩
  | .hbm, ⟨41, _⟩ => ⟨S50000x128, .f32⟩
  | .hbm, ⟨42, _⟩ => ⟨S640000x1, .i32⟩
  | .hbm, ⟨43, _⟩ => ⟨S50000x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S50000x128, .f32⟩
  | .hbm, ⟨54, _⟩ => ⟨S1x128x128, .f32⟩
  | .hbm, ⟨55, _⟩ => ⟨S128x128, .f32⟩
  | .hbm, ⟨56, _⟩ => ⟨S50000x128, .f32⟩
  | .hbm, ⟨57, _⟩ => ⟨S_, .i32⟩
  | .hbm, ⟨58, _⟩ => ⟨S640000, .i32⟩
  | .hbm, ⟨59, _⟩ => ⟨S640000, .i1⟩
  | .hbm, ⟨60, _⟩ => ⟨S_, .i32⟩
  | .hbm, ⟨61, _⟩ => ⟨S640000, .i32⟩
  | .hbm, ⟨62, _⟩ => ⟨S640000, .i32⟩
  | .hbm, ⟨63, _⟩ => ⟨S640000, .i32⟩
  | .hbm, ⟨64, _⟩ => ⟨S640000x1, .i32⟩
  | .hbm, ⟨65, _⟩ => ⟨S640000x128, .f32⟩
  | .hbm, ⟨66, _⟩ => ⟨S_, .f32⟩
  | .hbm, ⟨67, _⟩ => ⟨S50000x128, .f32⟩
  | .hbm, ⟨68, _⟩ => ⟨S640000x1, .i32⟩
  | .hbm, ⟨69, _⟩ => ⟨S50000x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S50000x128, .f32⟩
  | .hbm, ⟨80, _⟩ => ⟨S1x128x128, .f32⟩
  | .hbm, ⟨81, _⟩ => ⟨S128x128, .f32⟩
  | .hbm, ⟨82, _⟩ => ⟨S50000x128, .f32⟩
  | .hbm, ⟨83, _⟩ => ⟨S_, .i32⟩
  | .hbm, ⟨84, _⟩ => ⟨S640000, .i32⟩
  | .hbm, ⟨85, _⟩ => ⟨S640000, .i1⟩
  | .hbm, ⟨86, _⟩ => ⟨S_, .i32⟩
  | .hbm, ⟨87, _⟩ => ⟨S640000, .i32⟩
  | .hbm, ⟨88, _⟩ => ⟨S640000, .i32⟩
  | .hbm, ⟨89, _⟩ => ⟨S640000, .i32⟩
  | .hbm, ⟨90, _⟩ => ⟨S640000x1, .i32⟩
  | .hbm, ⟨91, _⟩ => ⟨S640000x128, .f32⟩
  | .hbm, ⟨92, _⟩ => ⟨S_, .f32⟩
  | .hbm, ⟨93, _⟩ => ⟨S50000x128, .f32⟩
  | .hbm, ⟨94, _⟩ => ⟨S640000x1, .i32⟩
  | .hbm, ⟨95, _⟩ => ⟨S50000x128, .f32⟩
  | .hbm, ⟨96, _⟩ => ⟨S1x128, .f32⟩
  | .hbm, ⟨97, _⟩ => ⟨S128, .f32⟩
  | .hbm, ⟨98, _⟩ => ⟨S1x128, .f32⟩
  | .hbm, ⟨99, _⟩ => ⟨S128, .f32⟩
  | .hbm, ⟨100, _⟩ => ⟨S1x128, .f32⟩
  | .hbm, ⟨101, _⟩ => ⟨S128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S50000x128, .f32⟩
  | .hbm, ⟨106, _⟩ => ⟨S_, .i32⟩
  | .hbm, ⟨107, _⟩ => ⟨S1, .i32⟩
  | .hbm, ⟨108, _⟩ => ⟨S49, .i32⟩
  | .hbm, ⟨109, _⟩ => ⟨S50, .i32⟩
  | .hbm, ⟨110, _⟩ => ⟨S_, .i32⟩
  | .hbm, ⟨111, _⟩ => ⟨S_, .i32⟩
  | .hbm, ⟨112, _⟩ => ⟨S50, .i32⟩
  | .hbm, ⟨113, _⟩ => ⟨S_, .i32⟩
  | .hbm, ⟨114, _⟩ => ⟨S50, .i32⟩
  | .hbm, ⟨115, _⟩ => ⟨S50, .i1⟩
  | .hbm, ⟨116, _⟩ => ⟨S_, .i32⟩
  | .hbm, ⟨117, _⟩ => ⟨S50, .i32⟩
  | .hbm, ⟨118, _⟩ => ⟨S50, .i32⟩
  | .hbm, ⟨119, _⟩ => ⟨S50, .i32⟩
  | .hbm, ⟨120, _⟩ => ⟨S50x1, .i32⟩
  | .hbm, ⟨121, _⟩ => ⟨S50x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x1, .f32⟩
  | .local _ .vmem, ⟨20, _⟩ => ⟨S2000x1, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S2000x1, .f32⟩
  | .local _ .vmem, ⟨36, _⟩ => ⟨S2000x1, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x1, .f32⟩
  | .local _ .vmem, ⟨42, _⟩ => ⟨S2000x1, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_12 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_call0_call0_c : Ref sig .tc := ⟨.hbm, 110, rfl⟩
abbrev main_call0_call0_v0 : Ref sig .tc := ⟨.hbm, 111, rfl⟩
abbrev main_v87 : Ref sig .tc := ⟨.hbm, 112, rfl⟩
abbrev main_c_13 : Ref sig .tc := ⟨.hbm, 113, rfl⟩
abbrev main_v88 : Ref sig .tc := ⟨.hbm, 114, rfl⟩
abbrev main_v89 : Ref sig .tc := ⟨.hbm, 115, rfl⟩
abbrev main_c_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1 : S_.BroadcastsInDim S1 (![] : Fin 0 → Fin S1.rank)
  slices_S50_S49_0 : S50.Slices ![0] S49
  concatenates_S1_S49_S50_d0 : Shape.Concatenates [S1, S49] S50 0
  bcast_S_S_ : S_.BroadcastsInDim S_ (![] : Fin 0 → Fin S_.rank)
  reduceWindows_S50_S50_w50s1p49_0 : S50.ReduceWindows (![50] : Fin 1 → Nat) ![1] ![49] ![0] S50
  h_S_ : 0 < S_.numel
  bcast_S_S50 : S_.BroadcastsInDim S50 (![] : Fin 0 → Fin S50.rank)
  bcast_S50_S50x1_0 : S50.BroadcastsInDim S50x1 (![0] : Fin 1 → Fin S50x1.rank)
  scatter_S50000_S640000x1_S640000_n_0_0_1_wf : ScatterDims.WF S50000 S640000x1 S640000 [] [0] [0] 1
  dot_S2000x128_S128x128_S2000x128_1_0_0_1_n_n_wf : DotDims.WF S2000x128 S128x128 S2000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  gather_S50000x128_S50x1_S50x128_1_0_n_n_0_1_1128_wf : GatherDims.WF S50000x128 S50x1 S50x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def gather_S50000x128_S50x1_S50x128_1_0_n_n_0_1_1128 : GatherDims S50000x128 S50x1 S50x128 where
  offsetDims := [1]
  collapsedSliceDims := [0]
  operandBatchingDims := []
  startIndicesBatchingDims := []
  startIndexMap := [0]
  indexVectorDim := 1
  sliceSizes := ![1, 128]
  wf := gather_S50000x128_S50x1_S50x128_1_0_n_n_0_1_1128_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v60) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v10) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v63) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S640000 : Shape := ⟨1, ![640000]⟩
abbrev S50 : Shape := ⟨1, ![50]⟩
abbrev S3x128x128 : Shape := ⟨3, ![3, 128, 128]⟩
abbrev S3x128 : Shape := ⟨2, ![3, 128]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S1x128x128 : Shape := ⟨3, ![1, 128, 128]⟩
abbrev S128x128 : Shape := ⟨2, ![128, 128]⟩
abbrev S640000x128 : Shape := ⟨2, ![640000, 128]⟩
abbrev S1x128 : Shape := ⟨2, ![1, 128]⟩
abbrev S128 : Shape := ⟨1, ![128]⟩
abbrev S1 : Shape := ⟨1, ![1]⟩
abbrev S49 : Shape := ⟨1, ![49]⟩
abbrev S50x1 : Shape := ⟨2, ![50, 1]⟩
abbrev S50x128 : Shape := ⟨2, ![50, 128]⟩

abbrev nBuf : Space → Nat
  | .hbm => 227
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S50, .i32⟩
  | 4 => ⟨S3x128x128, .f32⟩
  | 5 => ⟨S3x128, .f32⟩
  | 6 => ⟨S3x128, .f32⟩
  | 7 => ⟨S3x128, .f32⟩
  | 8 => ⟨S_, .f32⟩
  | 9 => ⟨S640000, .f32⟩
  | 10 => ⟨S_, .f32⟩
  | 11 => ⟨S50000, .f32⟩
  | 12 => ⟨S640000x1, .i32⟩
  | 13 => ⟨S50000, .f32⟩
  | 14 => ⟨S_, .f32⟩
  | 15 => ⟨S50000, .f32⟩
  | 16 => ⟨S640000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S50000x1, .f32⟩
  | 23 => ⟨S_, .f32⟩
  | 24 => ⟨S50000, .f32⟩
  | 25 => ⟨S50000, .f32⟩
  | 26 => ⟨S50000, .f32⟩
  | 27 => ⟨S50000x1, .f32⟩
  | 28 => ⟨S1x128x128, .f32⟩
  | 29 => ⟨S128x128, .f32⟩
  | 30 => ⟨S50000x128, .f32⟩
  | 31 => ⟨S50000x128, .f32⟩
  | 32 => ⟨S50000x128, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000x128, .f32⟩
  | 42 => ⟨S_, .f32⟩
  | 43 => ⟨S50000x128, .f32⟩
  | 44 => ⟨S640000x1, .i32⟩
  | 45 => ⟨S50000x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S128, .f32⟩
  | 57 => ⟨S_, .f32⟩
  | 58 => ⟨S50000, .f32⟩
  | 59 => ⟨S50000x1, .f32⟩
  | 60 => ⟨S_, .f32⟩
  | 61 => ⟨S50000x1, .f32⟩
  | 62 => ⟨S50000x1, .f32⟩
  | 63 => ⟨S50000x128, .f32⟩
  | 64 => ⟨S50000x128, .f32⟩
  | 65 => ⟨S50000x128, .f32⟩
  | 66 => ⟨S_, .f32⟩
  | 67 => ⟨S50000, .f32⟩
  | 68 => ⟨S50000x1, .f32⟩
  | 69 => ⟨S_, .f32⟩
  | 70 => ⟨S50000x1, .f32⟩
  | 71 => ⟨S50000x1, .f32⟩
  | 72 => ⟨S50000x128, .f32⟩
  | 73 => ⟨S50000x128, .f32⟩
  | 74 => ⟨S_, .f32⟩
  | 75 => ⟨S50000x1, .f32⟩
  | 76 => ⟨S50000x1, .f32⟩
  | 77 => ⟨S50000x1, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S50000x128, .f32⟩
  | 93 => ⟨S50000x128, .f32⟩
  | 94 => ⟨S_, .i32⟩
  | 95 => ⟨S640000, .i32⟩
  | 96 => ⟨S640000, .i1⟩
  | 97 => ⟨S_, .i32⟩
  | 98 => ⟨S640000, .i32⟩
  | 99 => ⟨S640000, .i32⟩
  | 100 => ⟨S640000, .i32⟩
  | 101 => ⟨S640000x1, .i32⟩
  | 102 => ⟨S640000x128, .f32⟩
  | 103 => ⟨S_, .f32⟩
  | 104 => ⟨S50000x128, .f32⟩
  | 105 => ⟨S640000x1, .i32⟩
  | 106 => ⟨S50000x128, .f32⟩
  | 107 => ⟨S50000x128, .f32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S128, .f32⟩
  | 116 => ⟨S1x128, .f32⟩
  | 117 => ⟨S128, .f32⟩
  | 118 => ⟨S_, .f32⟩
  | 119 => ⟨S50000, .f32⟩
  | 120 => ⟨S50000x1, .f32⟩
  | 121 => ⟨S_, .f32⟩
  | 122 => ⟨S50000x1, .f32⟩
  | 123 => ⟨S50000x1, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000, .f32⟩
  | 1 => ⟨S50000x1, .f32⟩
  | 2 => ⟨S_, .f32⟩
  | 3 => ⟨S50000x1, .f32⟩
  | 4 => ⟨S50000x1, .f32⟩
  | 5 => ⟨S50000x128, .f32⟩
  | 6 => ⟨S50000x128, .f32⟩
  | 7 => ⟨S_, .f32⟩
  | 8 => ⟨S50000x1, .f32⟩
  | 9 => ⟨S50000x1, .f32⟩
  | 10 => ⟨S50000x1, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x128x128, .f32⟩
  | 23 => ⟨S128x128, .f32⟩
  | 24 => ⟨S50000x128, .f32⟩
  | 25 => ⟨S50000x128, .f32⟩
  | 26 => ⟨S50000x128, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000x128, .f32⟩
  | 36 => ⟨S_, .f32⟩
  | 37 => ⟨S50000x128, .f32⟩
  | 38 => ⟨S640000x1, .i32⟩
  | 39 => ⟨S50000x128, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S128, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x128, .f32⟩
  | 58 => ⟨S50000x128, .f32⟩
  | 59 => ⟨S50000x128, .f32⟩
  | 60 => ⟨S_, .f32⟩
  | 61 => ⟨S50000, .f32⟩
  | 62 => ⟨S50000x1, .f32⟩
  | 63 => ⟨S_, .f32⟩
  | 64 => ⟨S50000x1, .f32⟩
  | 65 => ⟨S50000x1, .f32⟩
  | 66 => ⟨S50000x128, .f32⟩
  | 67 => ⟨S50000x128, .f32⟩
  | 68 => ⟨S_, .f32⟩
  | 69 => ⟨S50000x1, .f32⟩
  | 70 => ⟨S50000x1, .f32⟩
  | 71 => ⟨S50000x1, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S1, .i32⟩
  | 85 => ⟨S49, .i32⟩
  | 86 => ⟨S50, .i32⟩
  | 87 => ⟨S_, .i32⟩
  | 88 => ⟨S_, .i32⟩
  | 89 => ⟨S50, .i32⟩
  | 90 => ⟨S_, .i32⟩
  | 91 => ⟨S50, .i32⟩
  | 92 => ⟨S50, .i1⟩
  | 93 => ⟨S_, .i32⟩
  | 94 => ⟨S50, .i32⟩
  | 95 => ⟨S50, .i32⟩
  | 96 => ⟨S50, .i32⟩
  | 97 => ⟨S50x1, .i32⟩
  | 98 => ⟨S50x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call0_cst : Ref sig .tc := ⟨.hbm, 86, rfl⟩
abbrev main_call0_v0 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_11 : Ref sig .tc := ⟨.hbm, 94, rfl⟩
abbrev main_v71 : Ref sig .tc := ⟨.hbm, 95, rfl⟩
abbrev main_v72 : Ref sig .tc := ⟨.hbm, 96, rfl⟩
abbrev main_c_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_14 : Ref sig .tc := ⟨.hbm, 118, rfl⟩
abbrev main_v92 : Ref sig .tc := ⟨.hbm, 119, rfl⟩
abbrev main_v93 : Ref sig .tc := ⟨.hbm, 120, rfl⟩
abbrev main_cst_15 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_16 : Ref sig .tc := ⟨.hbm, 127, rfl⟩
abbrev main_v99 : Ref sig .tc := ⟨.hbm, 128, rfl⟩
abbrev main_v100 : Ref sig .tc := ⟨.hbm, 129, rfl⟩
abbrev main_cst_17 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_18 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_call1_cst : Ref sig .tc := ⟨.hbm, 147, rfl⟩
abbrev main_call1_v0 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_c_19 : Ref sig .tc := ⟨.hbm, 155, rfl⟩
abbrev main_v122 : Ref sig .tc := ⟨.hbm, 156, rfl⟩
abbrev main_v123 : Ref sig .tc := ⟨.hbm, 157, rfl⟩
abbrev main_c_20 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_21 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_22 : Ref sig .tc := ⟨.hbm, 179, rfl⟩
abbrev main_v143 : Ref sig .tc := ⟨.hbm, 180, rfl⟩
abbrev main_v144 : Ref sig .tc := ⟨.hbm, 181, rfl⟩
abbrev main_cst_23 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_24 : Ref sig .tc := ⟨.hbm, 188, rfl⟩
abbrev main_v150 : Ref sig .tc := ⟨.hbm, 189, rfl⟩
abbrev main_v151 : Ref sig .tc := ⟨.hbm, 190, rfl⟩
abbrev main_cst_25 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_26 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_call2_cst : Ref sig .tc := ⟨.hbm, 208, rfl⟩
abbrev main_call2_v0 : Ref sig .tc := ⟨.hbm, 209, rfl⟩
abbrev main_v167 : Ref sig .tc := ⟨.hbm, 210, rfl⟩
abbrev main_c_27 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_call3_call0_c : Ref sig .tc := ⟨.hbm, 215, rfl⟩
abbrev main_call3_call0_v0 : Ref sig .tc := ⟨.hbm, 216, rfl⟩
abbrev main_v171 : Ref sig .tc := ⟨.hbm, 217, rfl⟩
abbrev main_c_28 : Ref sig .tc := ⟨.hbm, 218, rfl⟩
abbrev main_v172 : Ref sig .tc := ⟨.hbm, 219, rfl⟩
abbrev main_v173 : Ref sig .tc := ⟨.hbm, 220, rfl⟩
abbrev main_c_29 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1 : S_.BroadcastsInDim S1 (![] : Fin 0 → Fin S1.rank)
  slices_S50_S49_0 : S50.Slices ![0] S49
  concatenates_S1_S49_S50_d0 : Shape.Concatenates [S1, S49] S50 0
  bcast_S_S_ : S_.BroadcastsInDim S_ (![] : Fin 0 → Fin S_.rank)
  reduceWindows_S50_S50_w50s1p49_0 : S50.ReduceWindows (![50] : Fin 1 → Nat) ![1] ![49] ![0] S50
  bcast_S_S50 : S_.BroadcastsInDim S50 (![] : Fin 0 → Fin S50.rank)
  bcast_S50_S50x1_0 : S50.BroadcastsInDim S50x1 (![0] : Fin 1 → Fin S50x1.rank)
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  gather_S50000x128_S50x1_S50x128_1_0_n_n_0_1_1128_wf : GatherDims.WF S50000x128 S50x1 S50x128 [1] [0] [] [0] [] 1 ![1, 128]

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def gather_S50000x128_S50x1_S50x128_1_0_n_n_0_1_1128 : GatherDims S50000x128 S50x1 S50x128 where
  offsetDims := [1]
  collapsedSliceDims := [0]
  operandBatchingDims := []
  startIndicesBatchingDims := []
  startIndexMap := [0]
  indexVectorDim := 1
  sliceSizes := ![1, 128]
  wf := gather_S50000x128_S50x1_S50x128_1_0_n_n_0_1_1128_wf

class Facts : Prop extends Facts₀ where

variable [Facts]
-- ==== Proof.KernelRun.lean ====
/-
  The idealized kernel program's run, with its result named.

  From any launch memory every weakly fair execution of the program terminates, nothing faulting, with the argument
  arrays as launched and the result buffer at the last boundary's contents — the fold `W15` of the host stretches
  and the launches' write-backs over the launch memory. The launch argument is the frame's: the program is its
  fifteen segments, each entered from the previous one's exit contents; what is added here is only that the last
  thread state is also read at the result buffer.
-/
import proofs.«102242_j71691594105496_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every final state has the result buffer at the last boundary's contents and the arguments as launched. -/
theorem run : θ_run defs (onTc (τ := τ) (main (F := F))) ⟨m, fun _ => 0, ρ⟩ (fun r => ∀ c : Dev nD,
      r.2.mem ((c.tc : Thread nD τ).loc main_v94) = W15 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v94 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c)⟩)

end Cert.KernelIdeal.RunValue

end
-- ==== Proof.LayerTerms.lean ====
/-
  The stages of three graph-convolution layers, each as one whole-array function of its operands.

  A layer takes node features `x : [N, D]`, a weight `w : [D, D]`, row vectors `b g be : [1, D]`, the two degree
  scales `io ii : [N, 1]` and the edge lists, and returns

    relu (layerNorm ((A (x · w ⊙ io)) ⊙ ii + b) ⊙ g + be)

  where `⊙` spreads a column or a row over the matrix, `A` gathers the rows named by the (wrapped) source list
  and adds each into the row its destination names, and `layerNorm h = (h − mean h) · rsqrt (mean ((h − mean h)²) + ε)`
  along each row, the means being the row sums divided by `D = 128`. The result of the whole computation gathers
  fifty rows of the third layer's output, at the exclusive running sums of the graph sizes.
  The functions are spelt with the host operations and literals of the plain program, so that its run ends at
  `out` by unfolding; `N = 50000`, `D = 128`, `E = 640000`.
-/
import proofs.«102242_j71691594105496_1_alg».proof.ReferenceIdeal

noncomputable section

namespace Cert.LayerTerms

open Idealize.ShloMosaic Cert.ReferenceIdeal

variable {F : FTy → Type} [FloatOps F] [Cert.ReferenceIdeal.Facts]
open Cert.ReferenceIdeal.Facts₀ Cert.ReferenceIdeal.Facts

/-- The contents of a buffer of shape `S` and element type `e`. -/
abbrev Arr (F : FTy → Type) (S : Shape) (e : EltTy) : Type := (⟨S, e⟩ : BufTy).Contents (Elt F)

/-- `1 / sqrt (max (deg, 1))` as a column, `deg v` the number of edges whose entry in `idx` is `v`. -/
def invSqrtDeg (idx : Arr F S640000 .i32) : Arr F S50000x1 .f32 :=
  broadcastInDim S50000x1 ![0] bcast_S50000_S50000x1_0
    (Host.rsqrt (maximumf
      (Host.scatterAdd scatter_S50000_S640000x1_S640000_n_0_0_1
        (broadcastInDim S50000 ![] bcast_S_S50000 (constant S_ .f32 0x00000000#32))
        (broadcastInDim S640000x1 ![0] bcast_S640000_S640000x1_0 idx)
        (broadcastInDim S640000 ![] bcast_S_S640000 (constant S_ .f32 0x3F800000#32)))
      (broadcastInDim S50000 ![] bcast_S_S50000 (constant S_ .f32 0x3F800000#32))))

/-- The source list as a column of row numbers, a negative entry counted from the end. -/
def wrapIdx (src : Arr F S640000 .i32) : Arr F S640000x1 .i32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 50000#32))) src)

/-- `(x · w) ⊙ io`: the features times the weight, each row scaled by its entry of the column `io`. -/
def scaledProduct (x : Arr F S50000x128 .f32) (w : Arr F S128x128 .f32) (io : Arr F S50000x1 .f32) : Arr F S50000x128 .f32 :=
  mulf (Host.dotGeneral dot_S50000x128_S128x128_S50000x128_1_0_0_1_n_n none x w)
    (broadcastInDim S50000x128 ![0, 1] bcast_S50000x1_S50000x128_0_1 io)

/-- Row `v` of the result is the sum of the rows `h (src e)` over the edges `e` with `dst e = v`. -/
def aggregate (h : Arr F S50000x128 .f32) (src dst : Arr F S640000 .i32) : Arr F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (Host.gather gather_S50000x128_S640000x1_S640000x128_1_0_n_n_0_1_1128 h (wrapIdx src))

/-- `a ⊙ ii + b`: what the normalization is applied to. -/
def affineIn (a : Arr F S50000x128 .f32) (ii : Arr F S50000x1 .f32) (b : Arr F S1x128 .f32) : Arr F S50000x128 .f32 :=
  addf (mulf a (broadcastInDim S50000x128 ![0, 1] bcast_S50000x1_S50000x128_0_1 ii))
    (broadcastInDim S50000x128 ![0, 1] bcast_S1x128_S50000x128_0_1 b)

/-- The mean of each row, as a column: the row sum divided by 128. -/
def rowMean (h : Arr F S50000x128 .f32) : Arr F S50000x1 .f32 :=
  Host.divf
    (broadcastInDim S50000x1 ![0] bcast_S50000_S50000x1_0
      (Host.reduceAdd h (constant S_ .f32 0x00000000#32) reducesTo_S50000x128_S50000_d1 h_S_))
    (broadcastInDim S50000x1 ![] bcast_S_S50000x1 (constant S_ .f32 0x43000000#32))

/-- Each entry minus its row's mean. -/
def centered (h : Arr F S50000x128 .f32) : Arr F S50000x128 .f32 :=
  subf h (broadcastInDim S50000x128 ![0, 1] bcast_S50000x1_S50000x128_0_1 (rowMean h))

/-- `rsqrt (var + ε)` of each row as a column, `var` the mean of the squared centered entries. -/
def invStd (h : Arr F S50000x128 .f32) : Arr F S50000x1 .f32 :=
  Host.rsqrt (addf (rowMean (mulf (centered h) (centered h)))
    (broadcastInDim S50000x1 ![] bcast_S_S50000x1 (constant S_ .f32 0x3727C5AC#32)))

/-- The normalized rows scaled by `g`, shifted by `be`, negative entries replaced by zero. -/
def normRelu (h : Arr F S50000x128 .f32) (g be : Arr F S1x128 .f32) : Arr F S50000x128 .f32 :=
  maximumf
    (addf
      (mulf (mulf (centered h) (broadcastInDim S50000x128 ![0, 1] bcast_S50000x1_S50000x128_0_1 (invStd h)))
        (broadcastInDim S50000x128 ![0, 1] bcast_S1x128_S50000x128_0_1 g))
      (broadcastInDim S50000x128 ![0, 1] bcast_S1x128_S50000x128_0_1 be))
    (broadcastInDim S50000x128 ![] bcast_S_S50000x128 (constant S_ .f32 0x00000000#32))

/-- The second half of a layer: scale the aggregate, add the bias, normalize, activate. -/
def normAct (a : Arr F S50000x128 .f32) (ii : Arr F S50000x1 .f32) (b g be : Arr F S1x128 .f32) : Arr F S50000x128 .f32 :=
  normRelu (affineIn a ii b) g be

/-- A vector `[D]` as a row `[1, D]`. -/
def asRow (v : Arr F S128 .f32) : Arr F S1x128 .f32 := broadcastInDim S1x128 ![1] bcast_S128_S1x128_1 v

/-- One layer. -/
def layer (x : Arr F S50000x128 .f32) (w : Arr F S128x128 .f32) (b g be : Arr F S1x128 .f32)
    (io ii : Arr F S50000x1 .f32) (src dst : Arr F S640000 .i32) : Arr F S50000x128 .f32 :=
  normAct (aggregate (scaledProduct x w io) src dst) ii b g be

/-- Slice `k` of the weight stack as a matrix, for `k = 0, 1, 2`. -/
def weight0 (ws : Arr F S3x128x128 .f32) : Arr F S128x128 .f32 :=
  shapeCast S128x128 (extractStridedSlice S1x128x128 ![0, 0, 0] ws slices_S3x128x128_S1x128x128_0_0_0) shapeCasts_S1x128x128_S128x128
def weight1 (ws : Arr F S3x128x128 .f32) : Arr F S128x128 .f32 :=
  shapeCast S128x128 (extractStridedSlice S1x128x128 ![1, 0, 0] ws slices_S3x128x128_S1x128x128_1_0_0) shapeCasts_S1x128x128_S128x128
def weight2 (ws : Arr F S3x128x128 .f32) : Arr F S128x128 .f32 :=
  shapeCast S128x128 (extractStridedSlice S1x128x128 ![2, 0, 0] ws slices_S3x128x128_S1x128x128_2_0_0) shapeCasts_S1x128x128_S128x128

/-- Row `k` of a stack of three vectors, as a vector, for `k = 0, 1, 2`. -/
def vec0 (vs : Arr F S3x128 .f32) : Arr F S128 .f32 :=
  shapeCast S128 (extractStridedSlice S1x128 ![0, 0] vs slices_S3x128_S1x128_0_0) shapeCasts_S1x128_S128
def vec1 (vs : Arr F S3x128 .f32) : Arr F S128 .f32 :=
  shapeCast S128 (extractStridedSlice S1x128 ![1, 0] vs slices_S3x128_S1x128_1_0) shapeCasts_S1x128_S128
def vec2 (vs : Arr F S3x128 .f32) : Arr F S128 .f32 :=
  shapeCast S128 (extractStridedSlice S1x128 ![2, 0] vs slices_S3x128_S1x128_2_0) shapeCasts_S1x128_S128

/-- The first node of each graph as a column of row numbers: the running sums of `0, n₀, …, n₄₈`. -/
def firstRows (bn : Arr F S50 .i32) : Arr F S50x1 .i32 :=
  broadcastInDim S50x1 ![0] bcast_S50_S50x1_0
    (select
      (cmpi .slt
        (Host.reduceWindow IntOp.addi ![50] ![1] ![49] ![0]
          (concatenate S50 0 [⟨S1, broadcastInDim S1 ![] bcast_S_S1 (constantI S_ 32 0#32)⟩,
            ⟨S49, extractStridedSlice S49 ![0] bn slices_S50_S49_0⟩] concatenates_S1_S49_S50_d0)
          (broadcastInDim S_ ![] bcast_S_S_ (constantI S_ 32 0#32)) reduceWindows_S50_S50_w50s1p49_0 h_S_)
        (broadcastInDim S50 ![] bcast_S_S50 (constantI S_ 32 0#32)))
      (addi
        (Host.reduceWindow IntOp.addi ![50] ![1] ![49] ![0]
          (concatenate S50 0 [⟨S1, broadcastInDim S1 ![] bcast_S_S1 (constantI S_ 32 0#32)⟩,
            ⟨S49, extractStridedSlice S49 ![0] bn slices_S50_S49_0⟩] concatenates_S1_S49_S50_d0)
          (broadcastInDim S_ ![] bcast_S_S_ (constantI S_ 32 0#32)) reduceWindows_S50_S50_w50s1p49_0 h_S_)
        (broadcastInDim S50 ![] bcast_S_S50 (constantI S_ 32 50000#32)))
      (Host.reduceWindow IntOp.addi ![50] ![1] ![49] ![0]
        (concatenate S50 0 [⟨S1, broadcastInDim S1 ![] bcast_S_S1 (constantI S_ 32 0#32)⟩,
          ⟨S49, extractStridedSlice S49 ![0] bn slices_S50_S49_0⟩] concatenates_S1_S49_S50_d0)
        (broadcastInDim S_ ![] bcast_S_S_ (constantI S_ 32 0#32)) reduceWindows_S50_S50_w50s1p49_0 h_S_))

/-- The rows of the last layer's output that `firstRows` names. -/
def pick (f : Arr F S50000x128 .f32) (bn : Arr F S50 .i32) : Arr F S50x128 .f32 :=
  Host.gather gather_S50000x128_S50x1_S50x128_1_0_n_n_0_1_1128 f (firstRows bn)

/-- The whole computation, as a function of the eight argument arrays. -/
def out (x : Arr F S50000x128 .f32) (src dst : Arr F S640000 .i32) (bn : Arr F S50 .i32)
    (ws : Arr F S3x128x128 .f32) (bs gs bes : Arr F S3x128 .f32) : Arr F S50x128 .f32 :=
  pick
    (layer
      (layer
        (layer x (weight0 ws) (asRow (vec0 bs)) (asRow (vec0 gs)) (asRow (vec0 bes)) (invSqrtDeg src) (invSqrtDeg dst) src dst)
        (weight1 ws) (asRow (vec1 bs)) (asRow (vec1 gs)) (asRow (vec1 bes)) (invSqrtDeg src) (invSqrtDeg dst) src dst)
      (weight2 ws) (asRow (vec2 bs)) (asRow (vec2 gs)) (asRow (vec2 bes)) (invSqrtDeg src) (invSqrtDeg dst) src dst)
    bn

end Cert.LayerTerms

end
-- ==== Proof.HostValues.lean ====
/-
  What the host operations between the launches compute, each stretch read at the buffers the next launch (or the
  result) takes, as a function of the contents `W` the stretch starts from.

  The stretches are the plain program's own operations over other buffers, so each value is one of the named stages:
  the degree scales and the first weight before launch 0; after each scaled product the aggregate over the edges
  and the layer's three row vectors; the next weight; and at the end the rows picked by the running sums of the
  graph sizes. A row vector reaches a launch as a vector `[128]` re-laid as `[1, 128]`, which holds the same entries
  as the row that spreads the vector along a new leading axis (`asRow`).
-/
import proofs.«102242_j71691594105496_1_alg».proof.Proof.Gen.KernelIdeal.Launch
import proofs.«102242_j71691594105496_1_alg».proof.Proof.Gen.ReferenceIdeal
import proofs.«102242_j71691594105496_1_alg».proof.Proof.LayerTerms
import Idealize.ShloMosaic.Lib.StableHlo.Run
import Idealize.ShloMosaic.Lib.ValueLayout
import Idealize.ShloMosaic.Lib.Pipeline.Value

set_option maxRecDepth 16384

noncomputable section

namespace Cert.KernelIdeal.HostValues

open Idealize.ShloMosaic Idealize.ShloMosaic.ValueIdx Idealize.SL.Sem Cert.KernelIdeal Cert.KernelIdeal.Gen
open Cert.LayerTerms (invSqrtDeg wrapIdx aggregate asRow weight0 weight1 weight2 vec0 vec1 vec2 pick)

variable (W : Valuation τ sig (Elt Ideal))

/-- A vector re-laid as a one-row matrix is the row that spreads it along a new leading axis. -/
theorem relaid_eq_asRow (v : Cert.LayerTerms.Arr Ideal S128 .f32) :
    shapeCast S1x128 v shapeCasts_S128_S1x128 = asRow v := by
  funext i
  obtain ⟨u, k, rfl⟩ : ∃ (u : Fin 1) (k : Fin 128), i = ix2 u k := ⟨i 0, i 1, eq_ix2 i⟩
  refine (shapeCast_a_1a_apply v shapeCasts_S128_S1x128 u k).trans ?_
  refine (broadcastInDim_apply ![1] Cert.ReferenceIdeal.Facts₀.bcast_S128_S1x128_1 v (ix2 u k) (ix1 k) fun ax => ?_).symm
  match ax with
  | ⟨0, _⟩ => rfl

attribute [local irreducible] Host.gather Host.scatterAdd

/-! ## Before launch 0 -/

theorem first_weight : StableHlo.after (hostOps0 (F := Ideal)) W (Proc.devRef .tc main_v16) = weight0 (W (Proc.devRef .tc main_arg4)) := by
  after_results
  rfl

theorem out_scale : StableHlo.after (hostOps0 (F := Ideal)) W (Proc.devRef .tc main_v10) = invSqrtDeg (W (Proc.devRef .tc main_arg1)) := by
  after_results
  rfl

theorem in_scale : StableHlo.after (hostOps0 (F := Ideal)) W (Proc.devRef .tc main_v14) = invSqrtDeg (W (Proc.devRef .tc main_arg2)) := by
  after_results
  rfl

/-! ## After launch 0 -/

set_option maxHeartbeats 2000000 in
theorem aggregate1 : StableHlo.after (hostOps1 (F := Ideal)) W (Proc.devRef .tc main_v27)
    = aggregate (W (Proc.devRef .tc main_v17)) (W (Proc.devRef .tc main_arg1)) (W (Proc.devRef .tc main_arg2)) := by
  after_results_simp
  rfl

theorem bias1 : StableHlo.after (hostOps1 (F := Ideal)) W (Proc.devRef .tc main_v34) = asRow (vec0 (W (Proc.devRef .tc main_arg5))) := by
  refine Eq.trans ?_ (relaid_eq_asRow _)
  after_results
  rfl

theorem scale1 : StableHlo.after (hostOps1 (F := Ideal)) W (Proc.devRef .tc main_v35) = asRow (vec0 (W (Proc.devRef .tc main_arg6))) := by
  refine Eq.trans ?_ (relaid_eq_asRow _)
  after_results
  rfl

theorem shift1 : StableHlo.after (hostOps1 (F := Ideal)) W (Proc.devRef .tc main_v36) = asRow (vec0 (W (Proc.devRef .tc main_arg7))) := by
  refine Eq.trans ?_ (relaid_eq_asRow _)
  after_results
  rfl

/-! ## After launch 1 -/

theorem second_weight : StableHlo.after (hostOps2 (F := Ideal)) W (Proc.devRef .tc main_v39) = weight1 (W (Proc.devRef .tc main_arg4)) := by
  after_results
  rfl

/-! ## After launch 2 -/

set_option maxHeartbeats 2000000 in
theorem aggregate2 : StableHlo.after (hostOps3 (F := Ideal)) W (Proc.devRef .tc main_v50)
    = aggregate (W (Proc.devRef .tc main_v40)) (W (Proc.devRef .tc main_arg1)) (W (Proc.devRef .tc main_arg2)) := by
  after_results_simp
  rfl

theorem bias2 : StableHlo.after (hostOps3 (F := Ideal)) W (Proc.devRef .tc main_v57) = asRow (vec1 (W (Proc.devRef .tc main_arg5))) := by
  refine Eq.trans ?_ (relaid_eq_asRow _)
  after_results
  rfl

theorem scale2 : StableHlo.after (hostOps3 (F := Ideal)) W (Proc.devRef .tc main_v58) = asRow (vec1 (W (Proc.devRef .tc main_arg6))) := by
  refine Eq.trans ?_ (relaid_eq_asRow _)
  after_results
  rfl

theorem shift2 : StableHlo.after (hostOps3 (F := Ideal)) W (Proc.devRef .tc main_v59) = asRow (vec1 (W (Proc.devRef .tc main_arg7))) := by
  refine Eq.trans ?_ (relaid_eq_asRow _)
  after_results
  rfl

/-! ## After launch 3 -/

theorem third_weight : StableHlo.after (hostOps4 (F := Ideal)) W (Proc.devRef .tc main_v62) = weight2 (W (Proc.devRef .tc main_arg4)) := by
  after_results
  rfl

/-! ## After launch 4 -/

set_option maxHeartbeats 2000000 in
theorem aggregate3 : StableHlo.after (hostOps5 (F := Ideal)) W (Proc.devRef .tc main_v73)
    = aggregate (W (Proc.devRef .tc main_v63)) (W (Proc.devRef .tc main_arg1)) (W (Proc.devRef .tc main_arg2)) := by
  after_results_simp
  rfl

theorem bias3 : StableHlo.after (hostOps5 (F := Ideal)) W (Proc.devRef .tc main_v80) = asRow (vec2 (W (Proc.devRef .tc main_arg5))) := by
  refine Eq.trans ?_ (relaid_eq_asRow _)
  after_results
  rfl

theorem scale3 : StableHlo.after (hostOps5 (F := Ideal)) W (Proc.devRef .tc main_v81) = asRow (vec2 (W (Proc.devRef .tc main_arg6))) := by
  refine Eq.trans ?_ (relaid_eq_asRow _)
  after_results
  rfl

theorem shift3 : StableHlo.after (hostOps5 (F := Ideal)) W (Proc.devRef .tc main_v82) = asRow (vec2 (W (Proc.devRef .tc main_arg7))) := by
  refine Eq.trans ?_ (relaid_eq_asRow _)
  after_results
  rfl

end Cert.KernelIdeal.HostValues

end
-- ==== Proof.HostPick.lean ====
/-
  The last three stretches of host operations of the idealized kernel program, read at the result buffer: from
  contents `W` they leave the rows of the last launch's output that the running sums of the graph sizes name —
  `pick` of that output and the sizes.
-/
import proofs.«102242_j71691594105496_1_alg».proof.Proof.Gen.KernelIdeal.Launch
import proofs.«102242_j71691594105496_1_alg».proof.Proof.Gen.ReferenceIdeal
import proofs.«102242_j71691594105496_1_alg».proof.Proof.LayerTerms
import Idealize.ShloMosaic.Lib.StableHlo.Run
import Idealize.ShloMosaic.PureOps.Ideal

set_option maxRecDepth 16384

noncomputable section

namespace Cert.KernelIdeal.HostValues

open Idealize.ShloMosaic Idealize.SL.Sem Cert.KernelIdeal Cert.KernelIdeal.Gen
open Cert.LayerTerms (pick)

variable (W : Valuation τ sig (Elt Ideal))

attribute [local irreducible] Host.gather Host.reduceWindow concatenate in
set_option maxHeartbeats 1000000 in
theorem picked : StableHlo.after (hostOps6_2 (F := Ideal)) (StableHlo.after (hostOps6_1 (F := Ideal)) (StableHlo.after (hostOps6 (F := Ideal)) W))
      (no_index (Proc.devRef .tc main_v94))
    = pick (W (Proc.devRef .tc main_v83)) (W (Proc.devRef .tc main_arg3)) := by
  after_results_simp
  rfl

end Cert.KernelIdeal.HostValues

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«102242_j71691594105496_1_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.RowNorm.lean ====
/-
  Layer normalization followed by a rectifier, along the rows of a matrix, read entry by entry at the
  extended reals.

  For a row `h : Fin B → EReal`, a scale `g` and a shift `be`, write `μ = (∑ h) / 128` and
  `v = (∑ (h − μ)²) / 128`; the entry at column `q` is

      max ((h q − μ) · rsqrt (v + ε) · g q + be q) 0 .

  Two spellings of the same computation are read here at an entry `(p, q)`, each as that function of row `p`:
  the tiled unit's, over a block `[A, B]` (row sums by `multi_reduction`, kept as a column and spread back), and the
  host's, over a whole array `[N, B]` (row sums by `reduce` from the initial value zero, `broadcast_in_dim` for
  every spreading). No law of arithmetic is used beyond `0 + s = s`: both spellings compute the same expression
  in the same order, so the equality holds for every extended real, finite or not.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import proofs.«102242_j71691594105496_1_alg».proof.Proof.LibRowLayer

noncomputable section

open scoped BigOperators

namespace Cert.RowNorm

open Idealize.ShloMosaic Idealize.ShloMosaic.ValueIdx

variable {B : ℕ}

/-- The row sum divided by the literal `128.0`. -/
def mean (h : Fin B → EReal) : EReal := Ideal.div (∑ k : Fin B, h k) (Ideal.ofBits .f32 0x43000000#32)

/-- The normalized, scaled, shifted and rectified entry `q` of the row `h`. -/
def normRelu (h g be : Fin B → EReal) (q : Fin B) : EReal :=
  max ((h q - mean h) * Ideal.rsqrt (mean (fun k => (h k - mean h) * (h k - mean h)) + Ideal.ofBits .f32 0x3727C5AC#32) * g q + be q)
    (Ideal.ofBits .f32 0x00000000#32)

/-! ## The tiled unit's spelling, over a block of rows -/

section Block

variable {A : ℕ}
variable (hb1 : (⟨2, ![A, 1]⟩ : Shape).Broadcasts ⟨2, ![A, B]⟩) (hb2 : (⟨2, ![1, B]⟩ : Shape).Broadcasts ⟨2, ![A, B]⟩)
  (hr : (⟨2, ![A, B]⟩ : Shape).Reduces [1] ⟨1, ![A]⟩) (hφ : FKind.Formats .f32)
  (hacc : (0x00000000#32 : BitVec (FTy.bits .f32)) = FKind.add.neutral .f32 hφ)
  (hc : (⟨1, ![A]⟩ : Shape).ShapeCasts ⟨2, ![A, 1]⟩)

/-- `a ⊙ s + b`: each row of the block scaled by its entry of the column `s`, the row `b` added. -/
def blockAffine (a : FVec Ideal ⟨2, ![A, B]⟩ .f32) (s : FVec Ideal ⟨2, ![A, 1]⟩ .f32) (b : FVec Ideal ⟨2, ![1, B]⟩ .f32) :
    FVec Ideal ⟨2, ![A, B]⟩ .f32 :=
  addf (mulf a (broadcastTo ⟨2, ![A, B]⟩ s hb1)) (broadcastTo ⟨2, ![A, B]⟩ b hb2)

/-- The column of row means of a block. -/
def blockMean (H : FVec Ideal ⟨2, ![A, B]⟩ .f32) : FVec Ideal ⟨2, ![A, 1]⟩ .f32 :=
  divf (shapeCast ⟨2, ![A, 1]⟩ (multiReduction .add [1] ⟨1, ![A]⟩ H 0x00000000#32 hr hφ hacc) hc)
    (broadcast ⟨2, ![A, 1]⟩ (Scalar.ofBits .f32 0x43000000#32))

/-- Each entry minus its row's mean. -/
def blockCentered (H : FVec Ideal ⟨2, ![A, B]⟩ .f32) : FVec Ideal ⟨2, ![A, B]⟩ .f32 :=
  subf H (broadcastTo ⟨2, ![A, B]⟩ (blockMean hr hφ hacc hc H) hb1)

/-- `rsqrt (variance + ε)` of each row, as a column. -/
def blockInvStd (H : FVec Ideal ⟨2, ![A, B]⟩ .f32) : FVec Ideal ⟨2, ![A, 1]⟩ .f32 :=
  rsqrt (addf (blockMean hr hφ hacc hc (mulf (blockCentered hb1 hr hφ hacc hc H) (blockCentered hb1 hr hφ hacc hc H)))
    (broadcast ⟨2, ![A, 1]⟩ (Scalar.ofBits .f32 0x3727C5AC#32)))

/-- The block normalized along its rows, scaled by the row `g`, shifted by the row `be`, rectified. -/
def blockNormRelu (H : FVec Ideal ⟨2, ![A, B]⟩ .f32) (g be : FVec Ideal ⟨2, ![1, B]⟩ .f32) : FVec Ideal ⟨2, ![A, B]⟩ .f32 :=
  maximumf
    (addf
      (mulf (mulf (blockCentered hb1 hr hφ hacc hc H) (broadcastTo ⟨2, ![A, B]⟩ (blockInvStd hb1 hr hφ hacc hc H) hb1))
        (broadcastTo ⟨2, ![A, B]⟩ g hb2))
      (broadcastTo ⟨2, ![A, B]⟩ be hb2))
    (broadcast ⟨2, ![A, B]⟩ (Scalar.ofBits .f32 0x00000000#32))

theorem blockAffine_apply (a : FVec Ideal ⟨2, ![A, B]⟩ .f32) (s : FVec Ideal ⟨2, ![A, 1]⟩ .f32) (b : FVec Ideal ⟨2, ![1, B]⟩ .f32)
    (p : Fin A) (q : Fin B) :
    blockAffine hb1 hb2 a s b (ix2 p q) = a (ix2 p q) * s (ix2 p (0 : Fin 1)) + b (ix2 (0 : Fin 1) q) := by
  show a (ix2 p q) * broadcastTo ⟨2, ![A, B]⟩ s hb1 (ix2 p q) + broadcastTo ⟨2, ![A, B]⟩ b hb2 (ix2 p q) = _
  rw [Cert.RowLayer.broadcastTo_a1_ab_apply s hb1 p q, broadcastTo_1b_ab_apply b hb2 p q]

/-- The block's mean column at row `p` is the mean of row `p`. -/
theorem blockMean_apply (H : FVec Ideal ⟨2, ![A, B]⟩ .f32) (p : Fin A) :
    blockMean hr hφ hacc hc H (ix2 p (0 : Fin 1)) = mean (fun k => H (ix2 p k)) := by
  show Ideal.div (shapeCast ⟨2, ![A, 1]⟩ (multiReduction .add [1] ⟨1, ![A]⟩ H 0x00000000#32 hr hφ hacc) hc (ix2 p (0 : Fin 1)))
      (Ideal.ofBits .f32 0x43000000#32) = _
  rw [Cert.RowLayer.shapeCast_a_a1_apply _ hc p 0, Cert.RowLayer.rowSum_apply H _ hr hφ hacc p]
  rfl

theorem blockCentered_apply (H : FVec Ideal ⟨2, ![A, B]⟩ .f32) (p : Fin A) (c : Fin B) :
    blockCentered hb1 hr hφ hacc hc H (ix2 p c) = H (ix2 p c) - mean (fun k => H (ix2 p k)) := by
  show H (ix2 p c) - broadcastTo ⟨2, ![A, B]⟩ (blockMean hr hφ hacc hc H) hb1 (ix2 p c) = _
  rw [Cert.RowLayer.broadcastTo_a1_ab_apply _ hb1 p c, blockMean_apply hr hφ hacc hc H p]

theorem blockInvStd_apply (H : FVec Ideal ⟨2, ![A, B]⟩ .f32) (p : Fin A) :
    blockInvStd hb1 hr hφ hacc hc H (ix2 p (0 : Fin 1))
      = Ideal.rsqrt (mean (fun k => (H (ix2 p k) - mean (fun k => H (ix2 p k))) * (H (ix2 p k) - mean (fun k => H (ix2 p k))))
          + Ideal.ofBits .f32 0x3727C5AC#32) := by
  show Ideal.rsqrt (blockMean hr hφ hacc hc (mulf (blockCentered hb1 hr hφ hacc hc H) (blockCentered hb1 hr hφ hacc hc H)) (ix2 p (0 : Fin 1))
      + Ideal.ofBits .f32 0x3727C5AC#32) = _
  rw [blockMean_apply hr hφ hacc hc _ p]
  refine congrArg (fun m => Ideal.rsqrt (mean m + Ideal.ofBits .f32 0x3727C5AC#32)) (funext fun k => ?_)
  show blockCentered hb1 hr hφ hacc hc H (ix2 p k) * blockCentered hb1 hr hφ hacc hc H (ix2 p k) = _
  rw [blockCentered_apply hb1 hr hφ hacc hc H p k]

/-- The tiled unit's normalization of a block, read at `(p, q)`. -/
theorem blockNormRelu_apply (H : FVec Ideal ⟨2, ![A, B]⟩ .f32) (g be : FVec Ideal ⟨2, ![1, B]⟩ .f32) (p : Fin A) (q : Fin B) :
    blockNormRelu hb1 hb2 hr hφ hacc hc H g be (ix2 p q)
      = normRelu (fun k => H (ix2 p k)) (fun k => g (ix2 (0 : Fin 1) k)) (fun k => be (ix2 (0 : Fin 1) k)) q := by
  show max (blockCentered hb1 hr hφ hacc hc H (ix2 p q) * broadcastTo ⟨2, ![A, B]⟩ (blockInvStd hb1 hr hφ hacc hc H) hb1 (ix2 p q)
        * broadcastTo ⟨2, ![A, B]⟩ g hb2 (ix2 p q) + broadcastTo ⟨2, ![A, B]⟩ be hb2 (ix2 p q)) (Ideal.ofBits .f32 0x00000000#32) = _
  rw [blockCentered_apply hb1 hr hφ hacc hc H p q, Cert.RowLayer.broadcastTo_a1_ab_apply _ hb1 p q,
    blockInvStd_apply hb1 hr hφ hacc hc H p, broadcastTo_1b_ab_apply g hb2 p q, broadcastTo_1b_ab_apply be hb2 p q]
  rfl

end Block

/-! ## The host's spelling, over a whole array -/

section Host

variable {N : ℕ} {u : Shape}
variable (h1 : (⟨2, ![N, 1]⟩ : Shape).BroadcastsInDim ⟨2, ![N, B]⟩ ![0, 1]) (h2 : (⟨2, ![1, B]⟩ : Shape).BroadcastsInDim ⟨2, ![N, B]⟩ ![0, 1])
  (h3 : (⟨1, ![N]⟩ : Shape).BroadcastsInDim ⟨2, ![N, 1]⟩ ![0]) (h4 : (⟨0, ![]⟩ : Shape).BroadcastsInDim ⟨2, ![N, 1]⟩ ![])
  (h5 : (⟨0, ![]⟩ : Shape).BroadcastsInDim ⟨2, ![N, B]⟩ ![])
  (hrt : (⟨2, ![N, B]⟩ : Shape).ReducesTo [1] ⟨1, ![N]⟩) (hu : 0 < (⟨0, ![]⟩ : Shape).numel)

/-- An `[N, 1]` column spread along the rows by `broadcast_in_dim` reads, at `(r, q)`, the column's entry of row `r`. -/
theorem bcastCol_apply {α : Type} (v : (⟨2, ![N, 1]⟩ : Shape).Idx → α) (r : Fin N) (q : Fin B) :
    broadcastInDim ⟨2, ![N, B]⟩ ![0, 1] h1 v (ix2 r q) = v (ix2 r (0 : Fin 1)) := by
  refine broadcastInDim_apply ![0, 1] h1 v (ix2 r q) (ix2 r (0 : Fin 1)) fun ax => ?_
  match ax with
  | ⟨0, _⟩ =>
    show r.val = if N = 1 then 0 else r.val
    split
    · have := r.isLt; omega
    · rfl
  | ⟨1, _⟩ => rfl

/-- An `[N]` vector as an `[N, 1]` column by `broadcast_in_dim` reads, at `(r, 0)`, the vector's entry `r`. -/
theorem bcastVecCol_apply {α : Type} (v : (⟨1, ![N]⟩ : Shape).Idx → α) (r : Fin N) (z : Fin 1) :
    broadcastInDim ⟨2, ![N, 1]⟩ ![0] h3 v (ix2 r z) = v (ix1 r) := by
  refine broadcastInDim_apply ![0] h3 v (ix2 r z) (ix1 r) fun ax => ?_
  match ax with
  | ⟨0, _⟩ =>
    show r.val = if N = 1 then 0 else r.val
    split
    · have := r.isLt; omega
    · rfl

/-- `a ⊙ ii + b` on the host. -/
def hostAffine (a : FVec Ideal ⟨2, ![N, B]⟩ .f32) (ii : FVec Ideal ⟨2, ![N, 1]⟩ .f32) (b : FVec Ideal ⟨2, ![1, B]⟩ .f32) :
    FVec Ideal ⟨2, ![N, B]⟩ .f32 :=
  addf (mulf a (broadcastInDim ⟨2, ![N, B]⟩ ![0, 1] h1 ii)) (broadcastInDim ⟨2, ![N, B]⟩ ![0, 1] h2 b)

/-- The column of row means on the host. -/
def hostMean (H : FVec Ideal ⟨2, ![N, B]⟩ .f32) : FVec Ideal ⟨2, ![N, 1]⟩ .f32 :=
  Host.divf
    (broadcastInDim ⟨2, ![N, 1]⟩ ![0] h3 (Host.reduceAdd (F := Ideal) H (constant (F := Ideal) ⟨0, ![]⟩ .f32 0x00000000#32) hrt hu))
    (broadcastInDim ⟨2, ![N, 1]⟩ ![] h4 (constant (F := Ideal) ⟨0, ![]⟩ .f32 0x43000000#32))

def hostCentered (H : FVec Ideal ⟨2, ![N, B]⟩ .f32) : FVec Ideal ⟨2, ![N, B]⟩ .f32 :=
  subf H (broadcastInDim ⟨2, ![N, B]⟩ ![0, 1] h1 (hostMean h3 h4 hrt hu H))

def hostInvStd (H : FVec Ideal ⟨2, ![N, B]⟩ .f32) : FVec Ideal ⟨2, ![N, 1]⟩ .f32 :=
  Host.rsqrt (addf (hostMean h3 h4 hrt hu (mulf (hostCentered h1 h3 h4 hrt hu H) (hostCentered h1 h3 h4 hrt hu H)))
    (broadcastInDim ⟨2, ![N, 1]⟩ ![] h4 (constant (F := Ideal) ⟨0, ![]⟩ .f32 0x3727C5AC#32)))

def hostNormRelu (H : FVec Ideal ⟨2, ![N, B]⟩ .f32) (g be : FVec Ideal ⟨2, ![1, B]⟩ .f32) : FVec Ideal ⟨2, ![N, B]⟩ .f32 :=
  maximumf
    (addf
      (mulf (mulf (hostCentered h1 h3 h4 hrt hu H) (broadcastInDim ⟨2, ![N, B]⟩ ![0, 1] h1 (hostInvStd h1 h3 h4 hrt hu H)))
        (broadcastInDim ⟨2, ![N, B]⟩ ![0, 1] h2 g))
      (broadcastInDim ⟨2, ![N, B]⟩ ![0, 1] h2 be))
    (broadcastInDim ⟨2, ![N, B]⟩ ![] h5 (constant (F := Ideal) ⟨0, ![]⟩ .f32 0x00000000#32))

theorem hostAffine_apply (a : FVec Ideal ⟨2, ![N, B]⟩ .f32) (ii : FVec Ideal ⟨2, ![N, 1]⟩ .f32) (b : FVec Ideal ⟨2, ![1, B]⟩ .f32)
    (r : Fin N) (q : Fin B) :
    hostAffine h1 h2 a ii b (ix2 r q) = a (ix2 r q) * ii (ix2 r (0 : Fin 1)) + b (ix2 (0 : Fin 1) q) := by
  show a (ix2 r q) * broadcastInDim ⟨2, ![N, B]⟩ ![0, 1] h1 ii (ix2 r q) + broadcastInDim ⟨2, ![N, B]⟩ ![0, 1] h2 b (ix2 r q) = _
  rw [bcastCol_apply h1 ii r q, broadcastInDim_oneRow_apply h2 b r q]

theorem hostMean_apply (hr : (⟨2, ![N, B]⟩ : Shape).Reduces [1] ⟨1, ![N]⟩) (H : FVec Ideal ⟨2, ![N, B]⟩ .f32) (r : Fin N) :
    hostMean h3 h4 hrt hu H (ix2 r (0 : Fin 1)) = mean (fun k => H (ix2 r k)) := by
  show Ideal.div (broadcastInDim ⟨2, ![N, 1]⟩ ![0] h3 (Host.reduceAdd (F := Ideal) H (constant (F := Ideal) ⟨0, ![]⟩ .f32 0x00000000#32) hrt hu) (ix2 r (0 : Fin 1)))
      (broadcastInDim ⟨2, ![N, 1]⟩ ![] h4 (constant (F := Ideal) ⟨0, ![]⟩ .f32 0x43000000#32) (ix2 r (0 : Fin 1))) = _
  rw [bcastVecCol_apply h3 _ r 0, Cert.RowLayer.hostRowSum_apply H _ hrt hr hu r, broadcastInDim_scalar_apply h4 _ _]
  show Ideal.div (Ideal.ofBits .f32 0x00000000#32 + _) (Ideal.ofBits .f32 0x43000000#32) = _
  rw [Ideal.ofBits_zero_f32, zero_add]
  rfl

theorem hostCentered_apply (hr : (⟨2, ![N, B]⟩ : Shape).Reduces [1] ⟨1, ![N]⟩) (H : FVec Ideal ⟨2, ![N, B]⟩ .f32) (r : Fin N) (c : Fin B) :
    hostCentered h1 h3 h4 hrt hu H (ix2 r c) = H (ix2 r c) - mean (fun k => H (ix2 r k)) := by
  show H (ix2 r c) - broadcastInDim ⟨2, ![N, B]⟩ ![0, 1] h1 (hostMean h3 h4 hrt hu H) (ix2 r c) = _
  rw [bcastCol_apply h1 _ r c, hostMean_apply h3 h4 hrt hu hr H r]

theorem hostInvStd_apply (hr : (⟨2, ![N, B]⟩ : Shape).Reduces [1] ⟨1, ![N]⟩) (H : FVec Ideal ⟨2, ![N, B]⟩ .f32) (r : Fin N) :
    hostInvStd h1 h3 h4 hrt hu H (ix2 r (0 : Fin 1))
      = Ideal.rsqrt (mean (fun k => (H (ix2 r k) - mean (fun k => H (ix2 r k))) * (H (ix2 r k) - mean (fun k => H (ix2 r k))))
          + Ideal.ofBits .f32 0x3727C5AC#32) := by
  show Ideal.rsqrt (hostMean h3 h4 hrt hu (mulf (hostCentered h1 h3 h4 hrt hu H) (hostCentered h1 h3 h4 hrt hu H)) (ix2 r (0 : Fin 1))
      + broadcastInDim ⟨2, ![N, 1]⟩ ![] h4 (constant (F := Ideal) ⟨0, ![]⟩ .f32 0x3727C5AC#32) (ix2 r (0 : Fin 1))) = _
  rw [hostMean_apply h3 h4 hrt hu hr _ r, broadcastInDim_scalar_apply h4 _ _]
  refine congrArg (fun m => Ideal.rsqrt (mean m + Ideal.ofBits .f32 0x3727C5AC#32)) (funext fun k => ?_)
  show hostCentered h1 h3 h4 hrt hu H (ix2 r k) * hostCentered h1 h3 h4 hrt hu H (ix2 r k) = _
  rw [hostCentered_apply h1 h3 h4 hrt hu hr H r k]

/-- The host's normalization of the whole array, read at `(r, q)`. -/
theorem hostNormRelu_apply (hr : (⟨2, ![N, B]⟩ : Shape).Reduces [1] ⟨1, ![N]⟩) (H : FVec Ideal ⟨2, ![N, B]⟩ .f32) (g be : FVec Ideal ⟨2, ![1, B]⟩ .f32) (r : Fin N) (q : Fin B) :
    hostNormRelu h1 h2 h3 h4 h5 hrt hu H g be (ix2 r q)
      = normRelu (fun k => H (ix2 r k)) (fun k => g (ix2 (0 : Fin 1) k)) (fun k => be (ix2 (0 : Fin 1) k)) q := by
  show max (hostCentered h1 h3 h4 hrt hu H (ix2 r q) * broadcastInDim ⟨2, ![N, B]⟩ ![0, 1] h1 (hostInvStd h1 h3 h4 hrt hu H) (ix2 r q)
        * broadcastInDim ⟨2, ![N, B]⟩ ![0, 1] h2 g (ix2 r q) + broadcastInDim ⟨2, ![N, B]⟩ ![0, 1] h2 be (ix2 r q))
      (broadcastInDim ⟨2, ![N, B]⟩ ![] h5 (constant (F := Ideal) ⟨0, ![]⟩ .f32 0x00000000#32) (ix2 r q)) = _
  rw [hostCentered_apply h1 h3 h4 hrt hu hr H r q, bcastCol_apply h1 _ r q, hostInvStd_apply h1 h3 h4 hrt hu hr H r,
    broadcastInDim_oneRow_apply h2 g r q, broadcastInDim_oneRow_apply h2 be r q, broadcastInDim_scalar_apply h5 _ _]
  rfl

end Host

end Cert.RowNorm

end
-- ==== Proof.RowScale.lean ====
/-
  A matrix product whose rows are then scaled by a column, read entry by entry at the extended reals:

      ((x · w) ⊙ s) (p, q) = (∑ c, x (p, c) · w (c, q)) · s (p, 0) .

  The tiled unit computes it over a block of rows (operands passed through a change of float format, which is
  the identity here, into a zero accumulator; the column spread by `vector.broadcast`), the host over the whole
  array (`dot_general`, the column spread by `broadcast_in_dim`). Both are the same sum of products.
-/
import proofs.«102242_j71691594105496_1_alg».proof.Proof.RowNorm

noncomputable section

open scoped BigOperators

namespace Cert.RowScale

open Idealize.ShloMosaic Idealize.ShloMosaic.ValueIdx

variable {M K N : ℕ}

/-- The tiled unit's scaled product of a block, at `(p, q)`. -/
theorem block_apply (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨2, ![K, N]⟩ .f32)
    (s : FVec Ideal ⟨2, ![M, 1]⟩ .f32) (hlt : FTy.bits .bf16 < FTy.bits .f32)
    (hb : (⟨2, ![M, 1]⟩ : Shape).Broadcasts ⟨2, ![M, N]⟩) (p : Fin M) (q : Fin N) :
    mulf (matmul d prec (truncf .bf16 x hlt) (truncf .bf16 w hlt) (constant ⟨2, ![M, N]⟩ .f32 0x00000000#32))
        (broadcastTo ⟨2, ![M, N]⟩ s hb) (ix2 p q)
      = (∑ c : Fin K, x (ix2 p c) * w (ix2 c q)) * s (ix2 p (0 : Fin 1)) := by
  show matmul d prec (truncf .bf16 x hlt) (truncf .bf16 w hlt) (constant ⟨2, ![M, N]⟩ .f32 0x00000000#32) (ix2 p q)
      * broadcastTo ⟨2, ![M, N]⟩ s hb (ix2 p q) = _
  rw [Cert.RowLayer.broadcastTo_a1_ab_apply s hb p q]
  exact congrArg (· * s (ix2 p (0 : Fin 1)))
    ((Ideal.matmul_constant_zero_apply d prec _ _ (ix2 p q)).trans
      (Cert.PlainDot.sum_contr d hd (truncf .bf16 x hlt) (truncf .bf16 w hlt) p q))

/-- The host's scaled product of the whole array, at `(p, q)`. -/
theorem host_apply (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨2, ![K, N]⟩ .f32)
    (s : FVec Ideal ⟨2, ![M, 1]⟩ .f32) (h1 : (⟨2, ![M, 1]⟩ : Shape).BroadcastsInDim ⟨2, ![M, N]⟩ ![0, 1]) (p : Fin M) (q : Fin N) :
    mulf (Host.dotGeneral d prec x w) (broadcastInDim ⟨2, ![M, N]⟩ ![0, 1] h1 s) (ix2 p q)
      = (∑ c : Fin K, x (ix2 p c) * w (ix2 c q)) * s (ix2 p (0 : Fin 1)) := by
  show Host.dotGeneral d prec x w (ix2 p q) * broadcastInDim ⟨2, ![M, N]⟩ ![0, 1] h1 s (ix2 p q) = _
  rw [Cert.RowNorm.bcastCol_apply h1 s p q, Cert.PlainDot.dotGeneral_apply d hd prec x w p q]

end Cert.RowScale

end
-- ==== Proof.PayloadRead.lean ====
/-
  What one grid point's body stores, read entry by entry at the extended reals.

  The six launches are of two bodies. The first stores `(x · w) ⊙ s` of its blocks: entry `(p, q)` is
  `(∑ c, x (p, c) · w (c, q)) · s (p, 0)`. The second stores the rectified layer normalization of `a ⊙ s + b`:
  entry `(p, q)` is `normRelu` of the row `k ↦ a (p, k) · s (p, 0) + b (0, k)` with the scale and shift rows.
  Each payload is first shown to be the generic block expression (a cast of a vector to its own shape is the
  identity), then read by that expression's lemma.
-/
import proofs.«102242_j71691594105496_1_alg».proof.Proof.Gen.KernelIdeal.Skeleton
import proofs.«102242_j71691594105496_1_alg».proof.Proof.RowScale

noncomputable section

open scoped BigOperators

namespace Cert.KernelIdeal.Payload

open Idealize.ShloMosaic Idealize.ShloMosaic.ValueIdx Cert.KernelIdeal Cert.KernelIdeal.Gen

/-- The blocks' dimension numbers are those of a plain product. -/
theorem plain : Cert.PlainDot.IsPlain dot_S2000x128_S128x128_S2000x128_1_0_0_1_n_n := ⟨rfl, rfl, rfl, rfl, rfl, rfl⟩

/-! ## The scaled product -/

theorem scaled0 (x : Vec Ideal S2000x128 .f32) (w : Vec Ideal S128x128 .f32) (s : Vec Ideal S2000x1 .f32) (p : Fin 2000) (q : Fin 128) :
    k0_pay1 (F := Ideal) x w s (ix2 p q) = (∑ c : Fin 128, x (ix2 p c) * w (ix2 c q)) * s (ix2 p (0 : Fin 1)) := by
  have e : k0_pay1 (F := Ideal) x w s
      = mulf (matmul dot_S2000x128_S128x128_S2000x128_1_0_0_1_n_n none (truncf .bf16 x bitsLt_bf16_f32)
          (truncf .bf16 (shapeCast S128x128 w shapeCasts_S128x128_S128x128) bitsLt_bf16_f32) (constant S2000x128 .f32 0x00000000#32))
        (broadcastTo S2000x128 (shapeCast S2000x1 s shapeCasts_S2000x1_S2000x1) broadcasts_S2000x1_S2000x128) := rfl
  rw [e, shapeCast_self, shapeCast_self]
  exact Cert.RowScale.block_apply _ plain none x w s bitsLt_bf16_f32 broadcasts_S2000x1_S2000x128 p q

theorem scaled2 (x : Vec Ideal S2000x128 .f32) (w : Vec Ideal S128x128 .f32) (s : Vec Ideal S2000x1 .f32) (p : Fin 2000) (q : Fin 128) :
    k2_pay1 (F := Ideal) x w s (ix2 p q) = (∑ c : Fin 128, x (ix2 p c) * w (ix2 c q)) * s (ix2 p (0 : Fin 1)) := by
  have e : k2_pay1 (F := Ideal) x w s
      = mulf (matmul dot_S2000x128_S128x128_S2000x128_1_0_0_1_n_n none
          (truncf .bf16 (shapeCast S2000x128 x shapeCasts_S2000x128_S2000x128) bitsLt_bf16_f32)
          (truncf .bf16 (shapeCast S128x128 w shapeCasts_S128x128_S128x128) bitsLt_bf16_f32) (constant S2000x128 .f32 0x00000000#32))
        (broadcastTo S2000x128 (shapeCast S2000x1 s shapeCasts_S2000x1_S2000x1) broadcasts_S2000x1_S2000x128) := rfl
  rw [e, shapeCast_self, shapeCast_self, shapeCast_self]
  exact Cert.RowScale.block_apply _ plain none x w s bitsLt_bf16_f32 broadcasts_S2000x1_S2000x128 p q

theorem scaled4 (x : Vec Ideal S2000x128 .f32) (w : Vec Ideal S128x128 .f32) (s : Vec Ideal S2000x1 .f32) (p : Fin 2000) (q : Fin 128) :
    k4_pay1 (F := Ideal) x w s (ix2 p q) = (∑ c : Fin 128, x (ix2 p c) * w (ix2 c q)) * s (ix2 p (0 : Fin 1)) := by
  have e : k4_pay1 (F := Ideal) x w s
      = mulf (matmul dot_S2000x128_S128x128_S2000x128_1_0_0_1_n_n none
          (truncf .bf16 (shapeCast S2000x128 x shapeCasts_S2000x128_S2000x128) bitsLt_bf16_f32)
          (truncf .bf16 (shapeCast S128x128 w shapeCasts_S128x128_S128x128) bitsLt_bf16_f32) (constant S2000x128 .f32 0x00000000#32))
        (broadcastTo S2000x128 (shapeCast S2000x1 s shapeCasts_S2000x1_S2000x1) broadcasts_S2000x1_S2000x128) := rfl
  rw [e, shapeCast_self, shapeCast_self, shapeCast_self]
  exact Cert.RowScale.block_apply _ plain none x w s bitsLt_bf16_f32 broadcasts_S2000x1_S2000x128 p q

/-! ## The rectified normalization -/

/-- The generic block expression at this body's shapes and side conditions. -/
abbrev normBlock (a : Vec Ideal S2000x128 .f32) (s : Vec Ideal S2000x1 .f32) (b g be : Vec Ideal S1x128 .f32) : FVec Ideal S2000x128 .f32 :=
  Cert.RowNorm.blockNormRelu broadcasts_S2000x1_S2000x128 broadcasts_S1x128_S2000x128 reduces_S2000x128_S2000 (.inl rfl) rfl
    shapeCasts_S2000_S2000x1
    (Cert.RowNorm.blockAffine broadcasts_S2000x1_S2000x128 broadcasts_S1x128_S2000x128 a s b) g be

theorem normBlock_apply (a : Vec Ideal S2000x128 .f32) (s : Vec Ideal S2000x1 .f32) (b g be : Vec Ideal S1x128 .f32)
    (p : Fin 2000) (q : Fin 128) :
    normBlock a s b g be (ix2 p q)
      = Cert.RowNorm.normRelu (fun k : Fin 128 => a (ix2 p k) * s (ix2 p (0 : Fin 1)) + b (ix2 (0 : Fin 1) k))
          (fun k => g (ix2 (0 : Fin 1) k)) (fun k => be (ix2 (0 : Fin 1) k)) q := by
  refine (Cert.RowNorm.blockNormRelu_apply broadcasts_S2000x1_S2000x128 broadcasts_S1x128_S2000x128 reduces_S2000x128_S2000
    (.inl rfl) rfl shapeCasts_S2000_S2000x1
    (Cert.RowNorm.blockAffine broadcasts_S2000x1_S2000x128 broadcasts_S1x128_S2000x128 a s b) g be p q).trans ?_
  refine congrArg (fun h => Cert.RowNorm.normRelu h _ _ q) (funext fun k => ?_)
  exact Cert.RowNorm.blockAffine_apply _ _ a s b p k

theorem norm1_eq (a : Vec Ideal S2000x128 .f32) (s : Vec Ideal S2000x1 .f32) (b g be : Vec Ideal S1x128 .f32) :
    k1_pay1 (F := Ideal) a s b g be = normBlock a s b g be := by
  have e : normBlock a s b g be
      = normBlock (shapeCast S2000x128 a shapeCasts_S2000x128_S2000x128) (shapeCast S2000x1 s shapeCasts_S2000x1_S2000x1)
          (shapeCast S1x128 b shapeCasts_S1x128_S1x128) (shapeCast S1x128 g shapeCasts_S1x128_S1x128)
          (shapeCast S1x128 be shapeCasts_S1x128_S1x128) := by
    rw [shapeCast_self, shapeCast_self, shapeCast_self, shapeCast_self, shapeCast_self]
  rw [e]
  rfl

theorem norm3_eq (a : Vec Ideal S2000x128 .f32) (s : Vec Ideal S2000x1 .f32) (b g be : Vec Ideal S1x128 .f32) :
    k3_pay1 (F := Ideal) a s b g be = normBlock a s b g be := by
  have e : normBlock a s b g be
      = normBlock (shapeCast S2000x128 a shapeCasts_S2000x128_S2000x128) (shapeCast S2000x1 s shapeCasts_S2000x1_S2000x1)
          (shapeCast S1x128 b shapeCasts_S1x128_S1x128) (shapeCast S1x128 g shapeCasts_S1x128_S1x128)
          (shapeCast S1x128 be shapeCasts_S1x128_S1x128) := by
    rw [shapeCast_self, shapeCast_self, shapeCast_self, shapeCast_self, shapeCast_self]
  rw [e]
  rfl

theorem norm5_eq (a : Vec Ideal S2000x128 .f32) (s : Vec Ideal S2000x1 .f32) (b g be : Vec Ideal S1x128 .f32) :
    k5_pay1 (F := Ideal) a s b g be = normBlock a s b g be := by
  have e : normBlock a s b g be
      = normBlock (shapeCast S2000x128 a shapeCasts_S2000x128_S2000x128) (shapeCast S2000x1 s shapeCasts_S2000x1_S2000x1)
          (shapeCast S1x128 b shapeCasts_S1x128_S1x128) (shapeCast S1x128 g shapeCasts_S1x128_S1x128)
          (shapeCast S1x128 be shapeCasts_S1x128_S1x128) := by
    rw [shapeCast_self, shapeCast_self, shapeCast_self, shapeCast_self, shapeCast_self]
  rw [e]
  rfl

end Cert.KernelIdeal.Payload

end
-- ==== Proof.TermsRead.lean ====
/-
  The two stages a launch computes, read entry by entry at the extended reals from their whole-array spelling:
  `scaledProduct x w io` at `(r, q)` is `(∑ c, x (r, c) · w (c, q)) · io (r, 0)`, and `normAct a ii b g be` at `(r, q)`
  is `normRelu` of the row `k ↦ a (r, k) · ii (r, 0) + b (0, k)` with the scale row `g` and the shift row `be`.
-/
import proofs.«102242_j71691594105496_1_alg».proof.Proof.LayerTerms
import proofs.«102242_j71691594105496_1_alg».proof.Proof.RowScale

noncomputable section

open scoped BigOperators

namespace Cert.LayerTerms

open Idealize.ShloMosaic Idealize.ShloMosaic.ValueIdx Cert.ReferenceIdeal

variable [Cert.ReferenceIdeal.Facts]
open Cert.ReferenceIdeal.Facts₀ Cert.ReferenceIdeal.Facts

/-- The host product's dimension numbers are those of a plain product. -/
theorem plain : Cert.PlainDot.IsPlain dot_S50000x128_S128x128_S50000x128_1_0_0_1_n_n := ⟨rfl, rfl, rfl, rfl, rfl, rfl⟩

theorem scaledProduct_apply (x : Arr Ideal S50000x128 .f32) (w : Arr Ideal S128x128 .f32) (io : Arr Ideal S50000x1 .f32)
    (r : Fin 50000) (q : Fin 128) :
    scaledProduct x w io (ix2 r q) = (∑ c : Fin 128, x (ix2 r c) * w (ix2 c q)) * io (ix2 r (0 : Fin 1)) :=
  Cert.RowScale.host_apply _ plain none x w io bcast_S50000x1_S50000x128_0_1 r q

/-- Summing along axis 1 of `[50000, 128]` leaves `[50000]`. -/
theorem reducesRows : S50000x128.Reduces [1] S50000 := by decide

theorem normAct_apply (a : Arr Ideal S50000x128 .f32) (ii : Arr Ideal S50000x1 .f32) (b g be : Arr Ideal S1x128 .f32)
    (r : Fin 50000) (q : Fin 128) :
    normAct a ii b g be (ix2 r q)
      = Cert.RowNorm.normRelu (fun k : Fin 128 => a (ix2 r k) * ii (ix2 r (0 : Fin 1)) + b (ix2 (0 : Fin 1) k))
          (fun k => g (ix2 (0 : Fin 1) k)) (fun k => be (ix2 (0 : Fin 1) k)) q := by
  have e : normAct a ii b g be
      = Cert.RowNorm.hostNormRelu bcast_S50000x1_S50000x128_0_1 bcast_S1x128_S50000x128_0_1 bcast_S50000_S50000x1_0
          bcast_S_S50000x1 bcast_S_S50000x128 reducesTo_S50000x128_S50000_d1 h_S_
          (Cert.RowNorm.hostAffine bcast_S50000x1_S50000x128_0_1 bcast_S1x128_S50000x128_0_1 a ii b) g be := rfl
  rw [e, Cert.RowNorm.hostNormRelu_apply _ _ _ _ _ _ _ reducesRows]
  refine congrArg (fun h => Cert.RowNorm.normRelu h _ _ q) (funext fun k => ?_)
  exact Cert.RowNorm.hostAffine_apply _ _ a ii b r k

end Cert.LayerTerms

end
-- ==== Proof.Region0.lean ====
/-
  Launch 0 (the scaled product), from blocks to the whole array.

  The grid has 25 points; point `t` reads rows `2000 t … 2000 t + 1999` of the features and of the scale column,
  the whole weight, and writes the same rows of the output. Entry `(p, q)` of what it writes is
  `(∑ c, x (2000 t + p, c) · w (c, q)) · s (2000 t + p, 0)`, which is entry `(2000 t + p, q)` of
  `scaledProduct x w s`; the 25 blocks cover all 50000 rows, so the array ends holding `scaledProduct x w s`
  of the arrays the launch found.
-/
import proofs.«102242_j71691594105496_1_alg».proof.Proof.Gen.KernelIdeal.Frame
import proofs.«102242_j71691594105496_1_alg».proof.Proof.Gen.ReferenceIdeal
import proofs.«102242_j71691594105496_1_alg».proof.Proof.PayloadRead
import proofs.«102242_j71691594105496_1_alg».proof.Proof.TermsRead
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: windows 0, 2 and 3 take row block `t` at point `t`, window 1 its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point `t`'s block of the features, at `(p, k)`, is row `2000 t + p` of the array. -/
theorem read_x (c : Dev nD) (t : Fin cfg0.N) (p : Fin 2000) (k : Fin 128) (r : Fin 50000) (hr : r.val = t.val * 2000 + p.val) :
    iblk0 V c 0 t (ix2 p k) = V c main_arg0 (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Every point's block of the weight is the whole weight. -/
theorem read_w (c : Dev nD) (t : Fin cfg0.N) (k q : Fin 128) :
    iblk0 V c 1 t (ix2 k q) = V c main_v16 (ix2 k q) := by
  obtain ⟨-, -, e2, e3, -⟩ := idx_facts t
  show V c main_v16 (((cfg0.win 1).blk t).view.emb (ix2 k q)) = V c main_v16 (ix2 k q)
  refine congrArg (V c main_v16) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Point `t`'s block of the scale column, at `(p, 0)`, is row `2000 t + p` of the column. -/
theorem read_s (c : Dev nD) (t : Fin cfg0.N) (p : Fin 2000) (r : Fin 50000) (hr : r.val = t.val * 2000 + p.val) :
    iblk0 V c 2 t (ix2 p (0 : Fin 1)) = V c main_v10 (ix2 r (0 : Fin 1)) := by
  obtain ⟨-, -, -, -, e4, e5, -⟩ := idx_facts t
  show V c main_v10 (((cfg0.win 2).blk t).view.emb (ix2 p (0 : Fin 1))) = V c main_v10 (ix2 r (0 : Fin 1))
  refine congrArg (V c main_v10) (funext fun a => Fin.ext ?_)
  match a with
  | ⟨0, _⟩ => show win0_2.index t (0 : Fin 2) * 2000 + 1 * p.val = r.val; omega
  | ⟨1, _⟩ => show win0_2.index t (1 : Fin 2) * 1 + 1 * 0 = 0; omega

/-- Entry `(p, q)` of point `t`'s output block sits at `(2000 t + p, q)` in the array. -/
theorem emb_out (t : Fin cfg0.N) (p : Fin 2000) (q : Fin 128) (r : Fin 50000) (hr : r.val = t.val * 2000 + p.val) :
    ((cfg0.win 3).blk t).view.emb (ix2 p q) = ix2 r q := by
  obtain ⟨-, -, -, -, -, -, e6, e7⟩ := idx_facts t
  refine funext fun a => Fin.ext ?_
  match a with
  | ⟨0, _⟩ => show win0_3.index t (0 : Fin 2) * 2000 + 1 * p.val = r.val; omega
  | ⟨1, _⟩ => show win0_3.index t (1 : Fin 2) * 128 + 1 * q.val = q.val; omega

/-- What point `t` writes back is block `t` of `scaledProduct` of the arrays the launch found. -/
theorem flushed_eq (c : Dev nD) (t : Fin cfg0.N) :
    (dat0 V c).flushed 3 t
      = ((cfg0.win 3).blk t).view.read (Elt Ideal) (Cert.LayerTerms.scaledProduct (V c main_arg0) (V c main_v16) (V c main_v10)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S2000x1) hz]
  funext j
  obtain ⟨p, q, rfl⟩ : ∃ (p : Fin 2000) (q : Fin 128), j = ix2 p q := ⟨j 0, j 1, eq_ix2 j⟩
  have ht : t.val < 25 := lt_of_lt_of_eq t.isLt N_0
  obtain ⟨r, hr⟩ : ∃ r : Fin 50000, r.val = t.val * 2000 + p.val :=
    ⟨⟨t.val * 2000 + p.val, by have := p.isLt; omega⟩, rfl⟩
  show k0_pay1 (iblk0 V c 0 t) (iblk0 V c 1 t) (iblk0 V c 2 t) (ix2 p q)
    = Cert.LayerTerms.scaledProduct (V c main_arg0) (V c main_v16) (V c main_v10) (((cfg0.win 3).blk t).view.emb (ix2 p q))
  rw [emb_out t p q r hr]
  refine (Cert.KernelIdeal.Payload.scaled0 _ _ _ p q).trans ?_
  refine ((Cert.LayerTerms.scaledProduct_apply _ _ _ r q).trans ?_).symm
  rw [read_s V c t p r hr]
  refine congrArg (· * V c main_v10 (ix2 r (0 : Fin 1))) (Finset.sum_congr rfl fun k _ => ?_)
  rw [read_x V c t p k r hr, read_w V c t k q]

/-- An index of the output array is in point `t`'s block iff each coordinate is in the block's range. -/
theorem mem_blk (t : Fin cfg0.N) (i : S50000x128.Idx) :
    i ∈ ((cfg0.win 3).blk t).view.set
      ↔ ∀ a : Fin 2, win0_3.index t a * S2000x128.size a ≤ (i a).val ∧ (i a).val < win0_3.index t a * S2000x128.size a + S2000x128.size a := by
  show i ∈ ((View.whole main_v17).slice (win0_3.rect t)).set ↔ _
  rw [View.set_slice_whole, Rect.mem_set_unit]
  exact Iff.rfl

/-- Row `r` is in the block of point `r / 2000`: the blocks cover the array. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The output array after the launch. -/
theorem array_eq (c : Dev nD) :
    (dat0 V c).arrAt 3 cfg0.N = Cert.LayerTerms.scaledProduct (V c main_arg0) (V c main_v16) (V c main_v10) :=
  (dat0 V c).arrAt_eq_of_cover 3 _ (fun t _ => flushed_eq V c t) cover

end Cert.KernelIdeal.Region0

end
-- ==== Proof.Region1.lean ====
/-
  Launch 1 (the rectified normalization), from blocks to the whole array.

  The grid has 25 points; point `t` reads rows `2000 t … 2000 t + 1999` of the aggregate and of the scale column,
  the three row vectors whole, and writes the same rows of the output. Entry `(p, q)` of what it writes depends
  on row `2000 t + p` only and is entry `(2000 t + p, q)` of `normAct a s b g be`; the 25 blocks cover all
  50000 rows, so the array ends holding `normAct` of the arrays the launch found.
-/
import proofs.«102242_j71691594105496_1_alg».proof.Proof.Gen.KernelIdeal.Frame
import proofs.«102242_j71691594105496_1_alg».proof.Proof.Gen.ReferenceIdeal
import proofs.«102242_j71691594105496_1_alg».proof.Proof.PayloadRead
import proofs.«102242_j71691594105496_1_alg».proof.Proof.TermsRead
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: windows 0, 1 and 5 take row block `t` at point `t`, windows 2, 3, 4 their whole row. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point `t`'s block of the aggregate, at `(p, k)`, is row `2000 t + p` of the array. -/
theorem read_a (c : Dev nD) (t : Fin cfg1.N) (p : Fin 2000) (k : Fin 128) (r : Fin 50000) (hr : r.val = t.val * 2000 + p.val) :
    iblk1 V c 0 t (ix2 p k) = V c main_v27 (ix2 r k) := by
  have e := idx_facts t
  show V c main_v27 (((cfg1.win 0).blk t).view.emb (ix2 p k)) = V c main_v27 (ix2 r k)
  refine congrArg (V c main_v27) (funext fun x => Fin.ext ?_)
  match x with
  | ⟨0, _⟩ => show win1_0.index t (0 : Fin 2) * 2000 + 1 * p.val = r.val; omega
  | ⟨1, _⟩ => show win1_0.index t (1 : Fin 2) * 128 + 1 * k.val = k.val; omega

/-- Point `t`'s block of the scale column, at `(p, 0)`, is row `2000 t + p` of the column. -/
theorem read_s (c : Dev nD) (t : Fin cfg1.N) (p : Fin 2000) (r : Fin 50000) (hr : r.val = t.val * 2000 + p.val) :
    iblk1 V c 1 t (ix2 p (0 : Fin 1)) = V c main_v14 (ix2 r (0 : Fin 1)) := by
  have e := idx_facts t
  show V c main_v14 (((cfg1.win 1).blk t).view.emb (ix2 p (0 : Fin 1))) = V c main_v14 (ix2 r (0 : Fin 1))
  refine congrArg (V c main_v14) (funext fun x => Fin.ext ?_)
  match x with
  | ⟨0, _⟩ => show win1_1.index t (0 : Fin 2) * 2000 + 1 * p.val = r.val; omega
  | ⟨1, _⟩ => show win1_1.index t (1 : Fin 2) * 1 + 1 * 0 = 0; omega

/-- Every point's block of the bias row is the whole row. -/
theorem read_b (c : Dev nD) (t : Fin cfg1.N) (k : Fin 128) :
    iblk1 V c 2 t (ix2 (0 : Fin 1) k) = V c main_v34 (ix2 (0 : Fin 1) k) := by
  have e := idx_facts t
  show V c main_v34 (((cfg1.win 2).blk t).view.emb (ix2 (0 : Fin 1) k)) = V c main_v34 (ix2 (0 : Fin 1) k)
  refine congrArg (V c main_v34) (funext fun x => Fin.ext ?_)
  match x with
  | ⟨0, _⟩ => show win1_2.index t (0 : Fin 2) * 1 + 1 * 0 = 0; omega
  | ⟨1, _⟩ => show win1_2.index t (1 : Fin 2) * 128 + 1 * k.val = k.val; omega

/-- Every point's block of the scale row is the whole row. -/
theorem read_g (c : Dev nD) (t : Fin cfg1.N) (k : Fin 128) :
    iblk1 V c 3 t (ix2 (0 : Fin 1) k) = V c main_v35 (ix2 (0 : Fin 1) k) := by
  have e := idx_facts t
  show V c main_v35 (((cfg1.win 3).blk t).view.emb (ix2 (0 : Fin 1) k)) = V c main_v35 (ix2 (0 : Fin 1) k)
  refine congrArg (V c main_v35) (funext fun x => Fin.ext ?_)
  match x with
  | ⟨0, _⟩ => show win1_3.index t (0 : Fin 2) * 1 + 1 * 0 = 0; omega
  | ⟨1, _⟩ => show win1_3.index t (1 : Fin 2) * 128 + 1 * k.val = k.val; omega

/-- Every point's block of the shift row is the whole row. -/
theorem read_be (c : Dev nD) (t : Fin cfg1.N) (k : Fin 128) :
    iblk1 V c 4 t (ix2 (0 : Fin 1) k) = V c main_v36 (ix2 (0 : Fin 1) k) := by
  have e := idx_facts t
  show V c main_v36 (((cfg1.win 4).blk t).view.emb (ix2 (0 : Fin 1) k)) = V c main_v36 (ix2 (0 : Fin 1) k)
  refine congrArg (V c main_v36) (funext fun x => Fin.ext ?_)
  match x with
  | ⟨0, _⟩ => show win1_4.index t (0 : Fin 2) * 1 + 1 * 0 = 0; omega
  | ⟨1, _⟩ => show win1_4.index t (1 : Fin 2) * 128 + 1 * k.val = k.val; omega

/-- Entry `(p, q)` of point `t`'s output block sits at `(2000 t + p, q)` in the array. -/
theorem emb_out (t : Fin cfg1.N) (p : Fin 2000) (q : Fin 128) (r : Fin 50000) (hr : r.val = t.val * 2000 + p.val) :
    ((cfg1.win 5).blk t).view.emb (ix2 p q) = ix2 r q := by
  have e := idx_facts t
  refine funext fun x => Fin.ext ?_
  match x with
  | ⟨0, _⟩ => show win1_5.index t (0 : Fin 2) * 2000 + 1 * p.val = r.val; omega
  | ⟨1, _⟩ => show win1_5.index t (1 : Fin 2) * 128 + 1 * q.val = q.val; omega

/-- What point `t` writes back is block `t` of `normAct` of the arrays the launch found. -/
theorem flushed_eq (c : Dev nD) (t : Fin cfg1.N) :
    (dat1 V c).flushed 5 t
      = ((cfg1.win 5).blk t).view.read (Elt Ideal)
          (Cert.LayerTerms.normAct (V c main_v27) (V c main_v14) (V c main_v34) (V c main_v35) (V c main_v36)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  have ht : t.val < 25 := lt_of_lt_of_eq t.isLt N_1
  obtain ⟨r, hr⟩ : ∃ r : Fin 50000, r.val = t.val * 2000 + p.val :=
    ⟨⟨t.val * 2000 + p.val, by have := p.isLt; omega⟩, rfl⟩
  show k1_pay1 (iblk1 V c 0 t) (iblk1 V c 1 t) (iblk1 V c 2 t) (iblk1 V c 3 t) (iblk1 V c 4 t) (ix2 p q)
    = Cert.LayerTerms.normAct (V c main_v27) (V c main_v14) (V c main_v34) (V c main_v35) (V c main_v36) (((cfg1.win 5).blk t).view.emb (ix2 p q))
  rw [emb_out t p q r hr]
  refine (congrFun (Cert.KernelIdeal.Payload.norm1_eq _ _ _ _ _) (ix2 p q)).trans ?_
  refine (Cert.KernelIdeal.Payload.normBlock_apply _ _ _ _ _ p q).trans ?_
  refine ((Cert.LayerTerms.normAct_apply _ _ _ _ _ r q).trans ?_).symm
  have ha : ∀ k : Fin 128, iblk1 V c 0 t (ix2 p k) = V c main_v27 (ix2 r k) := fun k => read_a V c t p k r hr
  have hs : iblk1 V c 1 t (ix2 p (0 : Fin 1)) = V c main_v14 (ix2 r (0 : Fin 1)) := read_s V c t p r hr
  have hb : ∀ k : Fin 128, iblk1 V c 2 t (ix2 (0 : Fin 1) k) = V c main_v34 (ix2 (0 : Fin 1) k) := fun k => read_b V c t k
  have hg : ∀ k : Fin 128, iblk1 V c 3 t (ix2 (0 : Fin 1) k) = V c main_v35 (ix2 (0 : Fin 1) k) := fun k => read_g V c t k
  have he : ∀ k : Fin 128, iblk1 V c 4 t (ix2 (0 : Fin 1) k) = V c main_v36 (ix2 (0 : Fin 1) k) := fun k => read_be V c t k
  simp only [ha, hs, hb, hg, he]

/-- An index of the output array is in point `t`'s block iff each coordinate is in the block's range. -/
theorem mem_blk (t : Fin cfg1.N) (i : S50000x128.Idx) :
    i ∈ ((cfg1.win 5).blk t).view.set
      ↔ ∀ a : Fin 2, win1_5.index t a * S2000x128.size a ≤ (i a).val ∧ (i a).val < win1_5.index t a * S2000x128.size a + S2000x128.size a := by
  show i ∈ ((View.whole main_v37).slice (win1_5.rect t)).set ↔ _
  rw [View.set_slice_whole, Rect.mem_set_unit]
  exact Iff.rfl

/-- Row `r` is in the block of point `r / 2000`: the blocks cover the array. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by omega⟩, rfl⟩
  have e := idx_facts t
  refine ⟨t, flush1_5 t, ?_⟩
  rw [mem_blk]
  intro x
  match x with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the launch. -/
theorem array_eq (c : Dev nD) :
    (dat1 V c).arrAt 5 cfg1.N
      = Cert.LayerTerms.normAct (V c main_v27) (V c main_v14) (V c main_v34) (V c main_v35) (V c main_v36) :=
  (dat1 V c).arrAt_eq_of_cover 5 _ (fun t _ => flushed_eq V c t) cover

end Cert.KernelIdeal.Region1

end
-- ==== Proof.Region2.lean ====
/-
  Launch 2 (the scaled product), from blocks to the whole array.

  The grid has 25 points; point `t` reads rows `2000 t … 2000 t + 1999` of the features and of the scale column,
  the whole weight, and writes the same rows of the output. Entry `(p, q)` of what it writes is
  `(∑ c, x (2000 t + p, c) · w (c, q)) · s (2000 t + p, 0)`, which is entry `(2000 t + p, q)` of
  `scaledProduct x w s`; the 25 blocks cover all 50000 rows, so the array ends holding `scaledProduct x w s`
  of the arrays the launch found.
-/
import proofs.«102242_j71691594105496_1_alg».proof.Proof.Gen.KernelIdeal.Frame
import proofs.«102242_j71691594105496_1_alg».proof.Proof.Gen.ReferenceIdeal
import proofs.«102242_j71691594105496_1_alg».proof.Proof.PayloadRead
import proofs.«102242_j71691594105496_1_alg».proof.Proof.TermsRead
import Idealize.ShloMosaic.Lib.Pipeline.Value

set_option maxRecDepth 16384

noncomputable section

open scoped BigOperators

namespace Cert.KernelIdeal.Region2

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: windows 0, 2 and 3 take row block `t` at point `t`, window 1 its whole array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Point `t`'s block of the features, at `(p, k)`, is row `2000 t + p` of the array. -/
theorem read_x (c : Dev nD) (t : Fin cfg2.N) (p : Fin 2000) (k : Fin 128) (r : Fin 50000) (hr : r.val = t.val * 2000 + p.val) :
    iblk2 V c 0 t (ix2 p k) = V c main_v37 (ix2 r k) := by
  obtain ⟨e0, e1, -⟩ := idx_facts t
  show V c main_v37 (((cfg2.win 0).blk t).view.emb (ix2 p k)) = V c main_v37 (ix2 r k)
  refine congrArg (V c main_v37) (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- Every point's block of the weight is the whole weight. -/
theorem read_w (c : Dev nD) (t : Fin cfg2.N) (k q : Fin 128) :
    iblk2 V c 1 t (ix2 k q) = V c main_v39 (ix2 k q) := by
  obtain ⟨-, -, e2, e3, -⟩ := idx_facts t
  show V c main_v39 (((cfg2.win 1).blk t).view.emb (ix2 k q)) = V c main_v39 (ix2 k q)
  refine congrArg (V c main_v39) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- Point `t`'s block of the scale column, at `(p, 0)`, is row `2000 t + p` of the column. -/
theorem read_s (c : Dev nD) (t : Fin cfg2.N) (p : Fin 2000) (r : Fin 50000) (hr : r.val = t.val * 2000 + p.val) :
    iblk2 V c 2 t (ix2 p (0 : Fin 1)) = V c main_v10 (ix2 r (0 : Fin 1)) := by
  obtain ⟨-, -, -, -, e4, e5, -⟩ := idx_facts t
  show V c main_v10 (((cfg2.win 2).blk t).view.emb (ix2 p (0 : Fin 1))) = V c main_v10 (ix2 r (0 : Fin 1))
  refine congrArg (V c main_v10) (funext fun a => Fin.ext ?_)
  match a with
  | ⟨0, _⟩ => show win2_2.index t (0 : Fin 2) * 2000 + 1 * p.val = r.val; omega
  | ⟨1, _⟩ => show win2_2.index t (1 : Fin 2) * 1 + 1 * 0 = 0; omega

/-- Entry `(p, q)` of point `t`'s output block sits at `(2000 t + p, q)` in the array. -/
theorem emb_out (t : Fin cfg2.N) (p : Fin 2000) (q : Fin 128) (r : Fin 50000) (hr : r.val = t.val * 2000 + p.val) :
    ((cfg2.win 3).blk t).view.emb (ix2 p q) = ix2 r q := by
  obtain ⟨-, -, -, -, -, -, e6, e7⟩ := idx_facts t
  refine funext fun a => Fin.ext ?_
  match a with
  | ⟨0, _⟩ => show win2_3.index t (0 : Fin 2) * 2000 + 1 * p.val = r.val; omega
  | ⟨1, _⟩ => show win2_3.index t (1 : Fin 2) * 128 + 1 * q.val = q.val; omega

/-- What point `t` writes back is block `t` of `scaledProduct` of the arrays the launch found. -/
theorem flushed_eq (c : Dev nD) (t : Fin cfg2.N) :
    (dat2 V c).flushed 3 t
      = ((cfg2.win 3).blk t).view.read (Elt Ideal) (Cert.LayerTerms.scaledProduct (V c main_v37) (V c main_v39) (V c main_v10)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x128) hz, View.ld_unit_zero (S := S2000x1) hz]
  funext j
  obtain ⟨p, q, rfl⟩ : ∃ (p : Fin 2000) (q : Fin 128), j = ix2 p q := ⟨j 0, j 1, eq_ix2 j⟩
  have ht : t.val < 25 := lt_of_lt_of_eq t.isLt N_2
  obtain ⟨r, hr⟩ : ∃ r : Fin 50000, r.val = t.val * 2000 + p.val :=
    ⟨⟨t.val * 2000 + p.val, by have := p.isLt; omega⟩, rfl⟩
  show k2_pay1 (iblk2 V c 0 t) (iblk2 V c 1 t) (iblk2 V c 2 t) (ix2 p q)
    = Cert.LayerTerms.scaledProduct (V c main_v37) (V c main_v39) (V c main_v10) (((cfg2.win 3).blk t).view.emb (ix2 p q))
  rw [emb_out t p q r hr]
  refine (Cert.KernelIdeal.Payload.scaled2 _ _ _ p q).trans ?_
  refine ((Cert.LayerTerms.scaledProduct_apply _ _ _ r q).trans ?_).symm
  rw [read_s V c t p r hr]
  refine congrArg (· * V c main_v10 (ix2 r (0 : Fin 1))) (Finset.sum_congr rfl fun k _ => ?_)
  rw [read_x V c t p k r hr, read_w V c t k q]

/-- An index of the output array is in point `t`'s block iff each coordinate is in the block's range. -/
theorem mem_blk (t : Fin cfg2.N) (i : S50000x128.Idx) :
    i ∈ ((cfg2.win 3).blk t).view.set
      ↔ ∀ a : Fin 2, win2_3.index t a * S2000x128.size a ≤ (i a).val ∧ (i a).val < win2_3.index t a * S2000x128.size a + S2000x128.size a := by
  show i ∈ ((View.whole main_v40).slice (win2_3.rect t)).set ↔ _
  rw [View.set_slice_whole, Rect.mem_set_unit]
  exact Iff.rfl

/-- Row `r` is in the block of point `r / 2000`: the blocks cover the array. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by omega⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The output array after the launch. -/
theorem array_eq (c : Dev nD) :
    (dat2 V c).arrAt 3 cfg2.N = Cert.LayerTerms.scaledProduct (V c main_v37) (V c main_v39) (V c main_v10) :=
  (dat2 V c).arrAt_eq_of_cover 3 _ (fun t _ => flushed_eq V c t) cover

end Cert.KernelIdeal.Region2

end
-- ==== Proof.Region3.lean ====
/-
  Launch 3 (the rectified normalization), from blocks to the whole array.

  The grid has 25 points; point `t` reads rows `2000 t … 2000 t + 1999` of the aggregate and of the scale column,
  the three row vectors whole, and writes the same rows of the output. Entry `(p, q)` of what it writes depends
  on row `2000 t + p` only and is entry `(2000 t + p, q)` of `normAct a s b g be`; the 25 blocks cover all
  50000 rows, so the array ends holding `normAct` of the arrays the launch found.
-/
import proofs.«102242_j71691594105496_1_alg».proof.Proof.Gen.KernelIdeal.Frame
import proofs.«102242_j71691594105496_1_alg».proof.Proof.Gen.ReferenceIdeal
import proofs.«102242_j71691594105496_1_alg».proof.Proof.PayloadRead
import proofs.«102242_j71691594105496_1_alg».proof.Proof.TermsRead
import Idealize.ShloMosaic.Lib.Pipeline.Value

set_option maxRecDepth 16384

noncomputable section

open scoped BigOperators

namespace Cert.KernelIdeal.Region3

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: windows 0, 1 and 5 take row block `t` at point `t`, windows 2, 3, 4 their whole row. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Point `t`'s block of the aggregate, at `(p, k)`, is row `2000 t + p` of the array. -/
theorem read_a (c : Dev nD) (t : Fin cfg3.N) (p : Fin 2000) (k : Fin 128) (r : Fin 50000) (hr : r.val = t.val * 2000 + p.val) :
    iblk3 V c 0 t (ix2 p k) = V c main_v50 (ix2 r k) := by
  have e := idx_facts t
  show V c main_v50 (((cfg3.win 0).blk t).view.emb (ix2 p k)) = V c main_v50 (ix2 r k)
  refine congrArg (V c main_v50) (funext fun x => Fin.ext ?_)
  match x with
  | ⟨0, _⟩ => show win3_0.index t (0 : Fin 2) * 2000 + 1 * p.val = r.val; omega
  | ⟨1, _⟩ => show win3_0.index t (1 : Fin 2) * 128 + 1 * k.val = k.val; omega

/-- Point `t`'s block of the scale column, at `(p, 0)`, is row `2000 t + p` of the column. -/
theorem read_s (c : Dev nD) (t : Fin cfg3.N) (p : Fin 2000) (r : Fin 50000) (hr : r.val = t.val * 2000 + p.val) :
    iblk3 V c 1 t (ix2 p (0 : Fin 1)) = V c main_v14 (ix2 r (0 : Fin 1)) := by
  have e := idx_facts t
  show V c main_v14 (((cfg3.win 1).blk t).view.emb (ix2 p (0 : Fin 1))) = V c main_v14 (ix2 r (0 : Fin 1))
  refine congrArg (V c main_v14) (funext fun x => Fin.ext ?_)
  match x with
  | ⟨0, _⟩ => show win3_1.index t (0 : Fin 2) * 2000 + 1 * p.val = r.val; omega
  | ⟨1, _⟩ => show win3_1.index t (1 : Fin 2) * 1 + 1 * 0 = 0; omega

/-- Every point's block of the bias row is the whole row. -/
theorem read_b (c : Dev nD) (t : Fin cfg3.N) (k : Fin 128) :
    iblk3 V c 2 t (ix2 (0 : Fin 1) k) = V c main_v57 (ix2 (0 : Fin 1) k) := by
  have e := idx_facts t
  show V c main_v57 (((cfg3.win 2).blk t).view.emb (ix2 (0 : Fin 1) k)) = V c main_v57 (ix2 (0 : Fin 1) k)
  refine congrArg (V c main_v57) (funext fun x => Fin.ext ?_)
  match x with
  | ⟨0, _⟩ => show win3_2.index t (0 : Fin 2) * 1 + 1 * 0 = 0; omega
  | ⟨1, _⟩ => show win3_2.index t (1 : Fin 2) * 128 + 1 * k.val = k.val; omega

/-- Every point's block of the scale row is the whole row. -/
theorem read_g (c : Dev nD) (t : Fin cfg3.N) (k : Fin 128) :
    iblk3 V c 3 t (ix2 (0 : Fin 1) k) = V c main_v58 (ix2 (0 : Fin 1) k) := by
  have e := idx_facts t
  show V c main_v58 (((cfg3.win 3).blk t).view.emb (ix2 (0 : Fin 1) k)) = V c main_v58 (ix2 (0 : Fin 1) k)
  refine congrArg (V c main_v58) (funext fun x => Fin.ext ?_)
  match x with
  | ⟨0, _⟩ => show win3_3.index t (0 : Fin 2) * 1 + 1 * 0 = 0; omega
  | ⟨1, _⟩ => show win3_3.index t (1 : Fin 2) * 128 + 1 * k.val = k.val; omega

/-- Every point's block of the shift row is the whole row. -/
theorem read_be (c : Dev nD) (t : Fin cfg3.N) (k : Fin 128) :
    iblk3 V c 4 t (ix2 (0 : Fin 1) k) = V c main_v59 (ix2 (0 : Fin 1) k) := by
  have e := idx_facts t
  show V c main_v59 (((cfg3.win 4).blk t).view.emb (ix2 (0 : Fin 1) k)) = V c main_v59 (ix2 (0 : Fin 1) k)
  refine congrArg (V c main_v59) (funext fun x => Fin.ext ?_)
  match x with
  | ⟨0, _⟩ => show win3_4.index t (0 : Fin 2) * 1 + 1 * 0 = 0; omega
  | ⟨1, _⟩ => show win3_4.index t (1 : Fin 2) * 128 + 1 * k.val = k.val; omega

/-- Entry `(p, q)` of point `t`'s output block sits at `(2000 t + p, q)` in the array. -/
theorem emb_out (t : Fin cfg3.N) (p : Fin 2000) (q : Fin 128) (r : Fin 50000) (hr : r.val = t.val * 2000 + p.val) :
    ((cfg3.win 5).blk t).view.emb (ix2 p q) = ix2 r q := by
  have e := idx_facts t
  refine funext fun x => Fin.ext ?_
  match x with
  | ⟨0, _⟩ => show win3_5.index t (0 : Fin 2) * 2000 + 1 * p.val = r.val; omega
  | ⟨1, _⟩ => show win3_5.index t (1 : Fin 2) * 128 + 1 * q.val = q.val; omega

/-- What point `t` writes back is block `t` of `normAct` of the arrays the launch found. -/
theorem flushed_eq (c : Dev nD) (t : Fin cfg3.N) :
    (dat3 V c).flushed 5 t
      = ((cfg3.win 5).blk t).view.read (Elt Ideal)
          (Cert.LayerTerms.normAct (V c main_v50) (V c main_v14) (V c main_v57) (V c main_v58) (V c main_v59)) := by
  show (cfg3.win 5).cut (grid3.coords t) ((dat3 V c).after 5 t) = _
  rw [after3_5]
  unfold out3_5
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  have ht : t.val < 25 := lt_of_lt_of_eq t.isLt N_3
  obtain ⟨r, hr⟩ : ∃ r : Fin 50000, r.val = t.val * 2000 + p.val :=
    ⟨⟨t.val * 2000 + p.val, by have := p.isLt; omega⟩, rfl⟩
  show k3_pay1 (iblk3 V c 0 t) (iblk3 V c 1 t) (iblk3 V c 2 t) (iblk3 V c 3 t) (iblk3 V c 4 t) (ix2 p q)
    = Cert.LayerTerms.normAct (V c main_v50) (V c main_v14) (V c main_v57) (V c main_v58) (V c main_v59) (((cfg3.win 5).blk t).view.emb (ix2 p q))
  rw [emb_out t p q r hr]
  refine (congrFun (Cert.KernelIdeal.Payload.norm3_eq _ _ _ _ _) (ix2 p q)).trans ?_
  refine (Cert.KernelIdeal.Payload.normBlock_apply _ _ _ _ _ p q).trans ?_
  refine ((Cert.LayerTerms.normAct_apply _ _ _ _ _ r q).trans ?_).symm
  have ha : ∀ k : Fin 128, iblk3 V c 0 t (ix2 p k) = V c main_v50 (ix2 r k) := fun k => read_a V c t p k r hr
  have hs : iblk3 V c 1 t (ix2 p (0 : Fin 1)) = V c main_v14 (ix2 r (0 : Fin 1)) := read_s V c t p r hr
  have hb : ∀ k : Fin 128, iblk3 V c 2 t (ix2 (0 : Fin 1) k) = V c main_v57 (ix2 (0 : Fin 1) k) := fun k => read_b V c t k
  have hg : ∀ k : Fin 128, iblk3 V c 3 t (ix2 (0 : Fin 1) k) = V c main_v58 (ix2 (0 : Fin 1) k) := fun k => read_g V c t k
  have he : ∀ k : Fin 128, iblk3 V c 4 t (ix2 (0 : Fin 1) k) = V c main_v59 (ix2 (0 : Fin 1) k) := fun k => read_be V c t k
  simp only [ha, hs, hb, hg, he]

/-- An index of the output array is in point `t`'s block iff each coordinate is in the block's range. -/
theorem mem_blk (t : Fin cfg3.N) (i : S50000x128.Idx) :
    i ∈ ((cfg3.win 5).blk t).view.set
      ↔ ∀ a : Fin 2, win3_5.index t a * S2000x128.size a ≤ (i a).val ∧ (i a).val < win3_5.index t a * S2000x128.size a + S2000x128.size a := by
  show i ∈ ((View.whole main_v60).slice (win3_5.rect t)).set ↔ _
  rw [View.set_slice_whole, Rect.mem_set_unit]
  exact Iff.rfl

/-- Row `r` is in the block of point `r / 2000`: the blocks cover the array. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by omega⟩, rfl⟩
  have e := idx_facts t
  refine ⟨t, flush3_5 t, ?_⟩
  rw [mem_blk]
  intro x
  match x with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The output array after the launch. -/
theorem array_eq (c : Dev nD) :
    (dat3 V c).arrAt 5 cfg3.N
      = Cert.LayerTerms.normAct (V c main_v50) (V c main_v14) (V c main_v57) (V c main_v58) (V c main_v59) :=
  (dat3 V c).arrAt_eq_of_cover 5 _ (fun t _ => flushed_eq V c t) cover

end Cert.KernelIdeal.Region3

end
-- ==== Proof.Region4.lean ====
/-
  Launch 4 (the scaled product), from blocks to the whole array.

  The grid has 25 points; point `t` reads rows `2000 t … 2000 t + 1999` of the features and of the scale column,
  the whole weight, and writes the same rows of the output. Entry `(p, q)` of what it writes is
  `(∑ c, x (2000 t + p, c) · w (c, q)) · s (2000 t + p, 0)`, which is entry `(2000 t + p, q)` of
  `scaledProduct x w s`; the 25 blocks cover all 50000 rows, so the array ends holding `scaledProduct x w s`
  of the arrays the launch found.
-/
import proofs.«102242_j71691594105496_1_alg».proof.Proof.Gen.KernelIdeal.Frame
import proofs.«102242_j71691594105496_1_alg».proof.Proof.Gen.ReferenceIdeal
import proofs.«102242_j71691594105496_1_alg».proof.Proof.PayloadRead
import proofs.«102242_j71691594105496_1_alg».proof.Proof.TermsRead
import Idealize.ShloMosaic.Lib.Pipeline.Value

set_option maxRecDepth 16384

noncomputable section

open scoped BigOperators

namespace Cert.KernelIdeal.Region4

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: windows 0, 2 and 3 take row block `t` at point `t`, window 1 its whole array. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Point `t`'s block of the features, at `(p, k)`, is row `2000 t + p` of the array. -/
theorem read_x (c : Dev nD) (t : Fin cfg4.N) (p : Fin 2000) (k : Fin 128) (r : Fin 50000) (hr : r.val = t.val * 2000 + p.val) :
    iblk4 V c 0 t (ix2 p k) = V c main_v60 (ix2 r k) := by
  obtain ⟨e0, e1, -⟩ := idx_facts t
  show V c main_v60 (((cfg4.win 0).blk t).view.emb (ix2 p k)) = V c main_v60 (ix2 r k)
  refine congrArg (V c main_v60) (funext fun a => Fin.ext ?_)
  match a with
  | ⟨0, _⟩ => show win4_0.index t (0 : Fin 2) * 2000 + 1 * p.val = r.val; omega
  | ⟨1, _⟩ => show win4_0.index t (1 : Fin 2) * 128 + 1 * k.val = k.val; omega

/-- Every point's block of the weight is the whole weight. -/
theorem read_w (c : Dev nD) (t : Fin cfg4.N) (k q : Fin 128) :
    iblk4 V c 1 t (ix2 k q) = V c main_v62 (ix2 k q) := by
  obtain ⟨-, -, e2, e3, -⟩ := idx_facts t
  show V c main_v62 (((cfg4.win 1).blk t).view.emb (ix2 k q)) = V c main_v62 (ix2 k q)
  refine congrArg (V c main_v62) (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- Point `t`'s block of the scale column, at `(p, 0)`, is row `2000 t + p` of the column. -/
theorem read_s (c : Dev nD) (t : Fin cfg4.N) (p : Fin 2000) (r : Fin 50000) (hr : r.val = t.val * 2000 + p.val) :
    iblk4 V c 2 t (ix2 p (0 : Fin 1)) = V c main_v10 (ix2 r (0 : Fin 1)) := by
  obtain ⟨-, -, -, -, e4, e5, -⟩ := idx_facts t
  show V c main_v10 (((cfg4.win 2).blk t).view.emb (ix2 p (0 : Fin 1))) = V c main_v10 (ix2 r (0 : Fin 1))
  refine congrArg (V c main_v10) (funext fun a => Fin.ext ?_)
  match a with
  | ⟨0, _⟩ => show win4_2.index t (0 : Fin 2) * 2000 + 1 * p.val = r.val; omega
  | ⟨1, _⟩ => show win4_2.index t (1 : Fin 2) * 1 + 1 * 0 = 0; omega

/-- Entry `(p, q)` of point `t`'s output block sits at `(2000 t + p, q)` in the array. -/
theorem emb_out (t : Fin cfg4.N) (p : Fin 2000) (q : Fin 128) (r : Fin 50000) (hr : r.val = t.val * 2000 + p.val) :
    ((cfg4.win 3).blk t).view.emb (ix2 p q) = ix2 r q := by
  obtain ⟨-, -, -, -, -, -, e6, e7⟩ := idx_facts t
  refine funext fun a => Fin.ext ?_
  match a with
  | ⟨0, _⟩ => show win4_3.index t (0 : Fin 2) * 2000 + 1 * p.val = r.val; omega
  | ⟨1, _⟩ => show win4_3.index t (1 : Fin 2) * 128 + 1 * q.val = q.val; omega

/-- What point `t` writes back is block `t` of `scaledProduct` of the arrays the launch found. -/
theorem flushed_eq (c : Dev nD) (t : Fin cfg4.N) :
    (dat4 V c).flushed 3 t
      = ((cfg4.win 3).blk t).view.read (Elt Ideal) (Cert.LayerTerms.scaledProduct (V c main_v60) (V c main_v62) (V c main_v10)) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x128) hz, View.ld_unit_zero (S := S2000x1) hz]
  funext j
  obtain ⟨p, q, rfl⟩ : ∃ (p : Fin 2000) (q : Fin 128), j = ix2 p q := ⟨j 0, j 1, eq_ix2 j⟩
  have ht : t.val < 25 := lt_of_lt_of_eq t.isLt N_4
  obtain ⟨r, hr⟩ : ∃ r : Fin 50000, r.val = t.val * 2000 + p.val :=
    ⟨⟨t.val * 2000 + p.val, by have := p.isLt; omega⟩, rfl⟩
  show k4_pay1 (iblk4 V c 0 t) (iblk4 V c 1 t) (iblk4 V c 2 t) (ix2 p q)
    = Cert.LayerTerms.scaledProduct (V c main_v60) (V c main_v62) (V c main_v10) (((cfg4.win 3).blk t).view.emb (ix2 p q))
  rw [emb_out t p q r hr]
  refine (Cert.KernelIdeal.Payload.scaled4 _ _ _ p q).trans ?_
  refine ((Cert.LayerTerms.scaledProduct_apply _ _ _ r q).trans ?_).symm
  rw [read_s V c t p r hr]
  refine congrArg (· * V c main_v10 (ix2 r (0 : Fin 1))) (Finset.sum_congr rfl fun k _ => ?_)
  rw [read_x V c t p k r hr, read_w V c t k q]

/-- An index of the output array is in point `t`'s block iff each coordinate is in the block's range. -/
theorem mem_blk (t : Fin cfg4.N) (i : S50000x128.Idx) :
    i ∈ ((cfg4.win 3).blk t).view.set
      ↔ ∀ a : Fin 2, win4_3.index t a * S2000x128.size a ≤ (i a).val ∧ (i a).val < win4_3.index t a * S2000x128.size a + S2000x128.size a := by
  show i ∈ ((View.whole main_v63).slice (win4_3.rect t)).set ↔ _
  rw [View.set_slice_whole, Rect.mem_set_unit]
  exact Iff.rfl

/-- Row `r` is in the block of point `r / 2000`: the blocks cover the array. -/
theorem cover (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by omega⟩, rfl⟩
  obtain ⟨-, -, -, -, -, -, e6, e7⟩ := idx_facts t
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- The output array after the launch. -/
theorem array_eq (c : Dev nD) :
    (dat4 V c).arrAt 3 cfg4.N = Cert.LayerTerms.scaledProduct (V c main_v60) (V c main_v62) (V c main_v10) :=
  (dat4 V c).arrAt_eq_of_cover 3 _ (fun t _ => flushed_eq V c t) cover

end Cert.KernelIdeal.Region4

end
-- ==== Proof.Region5.lean ====
/-
  Launch 5 (the rectified normalization), from blocks to the whole array.

  The grid has 25 points; point `t` reads rows `2000 t … 2000 t + 1999` of the aggregate and of the scale column,
  the three row vectors whole, and writes the same rows of the output. Entry `(p, q)` of what it writes depends
  on row `2000 t + p` only and is entry `(2000 t + p, q)` of `normAct a s b g be`; the 25 blocks cover all
  50000 rows, so the array ends holding `normAct` of the arrays the launch found.
-/
import proofs.«102242_j71691594105496_1_alg».proof.Proof.Gen.KernelIdeal.Frame
import proofs.«102242_j71691594105496_1_alg».proof.Proof.Gen.ReferenceIdeal
import proofs.«102242_j71691594105496_1_alg».proof.Proof.PayloadRead
import proofs.«102242_j71691594105496_1_alg».proof.Proof.TermsRead
import Idealize.ShloMosaic.Lib.Pipeline.Value

set_option maxRecDepth 16384

noncomputable section

open scoped BigOperators

namespace Cert.KernelIdeal.Region5

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: windows 0, 1 and 5 take row block `t` at point `t`, windows 2, 3, 4 their whole row. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Point `t`'s block of the aggregate, at `(p, k)`, is row `2000 t + p` of the array. -/
theorem read_a (c : Dev nD) (t : Fin cfg5.N) (p : Fin 2000) (k : Fin 128) (r : Fin 50000) (hr : r.val = t.val * 2000 + p.val) :
    iblk5 V c 0 t (ix2 p k) = V c main_v73 (ix2 r k) := by
  have e := idx_facts t
  show V c main_v73 (((cfg5.win 0).blk t).view.emb (ix2 p k)) = V c main_v73 (ix2 r k)
  refine congrArg (V c main_v73) (funext fun x => Fin.ext ?_)
  match x with
  | ⟨0, _⟩ => show win5_0.index t (0 : Fin 2) * 2000 + 1 * p.val = r.val; omega
  | ⟨1, _⟩ => show win5_0.index t (1 : Fin 2) * 128 + 1 * k.val = k.val; omega

/-- Point `t`'s block of the scale column, at `(p, 0)`, is row `2000 t + p` of the column. -/
theorem read_s (c : Dev nD) (t : Fin cfg5.N) (p : Fin 2000) (r : Fin 50000) (hr : r.val = t.val * 2000 + p.val) :
    iblk5 V c 1 t (ix2 p (0 : Fin 1)) = V c main_v14 (ix2 r (0 : Fin 1)) := by
  have e := idx_facts t
  show V c main_v14 (((cfg5.win 1).blk t).view.emb (ix2 p (0 : Fin 1))) = V c main_v14 (ix2 r (0 : Fin 1))
  refine congrArg (V c main_v14) (funext fun x => Fin.ext ?_)
  match x with
  | ⟨0, _⟩ => show win5_1.index t (0 : Fin 2) * 2000 + 1 * p.val = r.val; omega
  | ⟨1, _⟩ => show win5_1.index t (1 : Fin 2) * 1 + 1 * 0 = 0; omega

/-- Every point's block of the bias row is the whole row. -/
theorem read_b (c : Dev nD) (t : Fin cfg5.N) (k : Fin 128) :
    iblk5 V c 2 t (ix2 (0 : Fin 1) k) = V c main_v80 (ix2 (0 : Fin 1) k) := by
  have e := idx_facts t
  show V c main_v80 (((cfg5.win 2).blk t).view.emb (ix2 (0 : Fin 1) k)) = V c main_v80 (ix2 (0 : Fin 1) k)
  refine congrArg (V c main_v80) (funext fun x => Fin.ext ?_)
  match x with
  | ⟨0, _⟩ => show win5_2.index t (0 : Fin 2) * 1 + 1 * 0 = 0; omega
  | ⟨1, _⟩ => show win5_2.index t (1 : Fin 2) * 128 + 1 * k.val = k.val; omega

/-- Every point's block of the scale row is the whole row. -/
theorem read_g (c : Dev nD) (t : Fin cfg5.N) (k : Fin 128) :
    iblk5 V c 3 t (ix2 (0 : Fin 1) k) = V c main_v81 (ix2 (0 : Fin 1) k) := by
  have e := idx_facts t
  show V c main_v81 (((cfg5.win 3).blk t).view.emb (ix2 (0 : Fin 1) k)) = V c main_v81 (ix2 (0 : Fin 1) k)
  refine congrArg (V c main_v81) (funext fun x => Fin.ext ?_)
  match x with
  | ⟨0, _⟩ => show win5_3.index t (0 : Fin 2) * 1 + 1 * 0 = 0; omega
  | ⟨1, _⟩ => show win5_3.index t (1 : Fin 2) * 128 + 1 * k.val = k.val; omega

/-- Every point's block of the shift row is the whole row. -/
theorem read_be (c : Dev nD) (t : Fin cfg5.N) (k : Fin 128) :
    iblk5 V c 4 t (ix2 (0 : Fin 1) k) = V c main_v82 (ix2 (0 : Fin 1) k) := by
  have e := idx_facts t
  show V c main_v82 (((cfg5.win 4).blk t).view.emb (ix2 (0 : Fin 1) k)) = V c main_v82 (ix2 (0 : Fin 1) k)
  refine congrArg (V c main_v82) (funext fun x => Fin.ext ?_)
  match x with
  | ⟨0, _⟩ => show win5_4.index t (0 : Fin 2) * 1 + 1 * 0 = 0; omega
  | ⟨1, _⟩ => show win5_4.index t (1 : Fin 2) * 128 + 1 * k.val = k.val; omega

/-- Entry `(p, q)` of point `t`'s output block sits at `(2000 t + p, q)` in the array. -/
theorem emb_out (t : Fin cfg5.N) (p : Fin 2000) (q : Fin 128) (r : Fin 50000) (hr : r.val = t.val * 2000 + p.val) :
    ((cfg5.win 5).blk t).view.emb (ix2 p q) = ix2 r q := by
  have e := idx_facts t
  refine funext fun x => Fin.ext ?_
  match x with
  | ⟨0, _⟩ => show win5_5.index t (0 : Fin 2) * 2000 + 1 * p.val = r.val; omega
  | ⟨1, _⟩ => show win5_5.index t (1 : Fin 2) * 128 + 1 * q.val = q.val; omega

/-- What point `t` writes back is block `t` of `normAct` of the arrays the launch found. -/
theorem flushed_eq (c : Dev nD) (t : Fin cfg5.N) :
    (dat5 V c).flushed 5 t
      = ((cfg5.win 5).blk t).view.read (Elt Ideal)
          (Cert.LayerTerms.normAct (V c main_v73) (V c main_v14) (V c main_v80) (V c main_v81) (V c main_v82)) := by
  show (cfg5.win 5).cut (grid5.coords t) ((dat5 V c).after 5 t) = _
  rw [after5_5]
  unfold out5_5
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  have ht : t.val < 25 := lt_of_lt_of_eq t.isLt N_5
  obtain ⟨r, hr⟩ : ∃ r : Fin 50000, r.val = t.val * 2000 + p.val :=
    ⟨⟨t.val * 2000 + p.val, by have := p.isLt; omega⟩, rfl⟩
  show k5_pay1 (iblk5 V c 0 t) (iblk5 V c 1 t) (iblk5 V c 2 t) (iblk5 V c 3 t) (iblk5 V c 4 t) (ix2 p q)
    = Cert.LayerTerms.normAct (V c main_v73) (V c main_v14) (V c main_v80) (V c main_v81) (V c main_v82) (((cfg5.win 5).blk t).view.emb (ix2 p q))
  rw [emb_out t p q r hr]
  refine (congrFun (Cert.KernelIdeal.Payload.norm5_eq _ _ _ _ _) (ix2 p q)).trans ?_
  refine (Cert.KernelIdeal.Payload.normBlock_apply _ _ _ _ _ p q).trans ?_
  refine ((Cert.LayerTerms.normAct_apply _ _ _ _ _ r q).trans ?_).symm
  have ha : ∀ k : Fin 128, iblk5 V c 0 t (ix2 p k) = V c main_v73 (ix2 r k) := fun k => read_a V c t p k r hr
  have hs : iblk5 V c 1 t (ix2 p (0 : Fin 1)) = V c main_v14 (ix2 r (0 : Fin 1)) := read_s V c t p r hr
  have hb : ∀ k : Fin 128, iblk5 V c 2 t (ix2 (0 : Fin 1) k) = V c main_v80 (ix2 (0 : Fin 1) k) := fun k => read_b V c t k
  have hg : ∀ k : Fin 128, iblk5 V c 3 t (ix2 (0 : Fin 1) k) = V c main_v81 (ix2 (0 : Fin 1) k) := fun k => read_g V c t k
  have he : ∀ k : Fin 128, iblk5 V c 4 t (ix2 (0 : Fin 1) k) = V c main_v82 (ix2 (0 : Fin 1) k) := fun k => read_be V c t k
  simp only [ha, hs, hb, hg, he]

/-- An index of the output array is in point `t`'s block iff each coordinate is in the block's range. -/
theorem mem_blk (t : Fin cfg5.N) (i : S50000x128.Idx) :
    i ∈ ((cfg5.win 5).blk t).view.set
      ↔ ∀ a : Fin 2, win5_5.index t a * S2000x128.size a ≤ (i a).val ∧ (i a).val < win5_5.index t a * S2000x128.size a + S2000x128.size a := by
  show i ∈ ((View.whole main_v83).slice (win5_5.rect t)).set ↔ _
  rw [View.set_slice_whole, Rect.mem_set_unit]
  exact Iff.rfl

/-- Row `r` is in the block of point `r / 2000`: the blocks cover the array. -/
theorem cover (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 25 := N_5
  obtain ⟨t, ht⟩ : ∃ t : Fin cfg5.N, t.val = (i 0).val / 2000 := ⟨⟨(i 0).val / 2000, by omega⟩, rfl⟩
  have e := idx_facts t
  refine ⟨t, flush5_5 t, ?_⟩
  rw [mem_blk]
  intro x
  match x with
  | ⟨0, _⟩ => show win5_5.index t (0 : Fin 2) * 2000 ≤ (i 0).val ∧ (i 0).val < win5_5.index t (0 : Fin 2) * 2000 + 2000; omega
  | ⟨1, _⟩ => show win5_5.index t (1 : Fin 2) * 128 ≤ (i 1).val ∧ (i 1).val < win5_5.index t (1 : Fin 2) * 128 + 128; omega

/-- The output array after the launch. -/
theorem array_eq (c : Dev nD) :
    (dat5 V c).arrAt 5 cfg5.N
      = Cert.LayerTerms.normAct (V c main_v73) (V c main_v14) (V c main_v80) (V c main_v81) (V c main_v82) :=
  (dat5 V c).arrAt_eq_of_cover 5 _ (fun t _ => flushed_eq V c t) cover

end Cert.KernelIdeal.Region5

end
-- ==== Proof.Chain.lean ====
/-
  The idealized kernel program's result, as a function of its argument arrays.

  The program is seven stretches of host operations around six launches. Its buffers' contents at each boundary
  are a fold from the launch memory. Walking the fold: a stretch leaves alone every buffer it does not write, a
  launch every buffer that is none of its output arrays; the stretches compute the named stages (the degree scales,
  the weights, the aggregate, the row vectors, the final pick) of what they find; and launch `2l` leaves
  `scaledProduct`, launch `2l + 1` leaves `normAct`, of the arrays it finds. Composing, the result buffer ends at
  `Cert.LayerTerms.out` of the arguments — three layers, then the pick.
-/
import proofs.«102242_j71691594105496_1_alg».proof.Proof.Gen.KernelIdeal.Frame
import proofs.«102242_j71691594105496_1_alg».proof.Proof.HostValues
import proofs.«102242_j71691594105496_1_alg».proof.Proof.HostPick
import proofs.«102242_j71691594105496_1_alg».proof.Proof.Region0
import proofs.«102242_j71691594105496_1_alg».proof.Proof.Region1
import proofs.«102242_j71691594105496_1_alg».proof.Proof.Region2
import proofs.«102242_j71691594105496_1_alg».proof.Proof.Region3
import proofs.«102242_j71691594105496_1_alg».proof.Proof.Region4
import proofs.«102242_j71691594105496_1_alg».proof.Proof.Region5

set_option maxRecDepth 16384

noncomputable section

namespace Cert.KernelIdeal.Chain

open Idealize.ShloMosaic Idealize.ShloMosaic.TcCoe Idealize.SL.Sem Cert.KernelIdeal Cert.KernelIdeal.Gen
open Cert.LayerTerms (invSqrtDeg aggregate asRow weight0 weight1 weight2 vec0 vec1 vec2 pick scaledProduct normAct layer)

variable (m : (ℓ : Loc nD τ sig) → Buf (Elt Ideal) ℓ) (ρ : Dev nD → PrngReg) (c : Dev nD)

/-! ## What each stretch and each launch leaves alone -/

/-- The buffers the stretch before launch 0 writes. -/
abbrev written0 : List (Ref sig .tc) := [main_cst, main_v0, main_cst_0, main_v1, main_v2, main_v3, main_cst_1, main_v4, main_v5, main_v6, main_cst_2, main_v7, main_v8, main_v9, main_v10, main_cst_3, main_v11, main_v12, main_v13, main_v14, main_v15, main_v16]
theorem writes0 : (hostOps0 (F := Ideal)).Forall fun op => op.writes ⊆ (written0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))
/-- A buffer that stretch does not write holds after it what it held before. -/
theorem keep1 (b : Ref sig .tc) (hb : b ∉ written0) :
    W1 m ρ c (Proc.devRef .tc b) = W0 m ρ c (Proc.devRef .tc b) :=
  StableHlo.after_of_writes_sub (hostOps0 (F := Ideal)) _ writes0 hb

/-- A buffer that is none of launch 0's arrays holds after it what it held before. -/
theorem keep2 (b : Ref sig .tc) (hb : ∀ w, Pipeline.arrRef spec0 w ≠ b) :
    W2 m ρ c (Proc.devRef .tc b) = W1 m ρ c (Proc.devRef .tc b) := W2_of_ne m ρ c b hb

/-- Launch 0 only reads the scale column: it holds after the launch what it held before. -/
theorem keep2_main_v10 : W2 m ρ c (Proc.devRef .tc main_v10) = W1 m ρ c (Proc.devRef .tc main_v10) :=
  (W2_arr m ρ c 2).trans (((dat0 (V1 m ρ) c).arrAt_in 2 rfl _).trans (A_eq0 (V1 m ρ) c 2))

/-- The buffers the stretch before launch 1 writes. -/
abbrev written1 : List (Ref sig .tc) := [main_c, main_v18, main_v19, main_c_4, main_v20, main_v21, main_v22, main_v23, main_v24, main_cst_5, main_v25, main_v26, main_v27, main_v28, main_v29, main_v30, main_v31, main_v32, main_v33, main_v34, main_v35, main_v36]
theorem writes1 : (hostOps1 (F := Ideal)).Forall fun op => op.writes ⊆ (written1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))
/-- A buffer that stretch does not write holds after it what it held before. -/
theorem keep3 (b : Ref sig .tc) (hb : b ∉ written1) :
    W3 m ρ c (Proc.devRef .tc b) = W2 m ρ c (Proc.devRef .tc b) :=
  StableHlo.after_of_writes_sub (hostOps1 (F := Ideal)) _ writes1 hb

/-- A buffer that is none of launch 1's arrays holds after it what it held before. -/
theorem keep4 (b : Ref sig .tc) (hb : ∀ w, Pipeline.arrRef spec1 w ≠ b) :
    W4 m ρ c (Proc.devRef .tc b) = W3 m ρ c (Proc.devRef .tc b) := W4_of_ne m ρ c b hb

/-- Launch 1 only reads the scale column: it holds after the launch what it held before. -/
theorem keep4_main_v14 : W4 m ρ c (Proc.devRef .tc main_v14) = W3 m ρ c (Proc.devRef .tc main_v14) :=
  (W4_arr m ρ c 1).trans (((dat1 (V3 m ρ) c).arrAt_in 1 rfl _).trans (A_eq1 (V3 m ρ) c 1))

/-- The buffers the stretch before launch 2 writes. -/
abbrev written2 : List (Ref sig .tc) := [main_v38, main_v39]
theorem writes2 : (hostOps2 (F := Ideal)).Forall fun op => op.writes ⊆ (written2.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))
/-- A buffer that stretch does not write holds after it what it held before. -/
theorem keep5 (b : Ref sig .tc) (hb : b ∉ written2) :
    W5 m ρ c (Proc.devRef .tc b) = W4 m ρ c (Proc.devRef .tc b) :=
  StableHlo.after_of_writes_sub (hostOps2 (F := Ideal)) _ writes2 hb

/-- A buffer that is none of launch 2's arrays holds after it what it held before. -/
theorem keep6 (b : Ref sig .tc) (hb : ∀ w, Pipeline.arrRef spec2 w ≠ b) :
    W6 m ρ c (Proc.devRef .tc b) = W5 m ρ c (Proc.devRef .tc b) := W6_of_ne m ρ c b hb

/-- Launch 2 only reads the scale column: it holds after the launch what it held before. -/
theorem keep6_main_v10 : W6 m ρ c (Proc.devRef .tc main_v10) = W5 m ρ c (Proc.devRef .tc main_v10) :=
  (W6_arr m ρ c 2).trans (((dat2 (V5 m ρ) c).arrAt_in 2 rfl _).trans (A_eq2 (V5 m ρ) c 2))

/-- The buffers the stretch before launch 3 writes. -/
abbrev written3 : List (Ref sig .tc) := [main_c_6, main_v41, main_v42, main_c_7, main_v43, main_v44, main_v45, main_v46, main_v47, main_cst_8, main_v48, main_v49, main_v50, main_v51, main_v52, main_v53, main_v54, main_v55, main_v56, main_v57, main_v58, main_v59]
theorem writes3 : (hostOps3 (F := Ideal)).Forall fun op => op.writes ⊆ (written3.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))
/-- A buffer that stretch does not write holds after it what it held before. -/
theorem keep7 (b : Ref sig .tc) (hb : b ∉ written3) :
    W7 m ρ c (Proc.devRef .tc b) = W6 m ρ c (Proc.devRef .tc b) :=
  StableHlo.after_of_writes_sub (hostOps3 (F := Ideal)) _ writes3 hb

/-- A buffer that is none of launch 3's arrays holds after it what it held before. -/
theorem keep8 (b : Ref sig .tc) (hb : ∀ w, Pipeline.arrRef spec3 w ≠ b) :
    W8 m ρ c (Proc.devRef .tc b) = W7 m ρ c (Proc.devRef .tc b) := W8_of_ne m ρ c b hb

/-- Launch 3 only reads the scale column: it holds after the launch what it held before. -/
theorem keep8_main_v14 : W8 m ρ c (Proc.devRef .tc main_v14) = W7 m ρ c (Proc.devRef .tc main_v14) :=
  (W8_arr m ρ c 1).trans (((dat3 (V7 m ρ) c).arrAt_in 1 rfl _).trans (A_eq3 (V7 m ρ) c 1))

/-- The buffers the stretch before launch 4 writes. -/
abbrev written4 : List (Ref sig .tc) := [main_v61, main_v62]
theorem writes4 : (hostOps4 (F := Ideal)).Forall fun op => op.writes ⊆ (written4.map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))
/-- A buffer that stretch does not write holds after it what it held before. -/
theorem keep9 (b : Ref sig .tc) (hb : b ∉ written4) :
    W9 m ρ c (Proc.devRef .tc b) = W8 m ρ c (Proc.devRef .tc b) :=
  StableHlo.after_of_writes_sub (hostOps4 (F := Ideal)) _ writes4 hb

/-- A buffer that is none of launch 4's arrays holds after it what it held before. -/
theorem keep10 (b : Ref sig .tc) (hb : ∀ w, Pipeline.arrRef spec4 w ≠ b) :
    W10 m ρ c (Proc.devRef .tc b) = W9 m ρ c (Proc.devRef .tc b) := W10_of_ne m ρ c b hb

/-- Launch 4 only reads the scale column: it holds after the launch what it held before. -/
theorem keep10_main_v10 : W10 m ρ c (Proc.devRef .tc main_v10) = W9 m ρ c (Proc.devRef .tc main_v10) :=
  (W10_arr m ρ c 2).trans (((dat4 (V9 m ρ) c).arrAt_in 2 rfl _).trans (A_eq4 (V9 m ρ) c 2))

/-- The buffers the stretch before launch 5 writes. -/
abbrev written5 : List (Ref sig .tc) := [main_c_9, main_v64, main_v65, main_c_10, main_v66, main_v67, main_v68, main_v69, main_v70, main_cst_11, main_v71, main_v72, main_v73, main_v74, main_v75, main_v76, main_v77, main_v78, main_v79, main_v80, main_v81, main_v82]
theorem writes5 : (hostOps5 (F := Ideal)).Forall fun op => op.writes ⊆ (written5.map (Proc.devRef (τ := τ) .tc)).toFinset := by
  simp only [hostOps5, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map.mpr ⟨_, by decide, rfl⟩))
/-- A buffer that stretch does not write holds after it what it held before. -/
theorem keep11 (b : Ref sig .tc) (hb : b ∉ written5) :
    W11 m ρ c (Proc.devRef .tc b) = W10 m ρ c (Proc.devRef .tc b) :=
  StableHlo.after_of_writes_sub (hostOps5 (F := Ideal)) _ writes5 hb

/-- A buffer that is none of launch 5's arrays holds after it what it held before. -/
theorem keep12 (b : Ref sig .tc) (hb : ∀ w, Pipeline.arrRef spec5 w ≠ b) :
    W12 m ρ c (Proc.devRef .tc b) = W11 m ρ c (Proc.devRef .tc b) := W12_of_ne m ρ c b hb

/-- Launch 5 only reads the scale column: it holds after the launch what it held before. -/
theorem keep12_main_v14 : W12 m ρ c (Proc.devRef .tc main_v14) = W11 m ρ c (Proc.devRef .tc main_v14) :=
  (W12_arr m ρ c 1).trans (((dat5 (V11 m ρ) c).arrAt_in 1 rfl _).trans (A_eq5 (V11 m ρ) c 1))

/-- A buffer that no stretch writes and that is none of any launch's arrays. -/
structure Untouched (b : Ref sig .tc) : Prop where
  h1 : b ∉ written0
  h2 : ∀ w, Pipeline.arrRef spec0 w ≠ b
  h3 : b ∉ written1
  h4 : ∀ w, Pipeline.arrRef spec1 w ≠ b
  h5 : b ∉ written2
  h6 : ∀ w, Pipeline.arrRef spec2 w ≠ b
  h7 : b ∉ written3
  h8 : ∀ w, Pipeline.arrRef spec3 w ≠ b
  h9 : b ∉ written4
  h10 : ∀ w, Pipeline.arrRef spec4 w ≠ b
  h11 : b ∉ written5
  h12 : ∀ w, Pipeline.arrRef spec5 w ≠ b

/-- Such a buffer holds, after each launch, its launch contents. -/
theorem at2 (b : Ref sig .tc) (u : Untouched b) : W2 m ρ c (Proc.devRef .tc b) = W0 m ρ c (Proc.devRef .tc b) :=
  (keep2 m ρ c b u.h2).trans (keep1 m ρ c b u.h1)
theorem at4 (b : Ref sig .tc) (u : Untouched b) : W4 m ρ c (Proc.devRef .tc b) = W0 m ρ c (Proc.devRef .tc b) :=
  (keep4 m ρ c b u.h4).trans ((keep3 m ρ c b u.h3).trans (at2 m ρ c b u))
theorem at6 (b : Ref sig .tc) (u : Untouched b) : W6 m ρ c (Proc.devRef .tc b) = W0 m ρ c (Proc.devRef .tc b) :=
  (keep6 m ρ c b u.h6).trans ((keep5 m ρ c b u.h5).trans (at4 m ρ c b u))
theorem at8 (b : Ref sig .tc) (u : Untouched b) : W8 m ρ c (Proc.devRef .tc b) = W0 m ρ c (Proc.devRef .tc b) :=
  (keep8 m ρ c b u.h8).trans ((keep7 m ρ c b u.h7).trans (at6 m ρ c b u))
theorem at10 (b : Ref sig .tc) (u : Untouched b) : W10 m ρ c (Proc.devRef .tc b) = W0 m ρ c (Proc.devRef .tc b) :=
  (keep10 m ρ c b u.h10).trans ((keep9 m ρ c b u.h9).trans (at8 m ρ c b u))
theorem at12 (b : Ref sig .tc) (u : Untouched b) : W12 m ρ c (Proc.devRef .tc b) = W0 m ρ c (Proc.devRef .tc b) :=
  (keep12 m ρ c b u.h12).trans ((keep11 m ρ c b u.h11).trans (at10 m ρ c b u))

/-- The edge lists, the graph sizes, the weights and the three vector stacks are such buffers. -/
theorem untouched1 : Untouched main_arg1 := ⟨by decide, by decide, by decide, by decide, by decide, by decide, by decide, by decide, by decide, by decide, by decide, by decide⟩
theorem untouched2 : Untouched main_arg2 := ⟨by decide, by decide, by decide, by decide, by decide, by decide, by decide, by decide, by decide, by decide, by decide, by decide⟩
theorem untouched3 : Untouched main_arg3 := ⟨by decide, by decide, by decide, by decide, by decide, by decide, by decide, by decide, by decide, by decide, by decide, by decide⟩
theorem untouched4 : Untouched main_arg4 := ⟨by decide, by decide, by decide, by decide, by decide, by decide, by decide, by decide, by decide, by decide, by decide, by decide⟩
theorem untouched5 : Untouched main_arg5 := ⟨by decide, by decide, by decide, by decide, by decide, by decide, by decide, by decide, by decide, by decide, by decide, by decide⟩
theorem untouched6 : Untouched main_arg6 := ⟨by decide, by decide, by decide, by decide, by decide, by decide, by decide, by decide, by decide, by decide, by decide, by decide⟩
theorem untouched7 : Untouched main_arg7 := ⟨by decide, by decide, by decide, by decide, by decide, by decide, by decide, by decide, by decide, by decide, by decide, by decide⟩

/-- The out-degree scale column, an input of launches 0, 2 and 4, from where it is read back to where it was written. -/
theorem out_col_at5 : W5 m ρ c (Proc.devRef .tc main_v10) = W1 m ρ c (Proc.devRef .tc main_v10) :=
  (keep5 m ρ c main_v10 (by decide)).trans ((keep4 m ρ c main_v10 (by decide)).trans
    ((keep3 m ρ c main_v10 (by decide)).trans (keep2_main_v10 m ρ c)))
theorem out_col_at9 : W9 m ρ c (Proc.devRef .tc main_v10) = W5 m ρ c (Proc.devRef .tc main_v10) :=
  (keep9 m ρ c main_v10 (by decide)).trans ((keep8 m ρ c main_v10 (by decide)).trans
    ((keep7 m ρ c main_v10 (by decide)).trans (keep6_main_v10 m ρ c)))

/-- The in-degree scale column, an input of launches 1, 3 and 5, likewise. -/
theorem in_col_at3 : W3 m ρ c (Proc.devRef .tc main_v14) = W1 m ρ c (Proc.devRef .tc main_v14) :=
  (keep3 m ρ c main_v14 (by decide)).trans (keep2 m ρ c main_v14 (by decide))
theorem in_col_at7 : W7 m ρ c (Proc.devRef .tc main_v14) = W3 m ρ c (Proc.devRef .tc main_v14) :=
  (keep7 m ρ c main_v14 (by decide)).trans ((keep6 m ρ c main_v14 (by decide)).trans
    ((keep5 m ρ c main_v14 (by decide)).trans (keep4_main_v14 m ρ c)))
theorem in_col_at11 : W11 m ρ c (Proc.devRef .tc main_v14) = W7 m ρ c (Proc.devRef .tc main_v14) :=
  (keep11 m ρ c main_v14 (by decide)).trans ((keep10 m ρ c main_v14 (by decide)).trans
    ((keep9 m ρ c main_v14 (by decide)).trans (keep8_main_v14 m ρ c)))

/-! ## The two degree scales, wherever they are read -/

theorem scale_out_at1 : W1 m ρ c (Proc.devRef .tc main_v10) = invSqrtDeg (m ((c : Thread nD τ).loc main_arg1)) :=
  Cert.KernelIdeal.HostValues.out_scale (W0 m ρ c)

theorem scale_in_at1 : W1 m ρ c (Proc.devRef .tc main_v14) = invSqrtDeg (m ((c : Thread nD τ).loc main_arg2)) :=
  Cert.KernelIdeal.HostValues.in_scale (W0 m ρ c)

/-! ## Layer 1 -/

set_option maxHeartbeats 1000000 in
theorem product1 : W2 m ρ c (Proc.devRef .tc main_v17)
    = scaledProduct (m ((c : Thread nD τ).loc main_arg0)) (weight0 (m ((c : Thread nD τ).loc main_arg4)))
        (invSqrtDeg (m ((c : Thread nD τ).loc main_arg1))) := by
  refine (W2_arr m ρ c 3).trans ((Cert.KernelIdeal.Region0.array_eq (V1 m ρ) c).trans ?_)
  have e0 : W1 m ρ c (Proc.devRef .tc main_arg0) = m ((c : Thread nD τ).loc main_arg0) := (keep1 m ρ c main_arg0 (by decide)).trans rfl
  have e1 : W1 m ρ c (Proc.devRef .tc main_v16) = weight0 (m ((c : Thread nD τ).loc main_arg4)) :=
    Cert.KernelIdeal.HostValues.first_weight (W0 m ρ c)
  show scaledProduct (W1 m ρ c (Proc.devRef .tc main_arg0)) (W1 m ρ c (Proc.devRef .tc main_v16)) (W1 m ρ c (Proc.devRef .tc main_v10)) = _
  rw [e0, e1, scale_out_at1 m ρ c]

set_option maxHeartbeats 1000000 in
theorem layer1 : W4 m ρ c (Proc.devRef .tc main_v37)
    = layer (m ((c : Thread nD τ).loc main_arg0)) (weight0 (m ((c : Thread nD τ).loc main_arg4)))
        (asRow (vec0 (m ((c : Thread nD τ).loc main_arg5)))) (asRow (vec0 (m ((c : Thread nD τ).loc main_arg6))))
        (asRow (vec0 (m ((c : Thread nD τ).loc main_arg7))))
        (invSqrtDeg (m ((c : Thread nD τ).loc main_arg1))) (invSqrtDeg (m ((c : Thread nD τ).loc main_arg2)))
        (m ((c : Thread nD τ).loc main_arg1)) (m ((c : Thread nD τ).loc main_arg2)) := by
  refine (W4_arr m ρ c 5).trans ((Cert.KernelIdeal.Region1.array_eq (V3 m ρ) c).trans ?_)
  have a1 : W2 m ρ c (Proc.devRef .tc main_arg1) = m ((c : Thread nD τ).loc main_arg1) := (at2 m ρ c main_arg1 untouched1).trans rfl
  have a2 : W2 m ρ c (Proc.devRef .tc main_arg2) = m ((c : Thread nD τ).loc main_arg2) := (at2 m ρ c main_arg2 untouched2).trans rfl
  have a5 : W2 m ρ c (Proc.devRef .tc main_arg5) = m ((c : Thread nD τ).loc main_arg5) := (at2 m ρ c main_arg5 untouched5).trans rfl
  have a6 : W2 m ρ c (Proc.devRef .tc main_arg6) = m ((c : Thread nD τ).loc main_arg6) := (at2 m ρ c main_arg6 untouched6).trans rfl
  have a7 : W2 m ρ c (Proc.devRef .tc main_arg7) = m ((c : Thread nD τ).loc main_arg7) := (at2 m ρ c main_arg7 untouched7).trans rfl
  have eA : W3 m ρ c (Proc.devRef .tc main_v27) = _ := Cert.KernelIdeal.HostValues.aggregate1 (W2 m ρ c)
  have eS : W3 m ρ c (Proc.devRef .tc main_v14) = invSqrtDeg (m ((c : Thread nD τ).loc main_arg2)) :=
    (in_col_at3 m ρ c).trans (scale_in_at1 m ρ c)
  have eB : W3 m ρ c (Proc.devRef .tc main_v34) = _ := Cert.KernelIdeal.HostValues.bias1 (W2 m ρ c)
  have eG : W3 m ρ c (Proc.devRef .tc main_v35) = _ := Cert.KernelIdeal.HostValues.scale1 (W2 m ρ c)
  have eE : W3 m ρ c (Proc.devRef .tc main_v36) = _ := Cert.KernelIdeal.HostValues.shift1 (W2 m ρ c)
  show normAct (W3 m ρ c (Proc.devRef .tc main_v27)) (W3 m ρ c (Proc.devRef .tc main_v14)) (W3 m ρ c (Proc.devRef .tc main_v34))
    (W3 m ρ c (Proc.devRef .tc main_v35)) (W3 m ρ c (Proc.devRef .tc main_v36)) = _
  rw [eA, eS, eB, eG, eE, product1 m ρ c, a1, a2, a5, a6, a7]
  rfl

/-! ## Layer 2 -/

set_option maxHeartbeats 1000000 in
theorem product2 : W6 m ρ c (Proc.devRef .tc main_v40)
    = scaledProduct (W4 m ρ c (Proc.devRef .tc main_v37)) (weight1 (m ((c : Thread nD τ).loc main_arg4)))
        (invSqrtDeg (m ((c : Thread nD τ).loc main_arg1))) := by
  refine (W6_arr m ρ c 3).trans ((Cert.KernelIdeal.Region2.array_eq (V5 m ρ) c).trans ?_)
  have e0 : W5 m ρ c (Proc.devRef .tc main_v37) = W4 m ρ c (Proc.devRef .tc main_v37) := keep5 m ρ c main_v37 (by decide)
  have a4 : W4 m ρ c (Proc.devRef .tc main_arg4) = m ((c : Thread nD τ).loc main_arg4) := (at4 m ρ c main_arg4 untouched4).trans rfl
  have e1 : W5 m ρ c (Proc.devRef .tc main_v39) = weight1 (m ((c : Thread nD τ).loc main_arg4)) :=
    (Cert.KernelIdeal.HostValues.second_weight (W4 m ρ c)).trans (congrArg weight1 a4)
  have e2 : W5 m ρ c (Proc.devRef .tc main_v10) = invSqrtDeg (m ((c : Thread nD τ).loc main_arg1)) :=
    (out_col_at5 m ρ c).trans (scale_out_at1 m ρ c)
  show scaledProduct (W5 m ρ c (Proc.devRef .tc main_v37)) (W5 m ρ c (Proc.devRef .tc main_v39)) (W5 m ρ c (Proc.devRef .tc main_v10)) = _
  rw [e0, e1, e2]

set_option maxHeartbeats 1000000 in
theorem layer2 : W8 m ρ c (Proc.devRef .tc main_v60)
    = layer (W4 m ρ c (Proc.devRef .tc main_v37)) (weight1 (m ((c : Thread nD τ).loc main_arg4)))
        (asRow (vec1 (m ((c : Thread nD τ).loc main_arg5)))) (asRow (vec1 (m ((c : Thread nD τ).loc main_arg6))))
        (asRow (vec1 (m ((c : Thread nD τ).loc main_arg7))))
        (invSqrtDeg (m ((c : Thread nD τ).loc main_arg1))) (invSqrtDeg (m ((c : Thread nD τ).loc main_arg2)))
        (m ((c : Thread nD τ).loc main_arg1)) (m ((c : Thread nD τ).loc main_arg2)) := by
  refine (W8_arr m ρ c 5).trans ((Cert.KernelIdeal.Region3.array_eq (V7 m ρ) c).trans ?_)
  have a1 : W6 m ρ c (Proc.devRef .tc main_arg1) = m ((c : Thread nD τ).loc main_arg1) := (at6 m ρ c main_arg1 untouched1).trans rfl
  have a2 : W6 m ρ c (Proc.devRef .tc main_arg2) = m ((c : Thread nD τ).loc main_arg2) := (at6 m ρ c main_arg2 untouched2).trans rfl
  have a5 : W6 m ρ c (Proc.devRef .tc main_arg5) = m ((c : Thread nD τ).loc main_arg5) := (at6 m ρ c main_arg5 untouched5).trans rfl
  have a6 : W6 m ρ c (Proc.devRef .tc main_arg6) = m ((c : Thread nD τ).loc main_arg6) := (at6 m ρ c main_arg6 untouched6).trans rfl
  have a7 : W6 m ρ c (Proc.devRef .tc main_arg7) = m ((c : Thread nD τ).loc main_arg7) := (at6 m ρ c main_arg7 untouched7).trans rfl
  have eA : W7 m ρ c (Proc.devRef .tc main_v50) = _ := Cert.KernelIdeal.HostValues.aggregate2 (W6 m ρ c)
  have eS : W7 m ρ c (Proc.devRef .tc main_v14) = invSqrtDeg (m ((c : Thread nD τ).loc main_arg2)) :=
    (in_col_at7 m ρ c).trans ((in_col_at3 m ρ c).trans (scale_in_at1 m ρ c))
  have eB : W7 m ρ c (Proc.devRef .tc main_v57) = _ := Cert.KernelIdeal.HostValues.bias2 (W6 m ρ c)
  have eG : W7 m ρ c (Proc.devRef .tc main_v58) = _ := Cert.KernelIdeal.HostValues.scale2 (W6 m ρ c)
  have eE : W7 m ρ c (Proc.devRef .tc main_v59) = _ := Cert.KernelIdeal.HostValues.shift2 (W6 m ρ c)
  show normAct (W7 m ρ c (Proc.devRef .tc main_v50)) (W7 m ρ c (Proc.devRef .tc main_v14)) (W7 m ρ c (Proc.devRef .tc main_v57))
    (W7 m ρ c (Proc.devRef .tc main_v58)) (W7 m ρ c (Proc.devRef .tc main_v59)) = _
  rw [eA, eS, eB, eG, eE, product2 m ρ c, a1, a2, a5, a6, a7]
  rfl

/-! ## Layer 3 -/

set_option maxHeartbeats 1000000 in
theorem product3 : W10 m ρ c (Proc.devRef .tc main_v63)
    = scaledProduct (W8 m ρ c (Proc.devRef .tc main_v60)) (weight2 (m ((c : Thread nD τ).loc main_arg4)))
        (invSqrtDeg (m ((c : Thread nD τ).loc main_arg1))) := by
  refine (W10_arr m ρ c 3).trans ((Cert.KernelIdeal.Region4.array_eq (V9 m ρ) c).trans ?_)
  have e0 : W9 m ρ c (Proc.devRef .tc main_v60) = W8 m ρ c (Proc.devRef .tc main_v60) := keep9 m ρ c main_v60 (by decide)
  have a4 : W8 m ρ c (Proc.devRef .tc main_arg4) = m ((c : Thread nD τ).loc main_arg4) := (at8 m ρ c main_arg4 untouched4).trans rfl
  have e1 : W9 m ρ c (Proc.devRef .tc main_v62) = weight2 (m ((c : Thread nD τ).loc main_arg4)) :=
    (Cert.KernelIdeal.HostValues.third_weight (W8 m ρ c)).trans (congrArg weight2 a4)
  have e2 : W9 m ρ c (Proc.devRef .tc main_v10) = invSqrtDeg (m ((c : Thread nD τ).loc main_arg1)) :=
    (out_col_at9 m ρ c).trans ((out_col_at5 m ρ c).trans (scale_out_at1 m ρ c))
  show scaledProduct (W9 m ρ c (Proc.devRef .tc main_v60)) (W9 m ρ c (Proc.devRef .tc main_v62)) (W9 m ρ c (Proc.devRef .tc main_v10)) = _
  rw [e0, e1, e2]

set_option maxHeartbeats 1000000 in
theorem layer3 : W12 m ρ c (Proc.devRef .tc main_v83)
    = layer (W8 m ρ c (Proc.devRef .tc main_v60)) (weight2 (m ((c : Thread nD τ).loc main_arg4)))
        (asRow (vec2 (m ((c : Thread nD τ).loc main_arg5)))) (asRow (vec2 (m ((c : Thread nD τ).loc main_arg6))))
        (asRow (vec2 (m ((c : Thread nD τ).loc main_arg7))))
        (invSqrtDeg (m ((c : Thread nD τ).loc main_arg1))) (invSqrtDeg (m ((c : Thread nD τ).loc main_arg2)))
        (m ((c : Thread nD τ).loc main_arg1)) (m ((c : Thread nD τ).loc main_arg2)) := by
  refine (W12_arr m ρ c 5).trans ((Cert.KernelIdeal.Region5.array_eq (V11 m ρ) c).trans ?_)
  have a1 : W10 m ρ c (Proc.devRef .tc main_arg1) = m ((c : Thread nD τ).loc main_arg1) := (at10 m ρ c main_arg1 untouched1).trans rfl
  have a2 : W10 m ρ c (Proc.devRef .tc main_arg2) = m ((c : Thread nD τ).loc main_arg2) := (at10 m ρ c main_arg2 untouched2).trans rfl
  have a5 : W10 m ρ c (Proc.devRef .tc main_arg5) = m ((c : Thread nD τ).loc main_arg5) := (at10 m ρ c main_arg5 untouched5).trans rfl
  have a6 : W10 m ρ c (Proc.devRef .tc main_arg6) = m ((c : Thread nD τ).loc main_arg6) := (at10 m ρ c main_arg6 untouched6).trans rfl
  have a7 : W10 m ρ c (Proc.devRef .tc main_arg7) = m ((c : Thread nD τ).loc main_arg7) := (at10 m ρ c main_arg7 untouched7).trans rfl
  have eA : W11 m ρ c (Proc.devRef .tc main_v73) = _ := Cert.KernelIdeal.HostValues.aggregate3 (W10 m ρ c)
  have eS : W11 m ρ c (Proc.devRef .tc main_v14) = invSqrtDeg (m ((c : Thread nD τ).loc main_arg2)) :=
    (in_col_at11 m ρ c).trans ((in_col_at7 m ρ c).trans ((in_col_at3 m ρ c).trans (scale_in_at1 m ρ c)))
  have eB : W11 m ρ c (Proc.devRef .tc main_v80) = _ := Cert.KernelIdeal.HostValues.bias3 (W10 m ρ c)
  have eG : W11 m ρ c (Proc.devRef .tc main_v81) = _ := Cert.KernelIdeal.HostValues.scale3 (W10 m ρ c)
  have eE : W11 m ρ c (Proc.devRef .tc main_v82) = _ := Cert.KernelIdeal.HostValues.shift3 (W10 m ρ c)
  show normAct (W11 m ρ c (Proc.devRef .tc main_v73)) (W11 m ρ c (Proc.devRef .tc main_v14)) (W11 m ρ c (Proc.devRef .tc main_v80))
    (W11 m ρ c (Proc.devRef .tc main_v81)) (W11 m ρ c (Proc.devRef .tc main_v82)) = _
  rw [eA, eS, eB, eG, eE, product3 m ρ c, a1, a2, a5, a6, a7]
  rfl

/-! ## The result -/

set_option maxHeartbeats 1000000 in
/-- The result buffer's final contents are `out` of the argument arrays. -/
theorem result_eq : W15 m ρ c (Proc.devRef .tc main_v94)
    = Cert.LayerTerms.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (Cert.KernelIdeal.HostValues.picked (W12 m ρ c)).trans ?_
  have a3 : W12 m ρ c (Proc.devRef .tc main_arg3) = m ((c : Thread nD τ).loc main_arg3) := (at12 m ρ c main_arg3 untouched3).trans rfl
  rw [a3, layer3 m ρ c, layer2 m ρ c, layer1 m ρ c]
  rfl

end Cert.KernelIdeal.Chain

end
-- ==== Proof.RefRun.lean ====
/-
  The run of the plain program: @main as a list of host operations, and what its result buffer holds at the end.

  @main is a straight line of 219 host operations once its calls are unfolded (three calls of the activation, three
  operations each; one call of the running sum, which itself calls the function that computes it, three operations). The
  line is cut where the computation's stages end: the degree scales; then, for each of the three layers, the operations up
  to the normalization and the normalization itself (in two pieces, since the program's windows end inside it); then the
  choice of the rows to return. Each piece is read on its own, from any contents of the buffers: the buffers it leaves
  for later pieces hold the corresponding stage of `Cert.LayerTerms` applied to the contents of the buffers it reads,
  and the buffers it does not write keep theirs. Chaining the pieces, the result buffer holds `Cert.LayerTerms.out` of the
  eight argument arrays, which are unchanged.
-/
import proofs.«102242_j71691594105496_1_alg».proof.ReferenceIdeal
import proofs.«102242_j71691594105496_1_alg».proof.Proof.Gen.ReferenceIdeal
import proofs.«102242_j71691594105496_1_alg».proof.Proof.LayerTerms
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Facts₀ Cert.ReferenceIdeal.Facts Cert.LayerTerms

variable {F : FTy → Type} [FloatOps F]

/-! ## The operations, stage by stage -/
/-- The two degree scales: a vector of ones scattered into zeros by the source list and by the destination list counts
    each node's edges; the counts are raised to at least one, their inverse square roots taken and laid out as columns. -/
abbrev degOps : List (HloOp τ sig (Elt F)) :=
  [ nullary main_cst (constant S_ .f32 0x3F800000#32),
    unary main_cst main_v0 (broadcastInDim S640000 ![] bcast_S_S640000 : (⟨S_, .f32⟩ : BufTy).Contents (Elt F) → (⟨S640000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S640000x1 ![0] bcast_S640000_S640000x1_0 : (⟨S640000, .i32⟩ : BufTy).Contents (Elt F) → (⟨S640000x1, .i32⟩ : BufTy).Contents (Elt F)),
    ternary main_v1 main_v2 main_v0 main_v3 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S640000x1 ![0] bcast_S640000_S640000x1_0 : (⟨S640000, .i32⟩ : BufTy).Contents (Elt F) → (⟨S640000x1, .i32⟩ : BufTy).Contents (Elt F)),
    ternary main_v4 main_v5 main_v0 main_v6 ((fun x i u => Host.scatterAdd scatter_S50000_S640000x1_S640000_n_0_0_1 x i u) : (⟨S50000, .f32⟩ : BufTy).Contents (Elt F) → (⟨S640000x1, .i32⟩ : BufTy).Contents (Elt F) → (⟨S640000, .f32⟩ : BufTy).Contents (Elt F) → (⟨S50000, .f32⟩ : BufTy).Contents (Elt F)),
    nullary main_cst_2 (constant S_ .f32 0x3F800000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (maximumf : (⟨S50000, .f32⟩ : BufTy).Contents (Elt F) → (⟨S50000, .f32⟩ : BufTy).Contents (Elt F) → (⟨S50000, .f32⟩ : BufTy).Contents (Elt F)),
    unary main_v8 main_v9 (Host.rsqrt : (⟨S50000, .f32⟩ : BufTy).Contents (Elt F) → (⟨S50000, .f32⟩ : BufTy).Contents (Elt F)),
    unary main_v9 main_v10 (broadcastInDim S50000x1 ![0] bcast_S50000_S50000x1_0 : (⟨S50000, .f32⟩ : BufTy).Contents (Elt F) → (⟨S50000x1, .f32⟩ : BufTy).Contents (Elt F)),
    nullary main_cst_3 (constant S_ .f32 0x3F800000#32),
    unary main_cst_3 main_v11 (broadcastInDim S50000 ![] bcast_S_S50000 : (⟨S_, .f32⟩ : BufTy).Contents (Elt F) → (⟨S50000, .f32⟩ : BufTy).Contents (Elt F)),
    binary main_v6 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    unary main_v13 main_v14 (broadcastInDim S50000x1 ![0] bcast_S50000_S50000x1_0 : (⟨S50000, .f32⟩ : BufTy).Contents (Elt F) → (⟨S50000x1, .f32⟩ : BufTy).Contents (Elt F)) ]

/-- Layer 1 up to the normalization: slice 0 of the weights as a matrix, the features times it scaled row by row by the
    source scale, the rows the wrapped source list names gathered and added into the rows the destination list names, that sum
    scaled by the destination scale and shifted by row 0 of the biases; then rows 0 of the gains and of the shifts as vectors. -/
abbrev aggOps1 : List (HloOp τ sig (Elt F)) :=
  [ unary main_arg4 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v15 main_v16 rfl shapeCasts_S1x128x128_S128x128,
    binary main_arg0 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v10 main_v18 (broadcastInDim S50000x128 ![0, 1] bcast_S50000x1_S50000x128_0_1 : (⟨S50000x1, .f32⟩ : BufTy).Contents (Elt F) → (⟨S50000x128, .f32⟩ : BufTy).Contents (Elt F)),
    binary main_v17 main_v18 main_v19 (mulf : (⟨S50000x128, .f32⟩ : BufTy).Contents (Elt F) → (⟨S50000x128, .f32⟩ : BufTy).Contents (Elt F) → (⟨S50000x128, .f32⟩ : BufTy).Contents (Elt F)),
    nullary main_c (constantI S_ 32 0#32),
    unary main_c main_v20 (broadcastInDim S640000 ![] bcast_S_S640000 : (⟨S_, .i32⟩ : BufTy).Contents (Elt F) → (⟨S640000, .i32⟩ : BufTy).Contents (Elt F)),
    binary main_arg1 main_v20 main_v21 (cmpi .slt : (⟨S640000, .i32⟩ : BufTy).Contents (Elt F) → (⟨S640000, .i32⟩ : BufTy).Contents (Elt F) → (⟨S640000, .i1⟩ : BufTy).Contents (Elt F)),
    nullary main_c_4 (constantI S_ 32 50000#32),
    unary main_c_4 main_v22 (broadcastInDim S640000 ![] bcast_S_S640000 : (⟨S_, .i32⟩ : BufTy).Contents (Elt F) → (⟨S640000, .i32⟩ : BufTy).Contents (Elt F)),
    binary main_arg1 main_v22 main_v23 (addi : (⟨S640000, .i32⟩ : BufTy).Contents (Elt F) → (⟨S640000, .i32⟩ : BufTy).Contents (Elt F) → (⟨S640000, .i32⟩ : BufTy).Contents (Elt F)),
    ternary main_v21 main_v23 main_arg1 main_v24 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v24 main_v25 (broadcastInDim S640000x1 ![0] bcast_S640000_S640000x1_0 : (⟨S640000, .i32⟩ : BufTy).Contents (Elt F) → (⟨S640000x1, .i32⟩ : BufTy).Contents (Elt F)),
    binary main_v19 main_v25 main_v26 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_5 (constant S_ .f32 0x00000000#32),
    unary main_cst_5 main_v27 (broadcastInDim S50000x128 ![] bcast_S_S50000x128 : (⟨S_, .f32⟩ : BufTy).Contents (Elt F) → (⟨S50000x128, .f32⟩ : BufTy).Contents (Elt F)),
    unary main_arg2 main_v28 (broadcastInDim S640000x1 ![0] bcast_S640000_S640000x1_0 : (⟨S640000, .i32⟩ : BufTy).Contents (Elt F) → (⟨S640000x1, .i32⟩ : BufTy).Contents (Elt F)),
    ternary main_v27 main_v28 main_v26 main_v29 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v14 main_v30 (broadcastInDim S50000x128 ![0, 1] bcast_S50000x1_S50000x128_0_1 : (⟨S50000x1, .f32⟩ : BufTy).Contents (Elt F) → (⟨S50000x128, .f32⟩ : BufTy).Contents (Elt F)),
    binary main_v29 main_v30 main_v31 (mulf : (⟨S50000x128, .f32⟩ : BufTy).Contents (Elt F) → (⟨S50000x128, .f32⟩ : BufTy).Contents (Elt F) → (⟨S50000x128, .f32⟩ : BufTy).Contents (Elt F)),
    unary main_arg5 main_v32 ((extractStridedSlice S1x128 ![0, 0] · slices_S3x128_S1x128_0_0) : (⟨S3x128, .f32⟩ : BufTy).Contents (Elt F) → (⟨S1x128, .f32⟩ : BufTy).Contents (Elt F)),
    reshape main_v32 main_v33 rfl shapeCasts_S1x128_S128,
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v31 main_v35 main_v36 (addf : (⟨S50000x128, .f32⟩ : BufTy).Contents (Elt F) → (⟨S50000x128, .f32⟩ : BufTy).Contents (Elt F) → (⟨S50000x128, .f32⟩ : BufTy).Contents (Elt F)),
    unary main_arg6 main_v37 ((extractStridedSlice S1x128 ![0, 0] · slices_S3x128_S1x128_0_0) : (⟨S3x128, .f32⟩ : BufTy).Contents (Elt F) → (⟨S1x128, .f32⟩ : BufTy).Contents (Elt F)),
    reshape main_v37 main_v38 rfl shapeCasts_S1x128_S128,
    unary main_arg7 main_v39 ((extractStridedSlice S1x128 ![0, 0] · slices_S3x128_S1x128_0_0) : (⟨S3x128, .f32⟩ : BufTy).Contents (Elt F) → (⟨S1x128, .f32⟩ : BufTy).Contents (Elt F)),
    reshape main_v39 main_v40 rfl shapeCasts_S1x128_S128 ]

/-- Layer 1's normalization, first part: the row means, the centered entries, their squares and the squares' row sums. -/
abbrev normOpsA1 : List (HloOp τ sig (Elt F)) :=
  [ nullary main_cst_6 (constant S_ .f32 0x00000000#32),
    binary main_v36 main_cst_6 main_v41 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v41 main_v42 (broadcastInDim S50000x1 ![0] bcast_S50000_S50000x1_0 : (⟨S50000, .f32⟩ : BufTy).Contents (Elt F) → (⟨S50000x1, .f32⟩ : BufTy).Contents (Elt F)),
    nullary main_cst_7 (constant S_ .f32 0x43000000#32),
    unary main_cst_7 main_v43 (broadcastInDim S50000x1 ![] bcast_S_S50000x1 : (⟨S_, .f32⟩ : BufTy).Contents (Elt F) → (⟨S50000x1, .f32⟩ : BufTy).Contents (Elt F)),
    binary main_v42 main_v43 main_v44 (Host.divf : (⟨S50000x1, .f32⟩ : BufTy).Contents (Elt F) → (⟨S50000x1, .f32⟩ : BufTy).Contents (Elt F) → (⟨S50000x1, .f32⟩ : BufTy).Contents (Elt F)),
    unary main_v44 main_v45 (broadcastInDim S50000x128 ![0, 1] bcast_S50000x1_S50000x128_0_1 : (⟨S50000x1, .f32⟩ : BufTy).Contents (Elt F) → (⟨S50000x128, .f32⟩ : BufTy).Contents (Elt F)),
    binary main_v36 main_v45 main_v46 (subf : (⟨S50000x128, .f32⟩ : BufTy).Contents (Elt F) → (⟨S50000x128, .f32⟩ : BufTy).Contents (Elt F) → (⟨S50000x128, .f32⟩ : BufTy).Contents (Elt F)),
    binary main_v46 main_v46 main_v47 (mulf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x00000000#32),
    binary main_v47 main_cst_8 main_v48 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)) ]

/-- Layer 1's normalization, second part: the variance, `rsqrt (var + ε)`, the centered entries scaled by it and by the gain,
    shifted, and (the called function's three operations, over its call's buffers) the negative entries replaced by zero. -/
abbrev normOpsB1 : List (HloOp τ sig (Elt F)) :=
  [ unary main_v48 main_v49 (broadcastInDim S50000x1 ![0] bcast_S50000_S50000x1_0 : (⟨S50000, .f32⟩ : BufTy).Contents (Elt F) → (⟨S50000x1, .f32⟩ : BufTy).Contents (Elt F)),
    nullary main_cst_9 (constant S_ .f32 0x43000000#32),
    unary main_cst_9 main_v50 (broadcastInDim S50000x1 ![] bcast_S_S50000x1 : (⟨S_, .f32⟩ : BufTy).Contents (Elt F) → (⟨S50000x1, .f32⟩ : BufTy).Contents (Elt F)),
    binary main_v49 main_v50 main_v51 (Host.divf : (⟨S50000x1, .f32⟩ : BufTy).Contents (Elt F) → (⟨S50000x1, .f32⟩ : BufTy).Contents (Elt F) → (⟨S50000x1, .f32⟩ : BufTy).Contents (Elt F)),
    unary main_v44 main_v52 (broadcastInDim S50000x128 ![0, 1] bcast_S50000x1_S50000x128_0_1 : (⟨S50000x1, .f32⟩ : BufTy).Contents (Elt F) → (⟨S50000x128, .f32⟩ : BufTy).Contents (Elt F)),
    binary main_v36 main_v52 main_v53 (subf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3727C5AC#32),
    unary main_cst_10 main_v54 (broadcastInDim S50000x1 ![] bcast_S_S50000x1 : (⟨S_, .f32⟩ : BufTy).Contents (Elt F) → (⟨S50000x1, .f32⟩ : BufTy).Contents (Elt F)),
    binary main_v51 main_v54 main_v55 (addf : (⟨S50000x1, .f32⟩ : BufTy).Contents (Elt F) → (⟨S50000x1, .f32⟩ : BufTy).Contents (Elt F) → (⟨S50000x1, .f32⟩ : BufTy).Contents (Elt F)),
    unary main_v55 main_v56 (Host.rsqrt : (⟨S50000x1, .f32⟩ : BufTy).Contents (Elt F) → (⟨S50000x1, .f32⟩ : BufTy).Contents (Elt F)),
    unary main_v56 main_v57 (broadcastInDim S50000x128 ![0, 1] bcast_S50000x1_S50000x128_0_1 : (⟨S50000x1, .f32⟩ : BufTy).Contents (Elt F) → (⟨S50000x128, .f32⟩ : BufTy).Contents (Elt F)),
    binary main_v53 main_v57 main_v58 (mulf : (⟨S50000x128, .f32⟩ : BufTy).Contents (Elt F) → (⟨S50000x128, .f32⟩ : BufTy).Contents (Elt F) → (⟨S50000x128, .f32⟩ : BufTy).Contents (Elt F)),
    unary main_v38 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v58 main_v60 main_v61 (mulf : (⟨S50000x128, .f32⟩ : BufTy).Contents (Elt F) → (⟨S50000x128, .f32⟩ : BufTy).Contents (Elt F) → (⟨S50000x128, .f32⟩ : BufTy).Contents (Elt F)),
    unary main_v40 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v64) main_call0.v0 main_call0.v1 maximumf ]

/-- Layer 2 up to the normalization, as layer 1 over layer 1's output and slices 1. -/
abbrev aggOps2 : List (HloOp τ sig (Elt F)) :=
  [ unary main_arg4 main_v66 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v66 main_v67 rfl shapeCasts_S1x128x128_S128x128,
    binary main_v65 main_v67 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v10 main_v69 (broadcastInDim S50000x128 ![0, 1] bcast_S50000x1_S50000x128_0_1 : (⟨S50000x1, .f32⟩ : BufTy).Contents (Elt F) → (⟨S50000x128, .f32⟩ : BufTy).Contents (Elt F)),
    binary main_v68 main_v69 main_v70 (mulf : (⟨S50000x128, .f32⟩ : BufTy).Contents (Elt F) → (⟨S50000x128, .f32⟩ : BufTy).Contents (Elt F) → (⟨S50000x128, .f32⟩ : BufTy).Contents (Elt F)),
    nullary main_c_11 (constantI S_ 32 0#32),
    unary main_c_11 main_v71 (broadcastInDim S640000 ![] bcast_S_S640000 : (⟨S_, .i32⟩ : BufTy).Contents (Elt F) → (⟨S640000, .i32⟩ : BufTy).Contents (Elt F)),
    binary main_arg1 main_v71 main_v72 (cmpi .slt : (⟨S640000, .i32⟩ : BufTy).Contents (Elt F) → (⟨S640000, .i32⟩ : BufTy).Contents (Elt F) → (⟨S640000, .i1⟩ : BufTy).Contents (Elt F)),
    nullary main_c_12 (constantI S_ 32 50000#32),
    unary main_c_12 main_v73 (broadcastInDim S640000 ![] bcast_S_S640000 : (⟨S_, .i32⟩ : BufTy).Contents (Elt F) → (⟨S640000, .i32⟩ : BufTy).Contents (Elt F)),
    binary main_arg1 main_v73 main_v74 (addi : (⟨S640000, .i32⟩ : BufTy).Contents (Elt F) → (⟨S640000, .i32⟩ : BufTy).Contents (Elt F) → (⟨S640000, .i32⟩ : BufTy).Contents (Elt F)),
    ternary main_v72 main_v74 main_arg1 main_v75 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v75 main_v76 (broadcastInDim S640000x1 ![0] bcast_S640000_S640000x1_0 : (⟨S640000, .i32⟩ : BufTy).Contents (Elt F) → (⟨S640000x1, .i32⟩ : BufTy).Contents (Elt F)),
    binary main_v70 main_v76 main_v77 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_13 (constant S_ .f32 0x00000000#32),
    unary main_cst_13 main_v78 (broadcastInDim S50000x128 ![] bcast_S_S50000x128 : (⟨S_, .f32⟩ : BufTy).Contents (Elt F) → (⟨S50000x128, .f32⟩ : BufTy).Contents (Elt F)),
    unary main_arg2 main_v79 (broadcastInDim S640000x1 ![0] bcast_S640000_S640000x1_0 : (⟨S640000, .i32⟩ : BufTy).Contents (Elt F) → (⟨S640000x1, .i32⟩ : BufTy).Contents (Elt F)),
    ternary main_v78 main_v79 main_v77 main_v80 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v14 main_v81 (broadcastInDim S50000x128 ![0, 1] bcast_S50000x1_S50000x128_0_1 : (⟨S50000x1, .f32⟩ : BufTy).Contents (Elt F) → (⟨S50000x128, .f32⟩ : BufTy).Contents (Elt F)),
    binary main_v80 main_v81 main_v82 (mulf : (⟨S50000x128, .f32⟩ : BufTy).Contents (Elt F) → (⟨S50000x128, .f32⟩ : BufTy).Contents (Elt F) → (⟨S50000x128, .f32⟩ : BufTy).Contents (Elt F)),
    unary main_arg5 main_v83 ((extractStridedSlice S1x128 ![1, 0] · slices_S3x128_S1x128_1_0) : (⟨S3x128, .f32⟩ : BufTy).Contents (Elt F) → (⟨S1x128, .f32⟩ : BufTy).Contents (Elt F)),
    reshape main_v83 main_v84 rfl shapeCasts_S1x128_S128,
    unary main_v84 main_v85 (broadcastInDim S1x128 ![1] bcast_S128_S1x128_1 : (⟨S128, .f32⟩ : BufTy).Contents (Elt F) → (⟨S1x128, .f32⟩ : BufTy).Contents (Elt F)),
    unary main_v85 main_v86 (broadcastInDim S50000x128 ![0, 1] bcast_S1x128_S50000x128_0_1 : (⟨S1x128, .f32⟩ : BufTy).Contents (Elt F) → (⟨S50000x128, .f32⟩ : BufTy).Contents (Elt F)),
    binary main_v82 main_v86 main_v87 (addf : (⟨S50000x128, .f32⟩ : BufTy).Contents (Elt F) → (⟨S50000x128, .f32⟩ : BufTy).Contents (Elt F) → (⟨S50000x128, .f32⟩ : BufTy).Contents (Elt F)),
    unary main_arg6 main_v88 ((extractStridedSlice S1x128 ![1, 0] · slices_S3x128_S1x128_1_0) : (⟨S3x128, .f32⟩ : BufTy).Contents (Elt F) → (⟨S1x128, .f32⟩ : BufTy).Contents (Elt F)),
    reshape main_v88 main_v89 rfl shapeCasts_S1x128_S128,
    unary main_arg7 main_v90 ((extractStridedSlice S1x128 ![1, 0] · slices_S3x128_S1x128_1_0) : (⟨S3x128, .f32⟩ : BufTy).Contents (Elt F) → (⟨S1x128, .f32⟩ : BufTy).Contents (Elt F)),
    reshape main_v90 main_v91 rfl shapeCasts_S1x128_S128 ]

/-- Layer 2's normalization, first part, through the squares' row sums laid out as a column. -/
abbrev normOpsA2 : List (HloOp τ sig (Elt F)) :=
  [ nullary main_cst_14 (constant S_ .f32 0x00000000#32),
    binary main_v87 main_cst_14 main_v92 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v92 main_v93 (broadcastInDim S50000x1 ![0] bcast_S50000_S50000x1_0 : (⟨S50000, .f32⟩ : BufTy).Contents (Elt F) → (⟨S50000x1, .f32⟩ : BufTy).Contents (Elt F)),
    nullary main_cst_15 (constant S_ .f32 0x43000000#32),
    unary main_cst_15 main_v94 (broadcastInDim S50000x1 ![] bcast_S_S50000x1 : (⟨S_, .f32⟩ : BufTy).Contents (Elt F) → (⟨S50000x1, .f32⟩ : BufTy).Contents (Elt F)),
    binary main_v93 main_v94 main_v95 (Host.divf : (⟨S50000x1, .f32⟩ : BufTy).Contents (Elt F) → (⟨S50000x1, .f32⟩ : BufTy).Contents (Elt F) → (⟨S50000x1, .f32⟩ : BufTy).Contents (Elt F)),
    unary main_v95 main_v96 (broadcastInDim S50000x128 ![0, 1] bcast_S50000x1_S50000x128_0_1 : (⟨S50000x1, .f32⟩ : BufTy).Contents (Elt F) → (⟨S50000x128, .f32⟩ : BufTy).Contents (Elt F)),
    binary main_v87 main_v96 main_v97 (subf : (⟨S50000x128, .f32⟩ : BufTy).Contents (Elt F) → (⟨S50000x128, .f32⟩ : BufTy).Contents (Elt F) → (⟨S50000x128, .f32⟩ : BufTy).Contents (Elt F)),
    binary main_v97 main_v97 main_v98 (mulf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x00000000#32),
    binary main_v98 main_cst_16 main_v99 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v99 main_v100 (broadcastInDim S50000x1 ![0] bcast_S50000_S50000x1_0 : (⟨S50000, .f32⟩ : BufTy).Contents (Elt F) → (⟨S50000x1, .f32⟩ : BufTy).Contents (Elt F)) ]

/-- Layer 2's normalization, second part, and the activation (the called function's three operations). -/
abbrev normOpsB2 : List (HloOp τ sig (Elt F)) :=
  [ nullary main_cst_17 (constant S_ .f32 0x43000000#32),
    unary main_cst_17 main_v101 (broadcastInDim S50000x1 ![] bcast_S_S50000x1 : (⟨S_, .f32⟩ : BufTy).Contents (Elt F) → (⟨S50000x1, .f32⟩ : BufTy).Contents (Elt F)),
    binary main_v100 main_v101 main_v102 (Host.divf : (⟨S50000x1, .f32⟩ : BufTy).Contents (Elt F) → (⟨S50000x1, .f32⟩ : BufTy).Contents (Elt F) → (⟨S50000x1, .f32⟩ : BufTy).Contents (Elt F)),
    unary main_v95 main_v103 (broadcastInDim S50000x128 ![0, 1] bcast_S50000x1_S50000x128_0_1 : (⟨S50000x1, .f32⟩ : BufTy).Contents (Elt F) → (⟨S50000x128, .f32⟩ : BufTy).Contents (Elt F)),
    binary main_v87 main_v103 main_v104 (subf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3727C5AC#32),
    unary main_cst_18 main_v105 (broadcastInDim S50000x1 ![] bcast_S_S50000x1 : (⟨S_, .f32⟩ : BufTy).Contents (Elt F) → (⟨S50000x1, .f32⟩ : BufTy).Contents (Elt F)),
    binary main_v102 main_v105 main_v106 (addf : (⟨S50000x1, .f32⟩ : BufTy).Contents (Elt F) → (⟨S50000x1, .f32⟩ : BufTy).Contents (Elt F) → (⟨S50000x1, .f32⟩ : BufTy).Contents (Elt F)),
    unary main_v106 main_v107 (Host.rsqrt : (⟨S50000x1, .f32⟩ : BufTy).Contents (Elt F) → (⟨S50000x1, .f32⟩ : BufTy).Contents (Elt F)),
    unary main_v107 main_v108 (broadcastInDim S50000x128 ![0, 1] bcast_S50000x1_S50000x128_0_1 : (⟨S50000x1, .f32⟩ : BufTy).Contents (Elt F) → (⟨S50000x128, .f32⟩ : BufTy).Contents (Elt F)),
    binary main_v104 main_v108 main_v109 (mulf : (⟨S50000x128, .f32⟩ : BufTy).Contents (Elt F) → (⟨S50000x128, .f32⟩ : BufTy).Contents (Elt F) → (⟨S50000x128, .f32⟩ : BufTy).Contents (Elt F)),
    unary main_v89 main_v110 (broadcastInDim S1x128 ![1] bcast_S128_S1x128_1 : (⟨S128, .f32⟩ : BufTy).Contents (Elt F) → (⟨S1x128, .f32⟩ : BufTy).Contents (Elt F)),
    unary main_v110 main_v111 (broadcastInDim S50000x128 ![0, 1] bcast_S1x128_S50000x128_0_1 : (⟨S1x128, .f32⟩ : BufTy).Contents (Elt F) → (⟨S50000x128, .f32⟩ : BufTy).Contents (Elt F)),
    binary main_v109 main_v111 main_v112 (mulf : (⟨S50000x128, .f32⟩ : BufTy).Contents (Elt F) → (⟨S50000x128, .f32⟩ : BufTy).Contents (Elt F) → (⟨S50000x128, .f32⟩ : BufTy).Contents (Elt F)),
    unary main_v91 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v112 main_v114 main_v115 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v115) main_call1.v0 main_call1.v1 maximumf ]

/-- Layer 3 up to the normalization, as layer 1 over layer 2's output and slices 2. -/
abbrev aggOps3 : List (HloOp τ sig (Elt F)) :=
  [ unary main_arg4 main_v117 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v117 main_v118 rfl shapeCasts_S1x128x128_S128x128,
    binary main_v116 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v10 main_v120 (broadcastInDim S50000x128 ![0, 1] bcast_S50000x1_S50000x128_0_1 : (⟨S50000x1, .f32⟩ : BufTy).Contents (Elt F) → (⟨S50000x128, .f32⟩ : BufTy).Contents (Elt F)),
    binary main_v119 main_v120 main_v121 (mulf : (⟨S50000x128, .f32⟩ : BufTy).Contents (Elt F) → (⟨S50000x128, .f32⟩ : BufTy).Contents (Elt F) → (⟨S50000x128, .f32⟩ : BufTy).Contents (Elt F)),
    nullary main_c_19 (constantI S_ 32 0#32),
    unary main_c_19 main_v122 (broadcastInDim S640000 ![] bcast_S_S640000 : (⟨S_, .i32⟩ : BufTy).Contents (Elt F) → (⟨S640000, .i32⟩ : BufTy).Contents (Elt F)),
    binary main_arg1 main_v122 main_v123 (cmpi .slt : (⟨S640000, .i32⟩ : BufTy).Contents (Elt F) → (⟨S640000, .i32⟩ : BufTy).Contents (Elt F) → (⟨S640000, .i1⟩ : BufTy).Contents (Elt F)),
    nullary main_c_20 (constantI S_ 32 50000#32),
    unary main_c_20 main_v124 (broadcastInDim S640000 ![] bcast_S_S640000 : (⟨S_, .i32⟩ : BufTy).Contents (Elt F) → (⟨S640000, .i32⟩ : BufTy).Contents (Elt F)),
    binary main_arg1 main_v124 main_v125 (addi : (⟨S640000, .i32⟩ : BufTy).Contents (Elt F) → (⟨S640000, .i32⟩ : BufTy).Contents (Elt F) → (⟨S640000, .i32⟩ : BufTy).Contents (Elt F)),
    ternary main_v123 main_v125 main_arg1 main_v126 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v126 main_v127 (broadcastInDim S640000x1 ![0] bcast_S640000_S640000x1_0 : (⟨S640000, .i32⟩ : BufTy).Contents (Elt F) → (⟨S640000x1, .i32⟩ : BufTy).Contents (Elt F)),
    binary main_v121 main_v127 main_v128 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_cst_21 (constant S_ .f32 0x00000000#32),
    unary main_cst_21 main_v129 (broadcastInDim S50000x128 ![] bcast_S_S50000x128 : (⟨S_, .f32⟩ : BufTy).Contents (Elt F) → (⟨S50000x128, .f32⟩ : BufTy).Contents (Elt F)),
    unary main_arg2 main_v130 (broadcastInDim S640000x1 ![0] bcast_S640000_S640000x1_0 : (⟨S640000, .i32⟩ : BufTy).Contents (Elt F) → (⟨S640000x1, .i32⟩ : BufTy).Contents (Elt F)),
    ternary main_v129 main_v130 main_v128 main_v131 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    unary main_v14 main_v132 (broadcastInDim S50000x128 ![0, 1] bcast_S50000x1_S50000x128_0_1 : (⟨S50000x1, .f32⟩ : BufTy).Contents (Elt F) → (⟨S50000x128, .f32⟩ : BufTy).Contents (Elt F)),
    binary main_v131 main_v132 main_v133 (mulf : (⟨S50000x128, .f32⟩ : BufTy).Contents (Elt F) → (⟨S50000x128, .f32⟩ : BufTy).Contents (Elt F) → (⟨S50000x128, .f32⟩ : BufTy).Contents (Elt F)),
    unary main_arg5 main_v134 ((extractStridedSlice S1x128 ![2, 0] · slices_S3x128_S1x128_2_0) : (⟨S3x128, .f32⟩ : BufTy).Contents (Elt F) → (⟨S1x128, .f32⟩ : BufTy).Contents (Elt F)),
    reshape main_v134 main_v135 rfl shapeCasts_S1x128_S128,
    unary main_v135 main_v136 (broadcastInDim S1x128 ![1] bcast_S128_S1x128_1 : (⟨S128, .f32⟩ : BufTy).Contents (Elt F) → (⟨S1x128, .f32⟩ : BufTy).Contents (Elt F)),
    unary main_v136 main_v137 (broadcastInDim S50000x128 ![0, 1] bcast_S1x128_S50000x128_0_1 : (⟨S1x128, .f32⟩ : BufTy).Contents (Elt F) → (⟨S50000x128, .f32⟩ : BufTy).Contents (Elt F)),
    binary main_v133 main_v137 main_v138 (addf : (⟨S50000x128, .f32⟩ : BufTy).Contents (Elt F) → (⟨S50000x128, .f32⟩ : BufTy).Contents (Elt F) → (⟨S50000x128, .f32⟩ : BufTy).Contents (Elt F)),
    unary main_arg6 main_v139 ((extractStridedSlice S1x128 ![2, 0] · slices_S3x128_S1x128_2_0) : (⟨S3x128, .f32⟩ : BufTy).Contents (Elt F) → (⟨S1x128, .f32⟩ : BufTy).Contents (Elt F)),
    reshape main_v139 main_v140 rfl shapeCasts_S1x128_S128,
    unary main_arg7 main_v141 ((extractStridedSlice S1x128 ![2, 0] · slices_S3x128_S1x128_2_0) : (⟨S3x128, .f32⟩ : BufTy).Contents (Elt F) → (⟨S1x128, .f32⟩ : BufTy).Contents (Elt F)),
    reshape main_v141 main_v142 rfl shapeCasts_S1x128_S128 ]

/-- Layer 3's normalization, first part, through the squares' row sums as a column and the constant 128. -/
abbrev normOpsA3 : List (HloOp τ sig (Elt F)) :=
  [ nullary main_cst_22 (constant S_ .f32 0x00000000#32),
    binary main_v138 main_cst_22 main_v143 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v143 main_v144 (broadcastInDim S50000x1 ![0] bcast_S50000_S50000x1_0 : (⟨S50000, .f32⟩ : BufTy).Contents (Elt F) → (⟨S50000x1, .f32⟩ : BufTy).Contents (Elt F)),
    nullary main_cst_23 (constant S_ .f32 0x43000000#32),
    unary main_cst_23 main_v145 (broadcastInDim S50000x1 ![] bcast_S_S50000x1 : (⟨S_, .f32⟩ : BufTy).Contents (Elt F) → (⟨S50000x1, .f32⟩ : BufTy).Contents (Elt F)),
    binary main_v144 main_v145 main_v146 (Host.divf : (⟨S50000x1, .f32⟩ : BufTy).Contents (Elt F) → (⟨S50000x1, .f32⟩ : BufTy).Contents (Elt F) → (⟨S50000x1, .f32⟩ : BufTy).Contents (Elt F)),
    unary main_v146 main_v147 (broadcastInDim S50000x128 ![0, 1] bcast_S50000x1_S50000x128_0_1 : (⟨S50000x1, .f32⟩ : BufTy).Contents (Elt F) → (⟨S50000x128, .f32⟩ : BufTy).Contents (Elt F)),
    binary main_v138 main_v147 main_v148 (subf : (⟨S50000x128, .f32⟩ : BufTy).Contents (Elt F) → (⟨S50000x128, .f32⟩ : BufTy).Contents (Elt F) → (⟨S50000x128, .f32⟩ : BufTy).Contents (Elt F)),
    binary main_v148 main_v148 main_v149 (mulf : (⟨S50000x128, .f32⟩ : BufTy).Contents (Elt F) → (⟨S50000x128, .f32⟩ : BufTy).Contents (Elt F) → (⟨S50000x128, .f32⟩ : BufTy).Contents (Elt F)),
    nullary main_cst_24 (constant S_ .f32 0x00000000#32),
    binary main_v149 main_cst_24 main_v150 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v150 main_v151 (broadcastInDim S50000x1 ![0] bcast_S50000_S50000x1_0 : (⟨S50000, .f32⟩ : BufTy).Contents (Elt F) → (⟨S50000x1, .f32⟩ : BufTy).Contents (Elt F)),
    nullary main_cst_25 (constant S_ .f32 0x43000000#32) ]

/-- Layer 3's normalization, second part, and the activation (the called function's three operations). -/
abbrev normOpsB3 : List (HloOp τ sig (Elt F)) :=
  [ unary main_cst_25 main_v152 (broadcastInDim S50000x1 ![] bcast_S_S50000x1 : (⟨S_, .f32⟩ : BufTy).Contents (Elt F) → (⟨S50000x1, .f32⟩ : BufTy).Contents (Elt F)),
    binary main_v151 main_v152 main_v153 (Host.divf : (⟨S50000x1, .f32⟩ : BufTy).Contents (Elt F) → (⟨S50000x1, .f32⟩ : BufTy).Contents (Elt F) → (⟨S50000x1, .f32⟩ : BufTy).Contents (Elt F)),
    unary main_v146 main_v154 (broadcastInDim S50000x128 ![0, 1] bcast_S50000x1_S50000x128_0_1 : (⟨S50000x1, .f32⟩ : BufTy).Contents (Elt F) → (⟨S50000x128, .f32⟩ : BufTy).Contents (Elt F)),
    binary main_v138 main_v154 main_v155 (subf : (⟨S50000x128, .f32⟩ : BufTy).Contents (Elt F) → (⟨S50000x128, .f32⟩ : BufTy).Contents (Elt F) → (⟨S50000x128, .f32⟩ : BufTy).Contents (Elt F)),
    nullary main_cst_26 (constant S_ .f32 0x3727C5AC#32),
    unary main_cst_26 main_v156 (broadcastInDim S50000x1 ![] bcast_S_S50000x1 : (⟨S_, .f32⟩ : BufTy).Contents (Elt F) → (⟨S50000x1, .f32⟩ : BufTy).Contents (Elt F)),
    binary main_v153 main_v156 main_v157 (addf : (⟨S50000x1, .f32⟩ : BufTy).Contents (Elt F) → (⟨S50000x1, .f32⟩ : BufTy).Contents (Elt F) → (⟨S50000x1, .f32⟩ : BufTy).Contents (Elt F)),
    unary main_v157 main_v158 (Host.rsqrt : (⟨S50000x1, .f32⟩ : BufTy).Contents (Elt F) → (⟨S50000x1, .f32⟩ : BufTy).Contents (Elt F)),
    unary main_v158 main_v159 (broadcastInDim S50000x128 ![0, 1] bcast_S50000x1_S50000x128_0_1 : (⟨S50000x1, .f32⟩ : BufTy).Contents (Elt F) → (⟨S50000x128, .f32⟩ : BufTy).Contents (Elt F)),
    binary main_v155 main_v159 main_v160 (mulf : (⟨S50000x128, .f32⟩ : BufTy).Contents (Elt F) → (⟨S50000x128, .f32⟩ : BufTy).Contents (Elt F) → (⟨S50000x128, .f32⟩ : BufTy).Contents (Elt F)),
    unary main_v140 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v160 main_v162 main_v163 (mulf : (⟨S50000x128, .f32⟩ : BufTy).Contents (Elt F) → (⟨S50000x128, .f32⟩ : BufTy).Contents (Elt F) → (⟨S50000x128, .f32⟩ : BufTy).Contents (Elt F)),
    unary main_v142 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v163 main_v165 main_v166 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v166) main_call2.v0 main_call2.v1 maximumf ]

/-- The rows to return: zero followed by the first 49 graph sizes, their running sums (the called function's one call, three
    operations over the inner call's buffers), a negative one counted from the end, as a column; the gather of those rows. -/
abbrev pickOps : List (HloOp τ sig (Elt F)) :=
  [ nullary main_c_27 (constantI S_ 32 0#32),
    unary main_c_27 main_v168 (broadcastInDim S1 ![] bcast_S_S1 : (⟨S_, .i32⟩ : BufTy).Contents (Elt F) → (⟨S1, .i32⟩ : BufTy).Contents (Elt F)),
    unary main_arg3 main_v169 ((extractStridedSlice S49 ![0] · slices_S50_S49_0) : (⟨S50, .i32⟩ : BufTy).Contents (Elt F) → (⟨S49, .i32⟩ : BufTy).Contents (Elt F)),
    binary main_v168 main_v169 main_v170 ((fun a b => concatenate S50 0 [⟨S1, a⟩, ⟨S49, b⟩] concatenates_S1_S49_S50_d0) : (⟨S1, .i32⟩ : BufTy).Contents (Elt F) → (⟨S49, .i32⟩ : BufTy).Contents (Elt F) → (⟨S50, .i32⟩ : BufTy).Contents (Elt F)),
    TRef.nullary main_call3.call0.c (constantI S_ 32 0#32),
    TRef.unary main_call3.call0.c main_call3.call0.v0 (broadcastInDim S_ ![] bcast_S_S_),
    TRef.binary (.of main_v170) main_call3.call0.v0 main_call3.call0.v1 (fun x v => Host.reduceWindow IntOp.addi ![50] ![1] ![49] ![0] x v reduceWindows_S50_S50_w50s1p49_0 h_S_),
    nullary main_c_28 (constantI S_ 32 0#32),
    unary main_c_28 main_v172 (broadcastInDim S50 ![] bcast_S_S50 : (⟨S_, .i32⟩ : BufTy).Contents (Elt F) → (⟨S50, .i32⟩ : BufTy).Contents (Elt F)),
    binary main_v171 main_v172 main_v173 (cmpi .slt : (⟨S50, .i32⟩ : BufTy).Contents (Elt F) → (⟨S50, .i32⟩ : BufTy).Contents (Elt F) → (⟨S50, .i1⟩ : BufTy).Contents (Elt F)),
    nullary main_c_29 (constantI S_ 32 50000#32),
    unary main_c_29 main_v174 (broadcastInDim S50 ![] bcast_S_S50 : (⟨S_, .i32⟩ : BufTy).Contents (Elt F) → (⟨S50, .i32⟩ : BufTy).Contents (Elt F)),
    binary main_v171 main_v174 main_v175 (addi : (⟨S50, .i32⟩ : BufTy).Contents (Elt F) → (⟨S50, .i32⟩ : BufTy).Contents (Elt F) → (⟨S50, .i32⟩ : BufTy).Contents (Elt F)),
    ternary main_v173 main_v175 main_v171 main_v176 (select : (⟨S50, .i1⟩ : BufTy).Contents (Elt F) → (⟨S50, .i32⟩ : BufTy).Contents (Elt F) → (⟨S50, .i32⟩ : BufTy).Contents (Elt F) → (⟨S50, .i32⟩ : BufTy).Contents (Elt F)),
    unary main_v176 main_v177 (broadcastInDim S50x1 ![0] bcast_S50_S50x1_0 : (⟨S50, .i32⟩ : BufTy).Contents (Elt F) → (⟨S50x1, .i32⟩ : BufTy).Contents (Elt F)),
    binary main_v167 main_v177 main_v178 ((fun x i => Host.gather gather_S50000x128_S50x1_S50x128_1_0_n_n_0_1_1128 x i) : (⟨S50000x128, .f32⟩ : BufTy).Contents (Elt F) → (⟨S50x1, .i32⟩ : BufTy).Contents (Elt F) → (⟨S50x128, .f32⟩ : BufTy).Contents (Elt F)) ]

/-! ## @main is that line -/

/-- The operations of @main's four printed windows: statements 1 … 60, 61 … 120, 121 … 180 and 181 … 212. -/
abbrev window0 : List (HloOp τ sig (Elt F)) := degOps ++ (aggOps1 ++ normOpsA1)
abbrev window1 : List (HloOp τ sig (Elt F)) := normOpsB1 ++ (aggOps2 ++ normOpsA2)
abbrev window2 : List (HloOp τ sig (Elt F)) := normOpsB2 ++ (aggOps3 ++ normOpsA3)
abbrev window3 : List (HloOp τ sig (Elt F)) := normOpsB3 ++ pickOps

/-- @main's 219 operations, in order. -/
abbrev ops : List (HloOp τ sig (Elt F)) := window0 ++ (window1 ++ (window2 ++ window3))

set_option maxRecDepth 8192 in
/-- The first window calls no function: it is its sixty operations one after the other, by definition. -/
theorem main_part0_eq (c : Dev nD) : main_part0 (F := F) c = seq window0 := rfl

set_option maxRecDepth 8192 in
/-- The second window calls the activation once: with the callee's definition unfolded at the call and the record at its
    fields, both sides are one chain of steps once sequencing is reassociated. -/
theorem main_part1_eq (c : Dev nD) : main_part1 (F := F) c = seq window1 := by
  simp only [main_part1, fn_relu.body, seq, List.cons_append, List.nil_append, bind_assoc, pure_bind]
  rfl

set_option maxRecDepth 8192 in
theorem main_part2_eq (c : Dev nD) : main_part2 (F := F) c = seq window2 := by
  simp only [main_part2, fn_relu.body, seq, List.cons_append, List.nil_append, bind_assoc, pure_bind]
  rfl

set_option maxRecDepth 8192 in
/-- The last window calls the activation and the running sum, which calls the function that computes it. -/
theorem main_part3_eq (c : Dev nD) : main_part3 (F := F) c = seq window3 := by
  simp only [main_part3, fn_relu.body, fn_cumsum.body, fn_cumsum_0.body, seq, List.cons_append, List.nil_append, bind_assoc, pure_bind]

/-- @main runs its four windows in order, and a line run after a line is their concatenation run as one. -/
theorem main_eq (c : Dev nD) : main (F := F) c = seq ops :=
  (show main (F := F) c
      = (main_part0 c >>= fun _ => main_part1 c >>= fun _ => main_part2 c >>= fun _ => main_part3 c) from rfl).trans (by
    rw [main_part0_eq, main_part1_eq, main_part2_eq, main_part3_eq,
      show (ops : List (HloOp τ sig (Elt F))) = window0 ++ (window1 ++ (window2 ++ window3)) from rfl,
      seq_append window0, seq_append window1, seq_append window2])

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and determines its result. -/

theorem degOps_sub : (degOps : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., unary_bufs_sub .., unary_bufs_sub .., nullary_bufs_sub .., unary_bufs_sub .., binary_bufs_sub ..,
    unary_bufs_sub .., unary_bufs_sub ..⟩
theorem degOps_fresh : (degOps : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem aggOps1_sub : (aggOps1 : List (HloOp τ sig (Elt F))).Forall fun op => op.bufs ⊆ tcRefs τ sig :=
  ⟨unary_bufs_sub .., reshape_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., binary_bufs_sub .., unary_bufs_sub .., reshape_bufs_sub .., unary_bufs_sub .., unary_bufs_sub ..,
    binary_bufs_sub .., unary_bufs_sub .., reshape_bufs_sub .., unary_bufs_sub .., reshape_bufs_sub ..⟩
theorem aggOps1_fresh : (aggOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl⟩
theorem normOpsA1_sub : (normOpsA1 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub ..⟩
theorem normOpsA1_fresh : (normOpsA1 : List (HloOp τ sig (Elt F))).Forall fun op => op.fresh = ∅ :=
  ⟨rfl, rfl, rfl, rfl, rfl, rfl, rfl, rfl, rfl, rfl, rfl⟩
theorem normOpsB1_sub : (normOpsB1 : List (HloOp τ sig (Elt F))).Forall fun op => op.bufs ⊆ tcRefs τ sig :=
  ⟨unary_bufs_sub .., nullary_bufs_sub .., unary_bufs_sub .., binary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩
theorem normOpsB1_fresh : (normOpsB1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl⟩
theorem aggOps2_sub : (aggOps2 : List (HloOp τ sig (Elt F))).Forall fun op => op.bufs ⊆ tcRefs τ sig :=
  ⟨unary_bufs_sub .., reshape_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., binary_bufs_sub .., unary_bufs_sub .., reshape_bufs_sub .., unary_bufs_sub .., unary_bufs_sub ..,
    binary_bufs_sub .., unary_bufs_sub .., reshape_bufs_sub .., unary_bufs_sub .., reshape_bufs_sub ..⟩
theorem aggOps2_fresh : (aggOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl⟩
theorem normOpsA2_sub : (normOpsA2 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..⟩
theorem normOpsA2_fresh : (normOpsA2 : List (HloOp τ sig (Elt F))).Forall fun op => op.fresh = ∅ :=
  ⟨rfl, rfl, rfl, rfl, rfl, rfl, rfl, rfl, rfl, rfl, rfl, rfl⟩
theorem normOpsB2_sub : (normOpsB2 : List (HloOp τ sig (Elt F))).Forall fun op => op.bufs ⊆ tcRefs τ sig :=
  ⟨nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub ..⟩
theorem normOpsB2_fresh : (normOpsB2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem aggOps3_sub : (aggOps3 : List (HloOp τ sig (Elt F))).Forall fun op => op.bufs ⊆ tcRefs τ sig :=
  ⟨unary_bufs_sub .., reshape_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., binary_bufs_sub .., unary_bufs_sub .., reshape_bufs_sub .., unary_bufs_sub .., unary_bufs_sub ..,
    binary_bufs_sub .., unary_bufs_sub .., reshape_bufs_sub .., unary_bufs_sub .., reshape_bufs_sub ..⟩
theorem aggOps3_fresh : (aggOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl⟩
theorem normOpsA3_sub : (normOpsA3 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub ..⟩
theorem normOpsA3_fresh : (normOpsA3 : List (HloOp τ sig (Elt F))).Forall fun op => op.fresh = ∅ :=
  ⟨rfl, rfl, rfl, rfl, rfl, rfl, rfl, rfl, rfl, rfl, rfl, rfl, rfl⟩
theorem normOpsB3_sub : (normOpsB3 : List (HloOp τ sig (Elt F))).Forall fun op => op.bufs ⊆ tcRefs τ sig :=
  ⟨unary_bufs_sub .., binary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem normOpsB3_fresh : (normOpsB3 : List (HloOp τ sig (Elt F))).Forall fun op => op.fresh = ∅ :=
  ⟨rfl, rfl, rfl, rfl, rfl, rfl, rfl, rfl, rfl, rfl, rfl, rfl, rfl, rfl, rfl, rfl, rfl, rfl, rfl⟩
theorem pickOps_sub : (pickOps : List (HloOp τ sig (Elt F))).Forall fun op => op.bufs ⊆ tcRefs τ sig :=
  ⟨nullary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub ..⟩
theorem pickOps_fresh : (pickOps : List (HloOp τ sig (Elt F))).Forall fun op => op.fresh = ∅ :=
  ⟨rfl, rfl, rfl, rfl, rfl, rfl, rfl, rfl, rfl, rfl, rfl, rfl, rfl, rfl, rfl, rfl⟩

/-- A property of every operation of two lists holds of every operation of their concatenation. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.mpr fun op h =>
    (List.mem_append.mp h).elim (List.forall_iff_forall_mem.mp h₁ op) (List.forall_iff_forall_mem.mp h₂ op)

theorem ops_sub : (ops : List (HloOp τ sig (Elt F))).Forall fun op => op.bufs ⊆ tcRefs τ sig :=
  forall_append (forall_append degOps_sub (forall_append aggOps1_sub normOpsA1_sub))
    (forall_append (forall_append normOpsB1_sub (forall_append aggOps2_sub normOpsA2_sub))
      (forall_append (forall_append normOpsB2_sub (forall_append aggOps3_sub normOpsA3_sub))
        (forall_append normOpsB3_sub pickOps_sub)))

theorem ops_fresh : (ops : List (HloOp τ sig (Elt F))).Forall fun op => op.fresh = ∅ :=
  forall_append (forall_append degOps_fresh (forall_append aggOps1_fresh normOpsA1_fresh))
    (forall_append (forall_append normOpsB1_fresh (forall_append aggOps2_fresh normOpsA2_fresh))
      (forall_append (forall_append normOpsB2_fresh (forall_append aggOps3_fresh normOpsA3_fresh))
        (forall_append normOpsB3_fresh pickOps_fresh)))

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## What a piece leaves unchanged

Each operation writes its result buffer only, so a buffer that is not the result of any operation of a list keeps its contents
through the list. In these statements and in the stages' below the buffer on the left stands under `no_index`: a reference
unfolds to its fields, and a rewrite rule indexed by them is not found at a literal reference. -/

/-- A list run after a list folds as the second from where the first ends. -/
theorem after_append (l₁ l₂ : List (HloOp τ sig (Elt F))) (V : Valuation τ sig (Elt F)) : after (l₁ ++ l₂) V = after l₂ (after l₁ V) := by
  induction l₁ generalizing V with
  | nil => rfl
  | cons op l ih => rw [List.cons_append, after_cons, after_cons, ih]

/-- A result buffer that is among the references of a list is among them as device buffers. -/
theorem writes_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The buffers that the degree stage writes. -/
abbrev degOps_W : List (Ref sig .tc) :=
  [main_cst, main_v0, main_cst_0, main_v1, main_v2, main_v3, main_cst_1, main_v4, main_v5, main_v6,
   main_cst_2, main_v7, main_v8, main_v9, main_v10, main_cst_3, main_v11, main_v12, main_v13, main_v14]
theorem degOps_writes : (degOps : List (HloOp τ sig (Elt F))).Forall fun op => op.writes ⊆ (degOps_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide)⟩
theorem degOps_keep (V : Valuation τ sig (Elt F)) {r : Ref sig .tc} (h : r ∉ degOps_W) :
    after degOps V (no_index (Proc.devRef .tc r)) = V (Proc.devRef .tc r) :=
  after_of_writes_sub degOps V degOps_writes h

/-- The buffers that layer 1's aggregation writes. -/
abbrev aggOps1_W : List (Ref sig .tc) :=
  [main_v15, main_v16, main_v17, main_v18, main_v19, main_c, main_v20, main_v21, main_c_4, main_v22,
   main_v23, main_v24, main_v25, main_v26, main_cst_5, main_v27, main_v28, main_v29, main_v30, main_v31,
   main_v32, main_v33, main_v34, main_v35, main_v36, main_v37, main_v38, main_v39, main_v40]
theorem aggOps1_writes : (aggOps1 : List (HloOp τ sig (Elt F))).Forall fun op => op.writes ⊆ (aggOps1_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide)⟩
theorem aggOps1_keep (V : Valuation τ sig (Elt F)) {r : Ref sig .tc} (h : r ∉ aggOps1_W) :
    after aggOps1 V (no_index (Proc.devRef .tc r)) = V (Proc.devRef .tc r) :=
  after_of_writes_sub aggOps1 V aggOps1_writes h

/-- The buffers that the first part of layer 1's normalization writes. -/
abbrev normOpsA1_W : List (Ref sig .tc) :=
  [main_cst_6, main_v41, main_v42, main_cst_7, main_v43, main_v44, main_v45, main_v46, main_v47, main_cst_8,
   main_v48]
theorem normOpsA1_writes : (normOpsA1 : List (HloOp τ sig (Elt F))).Forall fun op => op.writes ⊆ (normOpsA1_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide)⟩
theorem normOpsA1_keep (V : Valuation τ sig (Elt F)) {r : Ref sig .tc} (h : r ∉ normOpsA1_W) :
    after normOpsA1 V (no_index (Proc.devRef .tc r)) = V (Proc.devRef .tc r) :=
  after_of_writes_sub normOpsA1 V normOpsA1_writes h

/-- The buffers that the second part of layer 1's normalization writes. -/
abbrev normOpsB1_W : List (Ref sig .tc) :=
  [main_v49, main_cst_9, main_v50, main_v51, main_v52, main_v53, main_cst_10, main_v54, main_v55, main_v56,
   main_v57, main_v58, main_v59, main_v60, main_v61, main_v62, main_v63, main_v64, main_call0_cst, main_call0_v0,
   main_v65]
theorem normOpsB1_writes : (normOpsB1 : List (HloOp τ sig (Elt F))).Forall fun op => op.writes ⊆ (normOpsB1_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide)⟩
theorem normOpsB1_keep (V : Valuation τ sig (Elt F)) {r : Ref sig .tc} (h : r ∉ normOpsB1_W) :
    after normOpsB1 V (no_index (Proc.devRef .tc r)) = V (Proc.devRef .tc r) :=
  after_of_writes_sub normOpsB1 V normOpsB1_writes h

/-- The buffers that layer 2's aggregation writes. -/
abbrev aggOps2_W : List (Ref sig .tc) :=
  [main_v66, main_v67, main_v68, main_v69, main_v70, main_c_11, main_v71, main_v72, main_c_12, main_v73,
   main_v74, main_v75, main_v76, main_v77, main_cst_13, main_v78, main_v79, main_v80, main_v81, main_v82,
   main_v83, main_v84, main_v85, main_v86, main_v87, main_v88, main_v89, main_v90, main_v91]
theorem aggOps2_writes : (aggOps2 : List (HloOp τ sig (Elt F))).Forall fun op => op.writes ⊆ (aggOps2_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide)⟩
theorem aggOps2_keep (V : Valuation τ sig (Elt F)) {r : Ref sig .tc} (h : r ∉ aggOps2_W) :
    after aggOps2 V (no_index (Proc.devRef .tc r)) = V (Proc.devRef .tc r) :=
  after_of_writes_sub aggOps2 V aggOps2_writes h

/-- The buffers that the first part of layer 2's normalization writes. -/
abbrev normOpsA2_W : List (Ref sig .tc) :=
  [main_cst_14, main_v92, main_v93, main_cst_15, main_v94, main_v95, main_v96, main_v97, main_v98, main_cst_16,
   main_v99, main_v100]
theorem normOpsA2_writes : (normOpsA2 : List (HloOp τ sig (Elt F))).Forall fun op => op.writes ⊆ (normOpsA2_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide)⟩
theorem normOpsA2_keep (V : Valuation τ sig (Elt F)) {r : Ref sig .tc} (h : r ∉ normOpsA2_W) :
    after normOpsA2 V (no_index (Proc.devRef .tc r)) = V (Proc.devRef .tc r) :=
  after_of_writes_sub normOpsA2 V normOpsA2_writes h

/-- The buffers that the second part of layer 2's normalization writes. -/
abbrev normOpsB2_W : List (Ref sig .tc) :=
  [main_cst_17, main_v101, main_v102, main_v103, main_v104, main_cst_18, main_v105, main_v106, main_v107, main_v108,
   main_v109, main_v110, main_v111, main_v112, main_v113, main_v114, main_v115, main_call1_cst, main_call1_v0, main_v116]
theorem normOpsB2_writes : (normOpsB2 : List (HloOp τ sig (Elt F))).Forall fun op => op.writes ⊆ (normOpsB2_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide)⟩
theorem normOpsB2_keep (V : Valuation τ sig (Elt F)) {r : Ref sig .tc} (h : r ∉ normOpsB2_W) :
    after normOpsB2 V (no_index (Proc.devRef .tc r)) = V (Proc.devRef .tc r) :=
  after_of_writes_sub normOpsB2 V normOpsB2_writes h

/-- The buffers that layer 3's aggregation writes. -/
abbrev aggOps3_W : List (Ref sig .tc) :=
  [main_v117, main_v118, main_v119, main_v120, main_v121, main_c_19, main_v122, main_v123, main_c_20, main_v124,
   main_v125, main_v126, main_v127, main_v128, main_cst_21, main_v129, main_v130, main_v131, main_v132, main_v133,
   main_v134, main_v135, main_v136, main_v137, main_v138, main_v139, main_v140, main_v141, main_v142]
theorem aggOps3_writes : (aggOps3 : List (HloOp τ sig (Elt F))).Forall fun op => op.writes ⊆ (aggOps3_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide)⟩
theorem aggOps3_keep (V : Valuation τ sig (Elt F)) {r : Ref sig .tc} (h : r ∉ aggOps3_W) :
    after aggOps3 V (no_index (Proc.devRef .tc r)) = V (Proc.devRef .tc r) :=
  after_of_writes_sub aggOps3 V aggOps3_writes h

/-- The buffers that the first part of layer 3's normalization writes. -/
abbrev normOpsA3_W : List (Ref sig .tc) :=
  [main_cst_22, main_v143, main_v144, main_cst_23, main_v145, main_v146, main_v147, main_v148, main_v149, main_cst_24,
   main_v150, main_v151, main_cst_25]
theorem normOpsA3_writes : (normOpsA3 : List (HloOp τ sig (Elt F))).Forall fun op => op.writes ⊆ (normOpsA3_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide)⟩
theorem normOpsA3_keep (V : Valuation τ sig (Elt F)) {r : Ref sig .tc} (h : r ∉ normOpsA3_W) :
    after normOpsA3 V (no_index (Proc.devRef .tc r)) = V (Proc.devRef .tc r) :=
  after_of_writes_sub normOpsA3 V normOpsA3_writes h

/-- The buffers that the second part of layer 3's normalization writes. -/
abbrev normOpsB3_W : List (Ref sig .tc) :=
  [main_v152, main_v153, main_v154, main_v155, main_cst_26, main_v156, main_v157, main_v158, main_v159, main_v160,
   main_v161, main_v162, main_v163, main_v164, main_v165, main_v166, main_call2_cst, main_call2_v0, main_v167]
theorem normOpsB3_writes : (normOpsB3 : List (HloOp τ sig (Elt F))).Forall fun op => op.writes ⊆ (normOpsB3_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide)⟩
theorem normOpsB3_keep (V : Valuation τ sig (Elt F)) {r : Ref sig .tc} (h : r ∉ normOpsB3_W) :
    after normOpsB3 V (no_index (Proc.devRef .tc r)) = V (Proc.devRef .tc r) :=
  after_of_writes_sub normOpsB3 V normOpsB3_writes h

/-- The buffers that the choice of rows writes. -/
abbrev pickOps_W : List (Ref sig .tc) :=
  [main_c_27, main_v168, main_v169, main_v170, main_call3_call0_c, main_call3_call0_v0, main_v171, main_c_28, main_v172, main_v173,
   main_c_29, main_v174, main_v175, main_v176, main_v177, main_v178]
theorem pickOps_writes : (pickOps : List (HloOp τ sig (Elt F))).Forall fun op => op.writes ⊆ (pickOps_W.map (Proc.devRef (τ := τ) .tc)).toFinset :=
  ⟨writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide),
   writes_sub_of_mem (by decide), writes_sub_of_mem (by decide), writes_sub_of_mem (by decide), writes_sub_of_mem (by decide)⟩
theorem pickOps_keep (V : Valuation τ sig (Elt F)) {r : Ref sig .tc} (h : r ∉ pickOps_W) :
    after pickOps V (no_index (Proc.devRef .tc r)) = V (Proc.devRef .tc r) :=
  after_of_writes_sub pickOps V pickOps_writes h

/-! ## What each stage computes

From any contents `V` of the buffers: each buffer a stage leaves for the later ones, as the corresponding function of
`Cert.LayerTerms` of the contents of the buffers the stage reads. The fold is unrolled, each operation's result read at its
own buffer as its function's value and at any other buffer as what was there; what remains is the stage's definition
unfolded. -/

attribute [local irreducible] Host.scatterAdd in
/-- After the degree stage the two scale columns hold `invSqrtDeg` of the source list and of the destination list. -/
theorem deg_src (V : Valuation τ sig (Elt F)) :
    after degOps V (no_index (main_v10 : DevRef τ sig)) = invSqrtDeg (V (main_arg1 : DevRef τ sig)) := by
  after_results_simp
  rfl
attribute [local irreducible] Host.scatterAdd in
theorem deg_dst (V : Valuation τ sig (Elt F)) :
    after degOps V (no_index (main_v14 : DevRef τ sig)) = invSqrtDeg (V (main_arg2 : DevRef τ sig)) := by
  after_results_simp
  rfl

attribute [local irreducible] Host.scatterAdd Host.gather in
/-- After layer 1's aggregation its last sum holds the features times slice 0 of the weights, scaled by the source scale,
    gathered along the edges and added at their destinations, scaled by the destination scale, plus row 0 of the biases. -/
theorem agg1_out (V : Valuation τ sig (Elt F)) :
    after aggOps1 V (no_index (main_v36 : DevRef τ sig))
      = affineIn (aggregate (scaledProduct (V (main_arg0 : DevRef τ sig)) (weight0 (V (main_arg4 : DevRef τ sig))) (V (main_v10 : DevRef τ sig)))
            (V (main_arg1 : DevRef τ sig)) (V (main_arg2 : DevRef τ sig)))
          (V (main_v14 : DevRef τ sig)) (asRow (vec0 (V (main_arg5 : DevRef τ sig)))) := by
  after_results_simp
  rfl
/-- Row 0 of the gains, and of the shifts, as vectors. -/
theorem agg1_gain (V : Valuation τ sig (Elt F)) :
    after aggOps1 V (no_index (main_v38 : DevRef τ sig)) = vec0 (V (main_arg6 : DevRef τ sig)) := by
  after_results_simp
  rfl
theorem agg1_shift (V : Valuation τ sig (Elt F)) :
    after aggOps1 V (no_index (main_v40 : DevRef τ sig)) = vec0 (V (main_arg7 : DevRef τ sig)) := by
  after_results_simp
  rfl

attribute [local irreducible] Host.reduceAdd in
/-- After both parts of layer 1's normalization the activation's result holds the normalized rows of the sum, scaled by the
    gain, shifted, negative entries replaced by zero: the mean and the variance the operations compute are `rowMean` of the
    sum and of its squared centered entries. -/
theorem norm1_out (V : Valuation τ sig (Elt F)) :
    after normOpsB1 (after normOpsA1 V) (no_index (main_v65 : DevRef τ sig))
      = normRelu (V (main_v36 : DevRef τ sig)) (asRow (V (main_v38 : DevRef τ sig))) (asRow (V (main_v40 : DevRef τ sig))) := by
  after_results_simp
  rfl

attribute [local irreducible] Host.scatterAdd Host.gather in
/-- After layer 2's aggregation its last sum holds layer 1's output times slice 1 of the weights, scaled by the source scale,
    gathered along the edges and added at their destinations, scaled by the destination scale, plus row 1 of the biases. -/
theorem agg2_out (V : Valuation τ sig (Elt F)) :
    after aggOps2 V (no_index (main_v87 : DevRef τ sig))
      = affineIn (aggregate (scaledProduct (V (main_v65 : DevRef τ sig)) (weight1 (V (main_arg4 : DevRef τ sig))) (V (main_v10 : DevRef τ sig)))
            (V (main_arg1 : DevRef τ sig)) (V (main_arg2 : DevRef τ sig)))
          (V (main_v14 : DevRef τ sig)) (asRow (vec1 (V (main_arg5 : DevRef τ sig)))) := by
  after_results_simp
  rfl
/-- Row 1 of the gains, and of the shifts, as vectors. -/
theorem agg2_gain (V : Valuation τ sig (Elt F)) :
    after aggOps2 V (no_index (main_v89 : DevRef τ sig)) = vec1 (V (main_arg6 : DevRef τ sig)) := by
  after_results_simp
  rfl
theorem agg2_shift (V : Valuation τ sig (Elt F)) :
    after aggOps2 V (no_index (main_v91 : DevRef τ sig)) = vec1 (V (main_arg7 : DevRef τ sig)) := by
  after_results_simp
  rfl

attribute [local irreducible] Host.reduceAdd in
/-- After both parts of layer 2's normalization the activation's result holds the normalized rows of the sum, scaled by the
    gain, shifted, negative entries replaced by zero: the mean and the variance the operations compute are `rowMean` of the
    sum and of its squared centered entries. -/
theorem norm2_out (V : Valuation τ sig (Elt F)) :
    after normOpsB2 (after normOpsA2 V) (no_index (main_v116 : DevRef τ sig))
      = normRelu (V (main_v87 : DevRef τ sig)) (asRow (V (main_v89 : DevRef τ sig))) (asRow (V (main_v91 : DevRef τ sig))) := by
  after_results_simp
  rfl

attribute [local irreducible] Host.scatterAdd Host.gather in
/-- After layer 3's aggregation its last sum holds layer 2's output times slice 2 of the weights, scaled by the source scale,
    gathered along the edges and added at their destinations, scaled by the destination scale, plus row 2 of the biases. -/
theorem agg3_out (V : Valuation τ sig (Elt F)) :
    after aggOps3 V (no_index (main_v138 : DevRef τ sig))
      = affineIn (aggregate (scaledProduct (V (main_v116 : DevRef τ sig)) (weight2 (V (main_arg4 : DevRef τ sig))) (V (main_v10 : DevRef τ sig)))
            (V (main_arg1 : DevRef τ sig)) (V (main_arg2 : DevRef τ sig)))
          (V (main_v14 : DevRef τ sig)) (asRow (vec2 (V (main_arg5 : DevRef τ sig)))) := by
  after_results_simp
  rfl
/-- Row 2 of the gains, and of the shifts, as vectors. -/
theorem agg3_gain (V : Valuation τ sig (Elt F)) :
    after aggOps3 V (no_index (main_v140 : DevRef τ sig)) = vec2 (V (main_arg6 : DevRef τ sig)) := by
  after_results_simp
  rfl
theorem agg3_shift (V : Valuation τ sig (Elt F)) :
    after aggOps3 V (no_index (main_v142 : DevRef τ sig)) = vec2 (V (main_arg7 : DevRef τ sig)) := by
  after_results_simp
  rfl

attribute [local irreducible] Host.reduceAdd in
/-- After both parts of layer 3's normalization the activation's result holds the normalized rows of the sum, scaled by the
    gain, shifted, negative entries replaced by zero: the mean and the variance the operations compute are `rowMean` of the
    sum and of its squared centered entries. -/
theorem norm3_out (V : Valuation τ sig (Elt F)) :
    after normOpsB3 (after normOpsA3 V) (no_index (main_v167 : DevRef τ sig))
      = normRelu (V (main_v138 : DevRef τ sig)) (asRow (V (main_v140 : DevRef τ sig))) (asRow (V (main_v142 : DevRef τ sig))) := by
  after_results_simp
  rfl

attribute [local irreducible] Host.gather Host.reduceWindow concatenate in
/-- After the last stage the result holds the rows of the third layer's output that the running sums of the graph sizes name. -/
theorem pick_out (V : Valuation τ sig (Elt F)) :
    after pickOps V (no_index (main_v178 : DevRef τ sig)) = pick (V (main_v167 : DevRef τ sig)) (V (main_arg3 : DevRef τ sig)) := by
  after_results_simp
  rfl

/-! ## The whole line -/

/-- The fold over the whole line, piece after piece. -/
theorem after_ops (V : Valuation τ sig (Elt F)) :
    after ops V = after pickOps (after normOpsB3 (after normOpsA3 (after aggOps3 (after normOpsB2 (after normOpsA2
      (after aggOps2 (after normOpsB1 (after normOpsA1 (after aggOps1 (after degOps V)))))))))) := by
  simp only [ops, window0, window1, window2, window3, after_append]

/-- The result buffer ends at `out` of the arguments' contents. Read from the end: the result is `pick` of the third
    activation and the graph sizes; each activation is `normRelu` of its layer's sum, gain and shift; each sum is `affineIn`
    of the aggregate of the previous activation (the features, for the first) with the two scales, which are `invSqrtDeg` of
    the edge lists; and the arguments and the scales pass unchanged through the pieces that do not write them. That is
    `out` with `layer` and `normAct` unfolded. -/
theorem out_eq (V : Valuation τ sig (Elt F)) :
    after ops V (main_v178 : DevRef τ sig)
      = out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  rw [after_ops]
  simp (disch := decide) only [pick_out, norm3_out, agg3_out, agg3_gain, agg3_shift, norm2_out, agg2_out, agg2_gain, agg2_shift,
    norm1_out, agg1_out, agg1_gain, agg1_shift, deg_src, deg_dst,
    pickOps_keep, normOpsB3_keep, normOpsA3_keep, aggOps3_keep, normOpsB2_keep, normOpsA2_keep, aggOps2_keep, normOpsB1_keep, normOpsA1_keep, aggOps1_keep, degOps_keep]
  rfl

/-! No operation writes an argument's buffer. -/

theorem arg0_eq (V : Valuation τ sig (Elt F)) : after ops V (main_arg0 : DevRef τ sig) = V (main_arg0 : DevRef τ sig) := by
  rw [after_ops]
  simp (disch := decide) only [pickOps_keep, normOpsB3_keep, normOpsA3_keep, aggOps3_keep, normOpsB2_keep, normOpsA2_keep, aggOps2_keep, normOpsB1_keep, normOpsA1_keep, aggOps1_keep, degOps_keep]
theorem arg1_eq (V : Valuation τ sig (Elt F)) : after ops V (main_arg1 : DevRef τ sig) = V (main_arg1 : DevRef τ sig) := by
  rw [after_ops]
  simp (disch := decide) only [pickOps_keep, normOpsB3_keep, normOpsA3_keep, aggOps3_keep, normOpsB2_keep, normOpsA2_keep, aggOps2_keep, normOpsB1_keep, normOpsA1_keep, aggOps1_keep, degOps_keep]
theorem arg2_eq (V : Valuation τ sig (Elt F)) : after ops V (main_arg2 : DevRef τ sig) = V (main_arg2 : DevRef τ sig) := by
  rw [after_ops]
  simp (disch := decide) only [pickOps_keep, normOpsB3_keep, normOpsA3_keep, aggOps3_keep, normOpsB2_keep, normOpsA2_keep, aggOps2_keep, normOpsB1_keep, normOpsA1_keep, aggOps1_keep, degOps_keep]
theorem arg3_eq (V : Valuation τ sig (Elt F)) : after ops V (main_arg3 : DevRef τ sig) = V (main_arg3 : DevRef τ sig) := by
  rw [after_ops]
  simp (disch := decide) only [pickOps_keep, normOpsB3_keep, normOpsA3_keep, aggOps3_keep, normOpsB2_keep, normOpsA2_keep, aggOps2_keep, normOpsB1_keep, normOpsA1_keep, aggOps1_keep, degOps_keep]
theorem arg4_eq (V : Valuation τ sig (Elt F)) : after ops V (main_arg4 : DevRef τ sig) = V (main_arg4 : DevRef τ sig) := by
  rw [after_ops]
  simp (disch := decide) only [pickOps_keep, normOpsB3_keep, normOpsA3_keep, aggOps3_keep, normOpsB2_keep, normOpsA2_keep, aggOps2_keep, normOpsB1_keep, normOpsA1_keep, aggOps1_keep, degOps_keep]
theorem arg5_eq (V : Valuation τ sig (Elt F)) : after ops V (main_arg5 : DevRef τ sig) = V (main_arg5 : DevRef τ sig) := by
  rw [after_ops]
  simp (disch := decide) only [pickOps_keep, normOpsB3_keep, normOpsA3_keep, aggOps3_keep, normOpsB2_keep, normOpsA2_keep, aggOps2_keep, normOpsB1_keep, normOpsA1_keep, aggOps1_keep, degOps_keep]
theorem arg6_eq (V : Valuation τ sig (Elt F)) : after ops V (main_arg6 : DevRef τ sig) = V (main_arg6 : DevRef τ sig) := by
  rw [after_ops]
  simp (disch := decide) only [pickOps_keep, normOpsB3_keep, normOpsA3_keep, aggOps3_keep, normOpsB2_keep, normOpsA2_keep, aggOps2_keep, normOpsB1_keep, normOpsA1_keep, aggOps1_keep, degOps_keep]
theorem arg7_eq (V : Valuation τ sig (Elt F)) : after ops V (main_arg7 : DevRef τ sig) = V (main_arg7 : DevRef τ sig) := by
  rw [after_ops]
  simp (disch := decide) only [pickOps_keep, normOpsB3_keep, normOpsA3_keep, aggOps3_keep, normOpsB2_keep, normOpsA2_keep, aggOps2_keep, normOpsB1_keep, normOpsA1_keep, aggOps1_keep, degOps_keep]

/-- On every device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v178)
          = Cert.LayerTerms.out (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run defs _ _).mono (fun _ h c => ⟨(h c main_v178).trans (out_eq (launchContents m c)),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_main m ρ)

end Cert.ReferenceIdeal.RefRun

end
-- ==== Proof.lean ====
/-
  The certificate of three graph-convolution layers: a tiled program against the plain one, over the extended reals.

  Both programs take node features `x : [50000, 128]`, edge lists `src, dst : [640000]`, graph sizes `[50]`, and per
  layer a weight `[128, 128]` and three vectors `[128]`. With `io, ii` the columns `1 / sqrt (max (degree, 1))` of the
  out- and in-degrees, a layer is

      x ↦ relu (layerNorm ((A ((x · w) ⊙ io)) ⊙ ii + b) ⊙ g + be),

  `A` gathering the rows the source list names and adding each into the row its destination names; the result is the
  third layer's output at the first node of each graph. The tiled program computes `(x · w) ⊙ io` and the
  normalization-and-rectifier in launches over 25 blocks of 2000 rows, everything else on the host, exactly as the
  plain program does.

  Both sides compute, entry by entry, the same expression in the same order — a product into a zero accumulator is the
  sum of products, a change of float format is the identity, a row sum by either program is the row's sum — so no law
  of arithmetic beyond `0 + s = s` is used and the inputs' finiteness is never opened. The mathematics is in the
  modules this one assembles: `LayerTerms` (the stages as whole-array functions, and `out`), `RowNorm` / `RowScale`
  (the two launch bodies and their host spellings read at an entry), `PayloadRead` / `TermsRead` (the same for this
  program's payloads and stages), `Region0 … Region5` (each launch's output array from its 25 blocks),
  `HostValues` / `Chain` (the tiled program's result is `out` of its arguments), `KernelRun` (its run with the result
  named) and `RefRun` (the plain program's run ends at `out`).
-/
import proofs.«102242_j71691594105496_1_alg».proof.Defs
import proofs.«102242_j71691594105496_1_alg».proof.Proof.Gen.Kernel
import proofs.«102242_j71691594105496_1_alg».proof.Proof.Gen.Kernel.Skeleton
import proofs.«102242_j71691594105496_1_alg».proof.Proof.Gen.Kernel.Launch
import proofs.«102242_j71691594105496_1_alg».proof.Proof.Gen.Kernel.Points
import proofs.«102242_j71691594105496_1_alg».proof.Proof.Gen.Kernel.Frame
import proofs.«102242_j71691594105496_1_alg».proof.Proof.Gen.KernelIdeal
import proofs.«102242_j71691594105496_1_alg».proof.Proof.Gen.KernelIdeal.Skeleton
import proofs.«102242_j71691594105496_1_alg».proof.Proof.Gen.KernelIdeal.Launch
import proofs.«102242_j71691594105496_1_alg».proof.Proof.Gen.KernelIdeal.Points
import proofs.«102242_j71691594105496_1_alg».proof.Proof.Gen.KernelIdeal.Frame
import proofs.«102242_j71691594105496_1_alg».proof.Proof.Gen.ReferenceIdeal
import proofs.«102242_j71691594105496_1_alg».proof.Proof.Gen.Pre_finite_inputs
import proofs.«102242_j71691594105496_1_alg».proof.Proof.KernelRun
import proofs.«102242_j71691594105496_1_alg».proof.Proof.Chain
import proofs.«102242_j71691594105496_1_alg».proof.Proof.RefRun
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the tiled program read at the extended reals. -/
theorem frame_kernelIdeal : Cert.frame_KernelIdeal := fun m ρ _ => Cert.KernelIdeal.Gen.frame m ρ

/-- The plain program's run, its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with their result at `out` of the arguments, and the arguments agree. -/
theorem algebraic : Cert.algebraic_KernelIdeal_ReferenceIdeal := by
  intro m ρ m' ρ' _ hagree
  refine ⟨fun c => Cert.LayerTerms.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
